-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S100000x128 : Shape := ⟨2, ![100000, 128]⟩
abbrev S10000x128 : Shape := ⟨2, ![10000, 128]⟩
abbrev S128x128 : Shape := ⟨2, ![128, 128]⟩
abbrev S128 : Shape := ⟨1, ![128]⟩
abbrev S640000 : Shape := ⟨1, ![640000]⟩
abbrev S200000 : Shape := ⟨1, ![200000]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x128 .f32) (main_arg8 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S20000x128 .f32) (main_arg1 : FVec F S100000x128 .f32) (main_arg2 : FVec F S10000x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : IVec S640000 32) (main_arg10 : IVec S640000 32) (main_arg11 : IVec S200000 32) (main_arg12 : IVec S200000 32) (main_arg13 : IVec S200000 32) (main_arg14 : IVec S200000 32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S20000x128 : Shape := ⟨2, ![20000, 128]⟩
abbrev S100000x128 : Shape := ⟨2, ![100000, 128]⟩
abbrev S10000x128 : Shape := ⟨2, ![10000, 128]⟩
abbrev S128x128 : Shape := ⟨2, ![128, 128]⟩
abbrev S128 : Shape := ⟨1, ![128]⟩
abbrev S640000 : Shape := ⟨1, ![640000]⟩
abbrev S200000 : Shape := ⟨1, ![200000]⟩
abbrev S_ : Shape := ⟨0, ![]⟩
abbrev S20000 : Shape := ⟨1, ![20000]⟩
abbrev S640000x1 : Shape := ⟨2, ![640000, 1]⟩
abbrev S20000x1 : Shape := ⟨2, ![20000, 1]⟩
abbrev S2000x128 : Shape := ⟨2, ![2000, 128]⟩
abbrev S2000x1 : Shape := ⟨2, ![2000, 1]⟩
abbrev S640000x128 : Shape := ⟨2, ![640000, 128]⟩
abbrev S1x128 : Shape := ⟨2, ![1, 128]⟩
abbrev S100000 : Shape := ⟨1, ![100000]⟩
abbrev S200000x1 : Shape := ⟨2, ![200000, 1]⟩
abbrev S10000 : Shape := ⟨1, ![10000]⟩
abbrev S100000x1 : Shape := ⟨2, ![100000, 1]⟩
abbrev S10000x1 : Shape := ⟨2, ![10000, 1]⟩
abbrev S200000x128 : Shape := ⟨2, ![200000, 128]⟩
abbrev S130000x128 : Shape := ⟨2, ![130000, 128]⟩

abbrev nBuf : Space → Nat
  | .hbm => 124
  | .vmem => 42
  | .smem => 0
  | _ => 0

abbrev bufTy : (tb : Table) → Fin (tcTables nBuf tb) → BufTy
  | .hbm, ⟨0, _⟩ => ⟨S20000x128, .f32⟩
  | .hbm, ⟨1, _⟩ => ⟨S100000x128, .f32⟩
  | .hbm, ⟨2, _⟩ => ⟨S10000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S640000, .i32⟩
  | .hbm, ⟨10, _⟩ => ⟨S640000, .i32⟩
  | .hbm, ⟨11, _⟩ => ⟨S200000, .i32⟩
  | .hbm, ⟨12, _⟩ => ⟨S200000, .i32⟩
  | .hbm, ⟨13, _⟩ => ⟨S200000, .i32⟩
  | .hbm, ⟨14, _⟩ => ⟨S200000, .i32⟩
  | .hbm, ⟨15, _⟩ => ⟨S_, .f32⟩
  | .hbm, ⟨16, _⟩ => ⟨S640000, .f32⟩
  | .hbm, ⟨17, _⟩ => ⟨S_, .f32⟩
  | .hbm, ⟨18, _⟩ => ⟨S20000, .f32⟩
  | .hbm, ⟨19, _⟩ => ⟨S640000x1, .i32⟩
  | .hbm, ⟨20, _⟩ => ⟨S20000, .f32⟩
  | .hbm, ⟨21, _⟩ => ⟨S_, .f32⟩
  | .hbm, ⟨22, _⟩ => ⟨S20000, .f32⟩
  | .hbm, ⟨23, _⟩ => ⟨S20000, .f32⟩
  | .hbm, ⟨24, _⟩ => ⟨S_, .f32⟩
  | .hbm, ⟨25, _⟩ => ⟨S20000, .f32⟩
  | .hbm, ⟨26, _⟩ => ⟨S640000x1, .i32⟩
  | .hbm, ⟨27, _⟩ => ⟨S20000, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S20000, .f32⟩
  | .hbm, ⟨32, _⟩ => ⟨S20000x1, .f32⟩
  | .hbm, ⟨33, _⟩ => ⟨S20000, .f32⟩
  | .hbm, ⟨34, _⟩ => ⟨S20000x1, .f32⟩
  | .hbm, ⟨35, _⟩ => ⟨S20000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S_, .f32⟩
  | .hbm, ⟨46, _⟩ => ⟨S20000x128, .f32⟩
  | .hbm, ⟨47, _⟩ => ⟨S640000x1, .i32⟩
  | .hbm, ⟨48, _⟩ => ⟨S20000x128, .f32⟩
  | .hbm, ⟨49, _⟩ => ⟨S1x128, .f32⟩
  | .hbm, ⟨50, _⟩ => ⟨S20000x128, .f32⟩
  | .hbm, ⟨51, _⟩ => ⟨S_, .f32⟩
  | .hbm, ⟨52, _⟩ => ⟨S200000, .f32⟩
  | .hbm, ⟨53, _⟩ => ⟨S_, .f32⟩
  | .hbm, ⟨54, _⟩ => ⟨S100000, .f32⟩
  | .hbm, ⟨55, _⟩ => ⟨S200000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S_, .f32⟩
  | .hbm, ⟨61, _⟩ => ⟨S10000, .f32⟩
  | .hbm, ⟨62, _⟩ => ⟨S200000x1, .i32⟩
  | .hbm, ⟨63, _⟩ => ⟨S10000, .f32⟩
  | .hbm, ⟨64, _⟩ => ⟨S_, .f32⟩
  | .hbm, ⟨65, _⟩ => ⟨S10000, .f32⟩
  | .hbm, ⟨66, _⟩ => ⟨S10000, .f32⟩
  | .hbm, ⟨67, _⟩ => ⟨S100000, .f32⟩
  | .hbm, ⟨68, _⟩ => ⟨S100000x1, .f32⟩
  | .hbm, ⟨69, _⟩ => ⟨S10000, .f32⟩
  | .hbm, ⟨70, _⟩ => ⟨S10000x1, .f32⟩
  | .hbm, ⟨71, _⟩ => ⟨S100000x128, .f32⟩
  | .hbm, ⟨72, _⟩ => ⟨S_, .i32⟩
  | .hbm, ⟨73, _⟩ => ⟨S200000, .i32⟩
  | .hbm, ⟨74, _⟩ => ⟨S200000, .i1⟩
  | .hbm, ⟨75, _⟩ => ⟨S_, .i32⟩
  | .hbm, ⟨76, _⟩ => ⟨S200000, .i32⟩
  | .hbm, ⟨77, _⟩ => ⟨S200000, .i32⟩
  | .hbm, ⟨78, _⟩ => ⟨S200000, .i32⟩
  | .hbm, ⟨79, _⟩ => ⟨S200000x1, .i32⟩
  | .hbm, ⟨80, _⟩ => ⟨S200000x128, .f32⟩
  | .hbm, ⟨81, _⟩ => ⟨S_, .f32⟩
  | .hbm, ⟨82, _⟩ => ⟨S10000x128, .f32⟩
  | .hbm, ⟨83, _⟩ => ⟨S200000x1, .i32⟩
  | .hbm, ⟨84, _⟩ => ⟨S10000x128, .f32⟩
  | .hbm, ⟨85, _⟩ => ⟨S1x128, .f32⟩
  | .hbm, ⟨86, _⟩ => ⟨S10000x128, .f32⟩
  | .hbm, ⟨87, _⟩ => ⟨S_, .f32⟩
  | .hbm, ⟨88, _⟩ => ⟨S200000, .f32⟩
  | .hbm, ⟨89, _⟩ => ⟨S_, .f32⟩
  | .hbm, ⟨90, _⟩ => ⟨S10000, .f32⟩
  | .hbm, ⟨91, _⟩ => ⟨S200000x1, .i32⟩
  | .hbm, ⟨92, _⟩ => ⟨S10000, .f32⟩
  | .hbm, ⟨93, _⟩ => ⟨S_, .f32⟩
  | .hbm, ⟨94, _⟩ => ⟨S10000, .f32⟩
  | .hbm, ⟨95, _⟩ => ⟨S10000, .f32⟩
  | .hbm, ⟨96, _⟩ => ⟨S_, .f32⟩
  | .hbm, ⟨97, _⟩ => ⟨S100000, .f32⟩
  | .hbm, ⟨98, _⟩ => ⟨S200000x1, .i32⟩
  | .hbm, ⟨99, _⟩ => ⟨S100000, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S10000, .f32⟩
  | .hbm, ⟨104, _⟩ => ⟨S10000x1, .f32⟩
  | .hbm, ⟨105, _⟩ => ⟨S100000, .f32⟩
  | .hbm, ⟨106, _⟩ => ⟨S100000x1, .f32⟩
  | .hbm, ⟨107, _⟩ => ⟨S10000x128, .f32⟩
  | .hbm, ⟨108, _⟩ => ⟨S_, .i32⟩
  | .hbm, ⟨109, _⟩ => ⟨S200000, .i32⟩
  | .hbm, ⟨110, _⟩ => ⟨S200000, .i1⟩
  | .hbm, ⟨111, _⟩ => ⟨S_, .i32⟩
  | .hbm, ⟨112, _⟩ => ⟨S200000, .i32⟩
  | .hbm, ⟨113, _⟩ => ⟨S200000, .i32⟩
  | .hbm, ⟨114, _⟩ => ⟨S200000, .i32⟩
  | .hbm, ⟨115, _⟩ => ⟨S200000x1, .i32⟩
  | .hbm, ⟨116, _⟩ => ⟨S200000x128, .f32⟩
  | .hbm, ⟨117, _⟩ => ⟨S_, .f32⟩
  | .hbm, ⟨118, _⟩ => ⟨S100000x128, .f32⟩
  | .hbm, ⟨119, _⟩ => ⟨S200000x1, .i32⟩
  | .hbm, ⟨120, _⟩ => ⟨S100000x128, .f32⟩
  | .hbm, ⟨121, _⟩ => ⟨S1x128, .f32⟩
  | .hbm, ⟨122, _⟩ => ⟨S100000x128, .f32⟩
  | .hbm, ⟨123, _⟩ => ⟨S130000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x1, .f32⟩
  | .local _ .vmem, ⟨31, _⟩ => ⟨S2000x1, .f32⟩
  | .local _ .vmem, ⟨32, _⟩ => ⟨S128x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_v33 : Ref sig .tc := ⟨.hbm, 59, rfl⟩
abbrev main_cst_9 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_10 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_11 : Ref sig .tc := ⟨.hbm, 72, rfl⟩
abbrev main_v44 : Ref sig .tc := ⟨.hbm, 73, rfl⟩
abbrev main_v45 : Ref sig .tc := ⟨.hbm, 74, rfl⟩
abbrev main_c_12 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_13 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_14 : Ref sig .tc := ⟨.hbm, 87, rfl⟩
abbrev main_v56 : Ref sig .tc := ⟨.hbm, 88, rfl⟩
abbrev main_cst_15 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_16 : Ref sig .tc := ⟨.hbm, 93, rfl⟩
abbrev main_v60 : Ref sig .tc := ⟨.hbm, 94, rfl⟩
abbrev main_v61 : Ref sig .tc := ⟨.hbm, 95, rfl⟩
abbrev main_cst_17 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_18 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_19 : Ref sig .tc := ⟨.hbm, 108, rfl⟩
abbrev main_v72 : Ref sig .tc := ⟨.hbm, 109, rfl⟩
abbrev main_v73 : Ref sig .tc := ⟨.hbm, 110, rfl⟩
abbrev main_c_20 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_21 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S640000 : S_.BroadcastsInDim S640000 (![] : Fin 0 → Fin S640000.rank)
  bcast_S_S20000 : S_.BroadcastsInDim S20000 (![] : Fin 0 → Fin S20000.rank)
  bcast_S640000_S640000x1_0 : S640000.BroadcastsInDim S640000x1 (![0] : Fin 1 → Fin S640000x1.rank)
  shapeCasts_S20000_S20000x1 : S20000.ShapeCasts S20000x1
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S20000x128 : S_.BroadcastsInDim S20000x128 (![] : Fin 0 → Fin S20000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S200000 : S_.BroadcastsInDim S200000 (![] : Fin 0 → Fin S200000.rank)
  bcast_S_S100000 : S_.BroadcastsInDim S100000 (![] : Fin 0 → Fin S100000.rank)
  bcast_S200000_S200000x1_0 : S200000.BroadcastsInDim S200000x1 (![0] : Fin 1 → Fin S200000x1.rank)
  bcast_S_S10000 : S_.BroadcastsInDim S10000 (![] : Fin 0 → Fin S10000.rank)
  shapeCasts_S100000_S100000x1 : S100000.ShapeCasts S100000x1
  shapeCasts_S10000_S10000x1 : S10000.ShapeCasts S10000x1
  bcast_S_S10000x128 : S_.BroadcastsInDim S10000x128 (![] : Fin 0 → Fin S10000x128.rank)
  bcast_S_S100000x128 : S_.BroadcastsInDim S100000x128 (![] : Fin 0 → Fin S100000x128.rank)
  concatenates_S10000x128_S100000x128_S20000x128_S130000x128_d0 : Shape.Concatenates [S10000x128, S100000x128, S20000x128] S130000x128 0
  scatter_S20000_S640000x1_S640000_n_0_0_1_wf : ScatterDims.WF S20000 S640000x1 S640000 [] [0] [0] 1
  dot_S2000x128_S128x128_S2000x128_1_0_0_1_n_n_wf : DotDims.WF S2000x128 S128x128 S2000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  scatter_S100000_S200000x1_S200000_n_0_0_1_wf : ScatterDims.WF S100000 S200000x1 S200000 [] [0] [0] 1
  scatter_S10000_S200000x1_S200000_n_0_0_1_wf : ScatterDims.WF S10000 S200000x1 S200000 [] [0] [0] 1
  gather_S100000x128_S200000x1_S200000x128_1_0_n_n_0_1_1128_wf : GatherDims.WF S100000x128 S200000x1 S200000x128 [1] [0] [] [0] [] 1 ![1, 128]
  scatter_S10000x128_S200000x1_S200000x128_1_0_0_1_wf : ScatterDims.WF S10000x128 S200000x1 S200000x128 [1] [0] [0] 1
  gather_S10000x128_S200000x1_S200000x128_1_0_n_n_0_1_1128_wf : GatherDims.WF S10000x128 S200000x1 S200000x128 [1] [0] [] [0] [] 1 ![1, 128]
  scatter_S100000x128_S200000x1_S200000x128_1_0_0_1_wf : ScatterDims.WF S100000x128 S200000x1 S200000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S20000x1.size a
  hwx0_1 : ∀ i : grid0.Coords, EltTy.bits .f32 = 32 ∨ (Rect.block (s := S20000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S20000x128.size a
  hwx0_3 : ∀ i : grid0.Coords, EltTy.bits .f32 = 32 ∨ (Rect.block (s := S20000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S20000x1.size a
  hwx1_1 : ∀ i : grid1.Coords, EltTy.bits .f32 = 32 ∨ (Rect.block (s := S20000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S20000x128.size a
  hwx1_3 : ∀ i : grid1.Coords, EltTy.bits .f32 = 32 ∨ (Rect.block (s := S20000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S10000x128.size a
  hwx3_0 : ∀ i : grid3.Coords, EltTy.bits .f32 = 32 ∨ (Rect.block (s := S10000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S10000x1.size a
  hwx3_1 : ∀ i : grid3.Coords, EltTy.bits .f32 = 32 ∨ (Rect.block (s := S10000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S10000x128.size a
  hwx3_3 : ∀ i : grid3.Coords, EltTy.bits .f32 = 32 ∨ (Rect.block (s := S10000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S10000x128.size a
  hwx4_0 : ∀ i : grid4.Coords, EltTy.bits .f32 = 32 ∨ (Rect.block (s := S10000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S10000x1.size a
  hwx4_1 : ∀ i : grid4.Coords, EltTy.bits .f32 = 32 ∨ (Rect.block (s := S10000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S10000x128.size a
  hwx4_3 : ∀ i : grid4.Coords, EltTy.bits .f32 = 32 ∨ (Rect.block (s := S10000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S100000x128.size a
  hwx5_3 : ∀ i : grid5.Coords, EltTy.bits .f32 = 32 ∨ (Rect.block (s := S100000x128) S2000x128.size (cc5_transform_3 i) (hinb5_3 i)).WholeWords (EltTy.packing .f32)

variable [Facts₀]

def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def scatter_S10000_S200000x1_S200000_n_0_0_1 : ScatterDims S10000 S200000x1 S200000 where
  updateWindowDims := []
  insertedWindowDims := [0]
  scatterDimsToOperandDims := [0]
  indexVectorDim := 1
  wf := scatter_S10000_S200000x1_S200000_n_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def scatter_S10000x128_S200000x1_S200000x128_1_0_0_1 : ScatterDims S10000x128 S200000x1 S200000x128 where
  updateWindowDims := [1]
  insertedWindowDims := [0]
  scatterDimsToOperandDims := [0]
  indexVectorDim := 1
  wf := scatter_S10000x128_S200000x1_S200000x128_1_0_0_1_wf
def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg2) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v81) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v82) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v83) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S20000x128 : Shape := ⟨2, ![20000, 128]⟩
abbrev S100000x128 : Shape := ⟨2, ![100000, 128]⟩
abbrev S10000x128 : Shape := ⟨2, ![10000, 128]⟩
abbrev S128x128 : Shape := ⟨2, ![128, 128]⟩
abbrev S128 : Shape := ⟨1, ![128]⟩
abbrev S640000 : Shape := ⟨1, ![640000]⟩
abbrev S200000 : Shape := ⟨1, ![200000]⟩
abbrev S_ : Shape := ⟨0, ![]⟩
abbrev S20000 : Shape := ⟨1, ![20000]⟩
abbrev S640000x1 : Shape := ⟨2, ![640000, 1]⟩
abbrev S20000x1 : Shape := ⟨2, ![20000, 1]⟩
abbrev S640000x128 : Shape := ⟨2, ![640000, 128]⟩
abbrev S1x128 : Shape := ⟨2, ![1, 128]⟩
abbrev S100000 : Shape := ⟨1, ![100000]⟩
abbrev S200000x1 : Shape := ⟨2, ![200000, 1]⟩
abbrev S10000 : Shape := ⟨1, ![10000]⟩
abbrev S100000x1 : Shape := ⟨2, ![100000, 1]⟩
abbrev S200000x128 : Shape := ⟨2, ![200000, 128]⟩
abbrev S10000x1 : Shape := ⟨2, ![10000, 1]⟩
abbrev S130000x128 : Shape := ⟨2, ![130000, 128]⟩

abbrev nBuf : Space → Nat
  | .hbm => 160
  | .vmem => 0
  | .smem => 0
  | _ => 0

abbrev hbmTy0_0 (i : Nat) : BufTy := match i % 128 with
  | 0 => ⟨S20000x128, .f32⟩
  | 1 => ⟨S100000x128, .f32⟩
  | 2 => ⟨S10000x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S640000, .i32⟩
  | 10 => ⟨S640000, .i32⟩
  | 11 => ⟨S200000, .i32⟩
  | 12 => ⟨S200000, .i32⟩
  | 13 => ⟨S200000, .i32⟩
  | 14 => ⟨S200000, .i32⟩
  | 15 => ⟨S_, .f32⟩
  | 16 => ⟨S640000, .f32⟩
  | 17 => ⟨S_, .f32⟩
  | 18 => ⟨S20000, .f32⟩
  | 19 => ⟨S640000x1, .i32⟩
  | 20 => ⟨S20000, .f32⟩
  | 21 => ⟨S_, .f32⟩
  | 22 => ⟨S20000, .f32⟩
  | 23 => ⟨S20000, .f32⟩
  | 24 => ⟨S_, .f32⟩
  | 25 => ⟨S20000, .f32⟩
  | 26 => ⟨S640000x1, .i32⟩
  | 27 => ⟨S20000, .f32⟩
  | 28 => ⟨S_, .f32⟩
  | 29 => ⟨S20000, .f32⟩
  | 30 => ⟨S20000, .f32⟩
  | 31 => ⟨S20000, .f32⟩
  | 32 => ⟨S20000x1, .f32⟩
  | 33 => ⟨S20000x128, .f32⟩
  | 34 => ⟨S20000x128, .f32⟩
  | 35 => ⟨S20000x128, .f32⟩
  | 36 => ⟨S_, .i32⟩
  | 37 => ⟨S640000, .i32⟩
  | 38 => ⟨S640000, .i1⟩
  | 39 => ⟨S_, .i32⟩
  | 40 => ⟨S640000, .i32⟩
  | 41 => ⟨S640000, .i32⟩
  | 42 => ⟨S640000, .i32⟩
  | 43 => ⟨S640000x1, .i32⟩
  | 44 => ⟨S640000x128, .f32⟩
  | 45 => ⟨S_, .f32⟩
  | 46 => ⟨S20000x128, .f32⟩
  | 47 => ⟨S640000x1, .i32⟩
  | 48 => ⟨S20000x128, .f32⟩
  | 49 => ⟨S20000, .f32⟩
  | 50 => ⟨S20000x1, .f32⟩
  | 51 => ⟨S20000x128, .f32⟩
  | 52 => ⟨S20000x128, .f32⟩
  | 53 => ⟨S1x128, .f32⟩
  | 54 => ⟨S20000x128, .f32⟩
  | 55 => ⟨S20000x128, .f32⟩
  | 56 => ⟨S_, .f32⟩
  | 57 => ⟨S200000, .f32⟩
  | 58 => ⟨S_, .f32⟩
  | 59 => ⟨S100000, .f32⟩
  | 60 => ⟨S200000x1, .i32⟩
  | 61 => ⟨S100000, .f32⟩
  | 62 => ⟨S_, .f32⟩
  | 63 => ⟨S100000, .f32⟩
  | 64 => ⟨S100000, .f32⟩
  | 65 => ⟨S_, .f32⟩
  | 66 => ⟨S10000, .f32⟩
  | 67 => ⟨S200000x1, .i32⟩
  | 68 => ⟨S10000, .f32⟩
  | 69 => ⟨S_, .f32⟩
  | 70 => ⟨S10000, .f32⟩
  | 71 => ⟨S10000, .f32⟩
  | 72 => ⟨S100000, .f32⟩
  | 73 => ⟨S100000x1, .f32⟩
  | 74 => ⟨S100000x128, .f32⟩
  | 75 => ⟨S100000x128, .f32⟩
  | 76 => ⟨S100000x128, .f32⟩
  | 77 => ⟨S_, .i32⟩
  | 78 => ⟨S200000, .i32⟩
  | 79 => ⟨S200000, .i1⟩
  | 80 => ⟨S_, .i32⟩
  | 81 => ⟨S200000, .i32⟩
  | 82 => ⟨S200000, .i32⟩
  | 83 => ⟨S200000, .i32⟩
  | 84 => ⟨S200000x1, .i32⟩
  | 85 => ⟨S200000x128, .f32⟩
  | 86 => ⟨S_, .f32⟩
  | 87 => ⟨S10000x128, .f32⟩
  | 88 => ⟨S200000x1, .i32⟩
  | 89 => ⟨S10000x128, .f32⟩
  | 90 => ⟨S10000, .f32⟩
  | 91 => ⟨S10000x1, .f32⟩
  | 92 => ⟨S10000x128, .f32⟩
  | 93 => ⟨S10000x128, .f32⟩
  | 94 => ⟨S1x128, .f32⟩
  | 95 => ⟨S10000x128, .f32⟩
  | 96 => ⟨S10000x128, .f32⟩
  | 97 => ⟨S_, .f32⟩
  | 98 => ⟨S200000, .f32⟩
  | 99 => ⟨S_, .f32⟩
  | 100 => ⟨S10000, .f32⟩
  | 101 => ⟨S200000x1, .i32⟩
  | 102 => ⟨S10000, .f32⟩
  | 103 => ⟨S_, .f32⟩
  | 104 => ⟨S10000, .f32⟩
  | 105 => ⟨S10000, .f32⟩
  | 106 => ⟨S_, .f32⟩
  | 107 => ⟨S100000, .f32⟩
  | 108 => ⟨S200000x1, .i32⟩
  | 109 => ⟨S100000, .f32⟩
  | 110 => ⟨S_, .f32⟩
  | 111 => ⟨S100000, .f32⟩
  | 112 => ⟨S100000, .f32⟩
  | 113 => ⟨S10000, .f32⟩
  | 114 => ⟨S10000x1, .f32⟩
  | 115 => ⟨S10000x128, .f32⟩
  | 116 => ⟨S10000x128, .f32⟩
  | 117 => ⟨S10000x128, .f32⟩
  | 118 => ⟨S_, .i32⟩
  | 119 => ⟨S200000, .i32⟩
  | 120 => ⟨S200000, .i1⟩
  | 121 => ⟨S_, .i32⟩
  | 122 => ⟨S200000, .i32⟩
  | 123 => ⟨S200000, .i32⟩
  | 124 => ⟨S200000, .i32⟩
  | 125 => ⟨S200000x1, .i32⟩
  | 126 => ⟨S200000x128, .f32⟩
  | 127 => ⟨S_, .f32⟩
  | _ => ⟨S20000x128, .f32⟩

abbrev hbmTy0_1 (i : Nat) : BufTy := match i % 128 with
  | 0 => ⟨S100000x128, .f32⟩
  | 1 => ⟨S200000x1, .i32⟩
  | 2 => ⟨S100000x128, .f32⟩
  | 3 => ⟨S100000, .f32⟩
  | 4 => ⟨S100000x1, .f32⟩
  | 5 => ⟨S100000x128, .f32⟩
  | 6 => ⟨S100000x128, .f32⟩
  | 7 => ⟨S1x128, .f32⟩
  | 8 => ⟨S100000x128, .f32⟩
  | 9 => ⟨S100000x128, .f32⟩
  | 10 => ⟨S_, .f32⟩
  | 11 => ⟨S10000x128, .f32⟩
  | 12 => ⟨S10000x128, .i1⟩
  | 13 => ⟨S_, .f32⟩
  | 14 => ⟨S10000x128, .f32⟩
  | 15 => ⟨S10000x128, .f32⟩
  | 16 => ⟨S10000x128, .f32⟩
  | 17 => ⟨S_, .f32⟩
  | 18 => ⟨S100000x128, .f32⟩
  | 19 => ⟨S100000x128, .i1⟩
  | 20 => ⟨S_, .f32⟩
  | 21 => ⟨S100000x128, .f32⟩
  | 22 => ⟨S100000x128, .f32⟩
  | 23 => ⟨S100000x128, .f32⟩
  | 24 => ⟨S_, .f32⟩
  | 25 => ⟨S20000x128, .f32⟩
  | 26 => ⟨S20000x128, .i1⟩
  | 27 => ⟨S_, .f32⟩
  | 28 => ⟨S20000x128, .f32⟩
  | 29 => ⟨S20000x128, .f32⟩
  | 30 => ⟨S20000x128, .f32⟩
  | 31 => ⟨S130000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_cst_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_11 : Ref sig .tc := ⟨.hbm, 77, rfl⟩
abbrev main_v49 : Ref sig .tc := ⟨.hbm, 78, rfl⟩
abbrev main_v50 : Ref sig .tc := ⟨.hbm, 79, rfl⟩
abbrev main_c_12 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_13 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_14 : Ref sig .tc := ⟨.hbm, 97, rfl⟩
abbrev main_v66 : Ref sig .tc := ⟨.hbm, 98, rfl⟩
abbrev main_cst_15 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_16 : Ref sig .tc := ⟨.hbm, 103, rfl⟩
abbrev main_v70 : Ref sig .tc := ⟨.hbm, 104, rfl⟩
abbrev main_v71 : Ref sig .tc := ⟨.hbm, 105, rfl⟩
abbrev main_cst_17 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_18 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_19 : Ref sig .tc := ⟨.hbm, 118, rfl⟩
abbrev main_v82 : Ref sig .tc := ⟨.hbm, 119, rfl⟩
abbrev main_v83 : Ref sig .tc := ⟨.hbm, 120, rfl⟩
abbrev main_c_20 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_21 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_22 : Ref sig .tc := ⟨.hbm, 138, rfl⟩
abbrev main_v99 : Ref sig .tc := ⟨.hbm, 139, rfl⟩
abbrev main_v100 : Ref sig .tc := ⟨.hbm, 140, rfl⟩
abbrev main_cst_23 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_24 : Ref sig .tc := ⟨.hbm, 145, rfl⟩
abbrev main_v104 : Ref sig .tc := ⟨.hbm, 146, rfl⟩
abbrev main_v105 : Ref sig .tc := ⟨.hbm, 147, rfl⟩
abbrev main_cst_25 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_26 : Ref sig .tc := ⟨.hbm, 152, rfl⟩
abbrev main_v109 : Ref sig .tc := ⟨.hbm, 153, rfl⟩
abbrev main_v110 : Ref sig .tc := ⟨.hbm, 154, rfl⟩
abbrev main_cst_27 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S20000 : S_.BroadcastsInDim S20000 (![] : Fin 0 → Fin S20000.rank)
  bcast_S640000_S640000x1_0 : S640000.BroadcastsInDim S640000x1 (![0] : Fin 1 → Fin S640000x1.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S200000 : S_.BroadcastsInDim S200000 (![] : Fin 0 → Fin S200000.rank)
  bcast_S_S100000 : S_.BroadcastsInDim S100000 (![] : Fin 0 → Fin S100000.rank)
  bcast_S200000_S200000x1_0 : S200000.BroadcastsInDim S200000x1 (![0] : Fin 1 → Fin S200000x1.rank)
  bcast_S_S10000 : S_.BroadcastsInDim S10000 (![] : Fin 0 → Fin S10000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S10000x128 : S_.BroadcastsInDim S10000x128 (![] : Fin 0 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S1x128_S10000x128_0_1 : S1x128.BroadcastsInDim S10000x128 (![0, 1] : Fin 2 → Fin S10000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  concatenates_S10000x128_S100000x128_S20000x128_S130000x128_d0 : Shape.Concatenates [S10000x128, S100000x128, S20000x128] S130000x128 0
  scatter_S20000_S640000x1_S640000_n_0_0_1_wf : ScatterDims.WF S20000 S640000x1 S640000 [] [0] [0] 1
  dot_S20000x128_S128x128_S20000x128_1_0_0_1_n_n_wf : DotDims.WF S20000x128 S128x128 S20000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  scatter_S100000_S200000x1_S200000_n_0_0_1_wf : ScatterDims.WF S100000 S200000x1 S200000 [] [0] [0] 1
  scatter_S10000_S200000x1_S200000_n_0_0_1_wf : ScatterDims.WF S10000 S200000x1 S200000 [] [0] [0] 1
  dot_S100000x128_S128x128_S100000x128_1_0_0_1_n_n_wf : DotDims.WF S100000x128 S128x128 S100000x128 [1] [0] [0] [1] [] []
  gather_S100000x128_S200000x1_S200000x128_1_0_n_n_0_1_1128_wf : GatherDims.WF S100000x128 S200000x1 S200000x128 [1] [0] [] [0] [] 1 ![1, 128]
  scatter_S10000x128_S200000x1_S200000x128_1_0_0_1_wf : ScatterDims.WF S10000x128 S200000x1 S200000x128 [1] [0] [0] 1
  dot_S10000x128_S128x128_S10000x128_1_0_0_1_n_n_wf : DotDims.WF S10000x128 S128x128 S10000x128 [1] [0] [0] [1] [] []
  gather_S10000x128_S200000x1_S200000x128_1_0_n_n_0_1_1128_wf : GatherDims.WF S10000x128 S200000x1 S200000x128 [1] [0] [] [0] [] 1 ![1, 128]
  scatter_S100000x128_S200000x1_S200000x128_1_0_0_1_wf : ScatterDims.WF S100000x128 S200000x1 S200000x128 [1] [0] [0] 1

variable [Facts₀]

def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def scatter_S10000_S200000x1_S200000_n_0_0_1 : ScatterDims S10000 S200000x1 S200000 where
  updateWindowDims := []
  insertedWindowDims := [0]
  scatterDimsToOperandDims := [0]
  indexVectorDim := 1
  wf := scatter_S10000_S200000x1_S200000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def scatter_S10000x128_S200000x1_S200000x128_1_0_0_1 : ScatterDims S10000x128 S200000x1 S200000x128 where
  updateWindowDims := [1]
  insertedWindowDims := [0]
  scatterDimsToOperandDims := [0]
  indexVectorDim := 1
  wf := scatter_S10000x128_S200000x1_S200000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf

class Facts : Prop extends Facts₀ where

variable [Facts]
-- ==== Proof.Bits.Body0.lean ====
/-
  Grid region 0: one block of 2000 rows of a node-feature matrix, each scaled by its own degree factor and multiplied into the 128×128 weight.
  At a grid point the body reads three input blocks whole — the 2000×128 block of rows, the 2000×1 column of
  factors, and the 128×128 weight (the same block at every point) — and overwrites the 2000×128 output block
  whole with one pure function of them (the payload). The output block's earlier contents are read but never used.
  Stated here for an arbitrary valuation `V` of the buffers at the region's entry: what each window's block is,
  what the body leaves in the output block, and that the body run from those blocks ends with exactly that.
-/
import proofs.«111035_j79285096284406_1_alg».proof.Proof.Gen.Kernel.Launch
import proofs.«111035_j79285096284406_1_alg».proof.Proof.Gen.Kernel.Skeleton
import proofs.«111035_j79285096284406_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's array, as the region finds it, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or not: a point
    that does not fetch has the block index of the point before, and the body leaves input blocks in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or not: a point
    that does not fetch has the block index of the point before, and the body leaves input blocks in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or not: a point
    that does not fetch has the block index of the point before, and the body leaves input blocks in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 2000×128 block, the whole 2000×1 column and the whole 128×128 weight, as rectangles. -/
abbrev rRows0 : Rect S2000x128 := Rect.unit (s := S2000x128) ![0, 0] S2000x128.size inb_S2000x128_S2000x128_0_0
abbrev rCol0 : Rect S2000x1 := Rect.unit (s := S2000x1) ![0, 0] S2000x1.size inb_S2000x1_S2000x1_0_0
abbrev rPar0 : Rect S128x128 := Rect.unit (s := S128x128) ![0, 0] S128x128.size inb_S128x128_S128x128_0_0

/-- What the body leaves in the output block, from the three input blocks: its one store, of the payload. -/
def out0_3 (x0 : Vec F S2000x128 .f32) (x1 : Vec F S2000x1 .f32) (x2 : Vec F S128x128 .f32) : Vec F S2000x128 .f32 :=
  View.canon [⟨rRows0, k0_pay1 (View.ld x0 rRows0) (View.ld x1 rCol0) (View.ld x2 rPar0)⟩]

/-- The one store covers the output block. -/
theorem cover0_3 (p0 : Vec F S2000x128 .f32) (y : S2000x128.Idx) :
    ∃ pc ∈ ([⟨rRows0, p0⟩] : List (View.Piece (Elt F) S2000x128 .f32)), y ∈ pc.1.set :=
  View.cover_of_tiled [⟨rRows0, p0⟩] S2000x128.size (by rfl) y

set_option maxHeartbeats 1000000 in
/-- The body on whole staging buffers — the inputs' holding `x0`, `x1`, `x2`, the output's holding anything — runs to
    its return with the inputs' as they were and the output's at `out0_3 x0 x1 x2`. -/
theorem sound_kernel0 (c : Dev nD) (E : Set ℕ) (i : grid0.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S2000x128 .f32) (harg4 : arg4.IsWhole)
    (x0 : Vec F S2000x128 .f32) (x1 : Vec F S2000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__pre_kernel i arg1 harg1 arg2 harg2 arg3 harg3 arg4 harg4) K := by
  simp only [cc0__pre_kernel_eq_skeleton]; unfold cc0__pre_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's bookkeeping on core `c`: the windows' arrays as the region finds them; after the body at point `t`
    each input's buffer at its block and the output's at `out0_3` of the three input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and the
    core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Conv

end
-- ==== Proof.Bits.Body1.lean ====
/-
  Grid region 1: one block of 2000 rows of an aggregated matrix, each scaled by its own degree factor, shifted by the bias row, then passed through the leaky rectifier (slope 1/100 below zero).
  At a grid point the body reads three input blocks whole — the 2000×128 block of rows, the 2000×1 column of
  factors, and the 1×128 bias row (the same block at every point) — and overwrites the 2000×128 output block
  whole with one pure function of them (the payload). The output block's earlier contents are read but never used.
  Stated here for an arbitrary valuation `V` of the buffers at the region's entry: what each window's block is,
  what the body leaves in the output block, and that the body run from those blocks ends with exactly that.
-/
import proofs.«111035_j79285096284406_1_alg».proof.Proof.Gen.Kernel.Launch
import proofs.«111035_j79285096284406_1_alg».proof.Proof.Gen.Kernel.Skeleton
import proofs.«111035_j79285096284406_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's array, as the region finds it, read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or not: a point
    that does not fetch has the block index of the point before, and the body leaves input blocks in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or not: a point
    that does not fetch has the block index of the point before, and the body leaves input blocks in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or not: a point
    that does not fetch has the block index of the point before, and the body leaves input blocks in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 2000×128 block, the whole 2000×1 column and the whole 1×128 row, as rectangles. -/
abbrev rRows1 : Rect S2000x128 := Rect.unit (s := S2000x128) ![0, 0] S2000x128.size inb_S2000x128_S2000x128_0_0
abbrev rCol1 : Rect S2000x1 := Rect.unit (s := S2000x1) ![0, 0] S2000x1.size inb_S2000x1_S2000x1_0_0
abbrev rPar1 : Rect S1x128 := Rect.unit (s := S1x128) ![0, 0] S1x128.size inb_S1x128_S1x128_0_0

/-- What the body leaves in the output block, from the three input blocks: its one store, of the payload. -/
def out1_3 (x0 : Vec F S2000x128 .f32) (x1 : Vec F S2000x1 .f32) (x2 : Vec F S1x128 .f32) : Vec F S2000x128 .f32 :=
  View.canon [⟨rRows1, k1_pay1 (View.ld x0 rRows1) (View.ld x1 rCol1) (View.ld x2 rPar1)⟩]

/-- The one store covers the output block. -/
theorem cover1_3 (p0 : Vec F S2000x128 .f32) (y : S2000x128.Idx) :
    ∃ pc ∈ ([⟨rRows1, p0⟩] : List (View.Piece (Elt F) S2000x128 .f32)), y ∈ pc.1.set :=
  View.cover_of_tiled [⟨rRows1, p0⟩] S2000x128.size (by rfl) y

set_option maxHeartbeats 1000000 in
/-- The body on whole staging buffers — the inputs' holding `x0`, `x1`, `x2`, the output's holding anything — runs to
    its return with the inputs' as they were and the output's at `out1_3 x0 x1 x2`. -/
theorem sound_kernel1 (c : Dev nD) (E : Set ℕ) (i : grid1.Coords)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S2000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__post_kernel i arg1 harg1 arg2 harg2 arg3 harg3 arg4 harg4) K := by
  simp only [cc1__post_kernel_eq_skeleton]; unfold cc1__post_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's bookkeeping on core `c`: the windows' arrays as the region finds them; after the body at point `t`
    each input's buffer at its block and the output's at `out1_3` of the three input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is handed at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and the
    core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Conv

end
-- ==== Proof.Bits.Body2.lean ====
/-
  Grid region 2: one block of 2000 rows of a node-feature matrix, each scaled by its own degree factor and multiplied into the 128×128 weight.
  At a grid point the body reads three input blocks whole — the 2000×128 block of rows, the 2000×1 column of
  factors, and the 128×128 weight (the same block at every point) — and overwrites the 2000×128 output block
  whole with one pure function of them (the payload). The output block's earlier contents are read but never used.
  Stated here for an arbitrary valuation `V` of the buffers at the region's entry: what each window's block is,
  what the body leaves in the output block, and that the body run from those blocks ends with exactly that.
-/
import proofs.«111035_j79285096284406_1_alg».proof.Proof.Gen.Kernel.Launch
import proofs.«111035_j79285096284406_1_alg».proof.Proof.Gen.Kernel.Skeleton
import proofs.«111035_j79285096284406_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's array, as the region finds it, read through the block's view. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the point fetched it or not: a point
    that does not fetch has the block index of the point before, and the body leaves input blocks in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the point fetched it or not: a point
    that does not fetch has the block index of the point before, and the body leaves input blocks in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the point fetched it or not: a point
    that does not fetch has the block index of the point before, and the body leaves input blocks in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole 2000×128 block, the whole 2000×1 column and the whole 128×128 weight, as rectangles. -/
abbrev rRows2 : Rect S2000x128 := Rect.unit (s := S2000x128) ![0, 0] S2000x128.size inb_S2000x128_S2000x128_0_0
abbrev rCol2 : Rect S2000x1 := Rect.unit (s := S2000x1) ![0, 0] S2000x1.size inb_S2000x1_S2000x1_0_0
abbrev rPar2 : Rect S128x128 := Rect.unit (s := S128x128) ![0, 0] S128x128.size inb_S128x128_S128x128_0_0

/-- What the body leaves in the output block, from the three input blocks: its one store, of the payload. -/
def out2_3 (x0 : Vec F S2000x128 .f32) (x1 : Vec F S2000x1 .f32) (x2 : Vec F S128x128 .f32) : Vec F S2000x128 .f32 :=
  View.canon [⟨rRows2, k2_pay1 (View.ld x0 rRows2) (View.ld x1 rCol2) (View.ld x2 rPar2)⟩]

/-- The one store covers the output block. -/
theorem cover2_3 (p0 : Vec F S2000x128 .f32) (y : S2000x128.Idx) :
    ∃ pc ∈ ([⟨rRows2, p0⟩] : List (View.Piece (Elt F) S2000x128 .f32)), y ∈ pc.1.set :=
  View.cover_of_tiled [⟨rRows2, p0⟩] S2000x128.size (by rfl) y

set_option maxHeartbeats 1000000 in
/-- The body on whole staging buffers — the inputs' holding `x0`, `x1`, `x2`, the output's holding anything — runs to
    its return with the inputs' as they were and the output's at `out2_3 x0 x1 x2`. -/
theorem sound_kernel2 (c : Dev nD) (E : Set ℕ) (i : grid2.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S2000x128 .f32) (harg4 : arg4.IsWhole)
    (x0 : Vec F S2000x128 .f32) (x1 : Vec F S2000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__pre_kernel i arg1 harg1 arg2 harg2 arg3 harg3 arg4 harg4) K := by
  simp only [cc2__pre_kernel_eq_skeleton]; unfold cc2__pre_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's bookkeeping on core `c`: the windows' arrays as the region finds them; after the body at point `t`
    each input's buffer at its block and the output's at `out2_3` of the three input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies; the invariant and the
    core's dues pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Conv

end
-- ==== Proof.Bits.Body3.lean ====
/-
  Grid region 3: one block of 2000 rows of an aggregated matrix, each scaled by its own degree factor, shifted by the bias row, then passed through the leaky rectifier (slope 1/100 below zero).
  At a grid point the body reads three input blocks whole — the 2000×128 block of rows, the 2000×1 column of
  factors, and the 1×128 bias row (the same block at every point) — and overwrites the 2000×128 output block
  whole with one pure function of them (the payload). The output block's earlier contents are read but never used.
  Stated here for an arbitrary valuation `V` of the buffers at the region's entry: what each window's block is,
  what the body leaves in the output block, and that the body run from those blocks ends with exactly that.
-/
import proofs.«111035_j79285096284406_1_alg».proof.Proof.Gen.Kernel.Launch
import proofs.«111035_j79285096284406_1_alg».proof.Proof.Gen.Kernel.Skeleton
import proofs.«111035_j79285096284406_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's array, as the region finds it, read through the block's view. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the point fetched it or not: a point
    that does not fetch has the block index of the point before, and the body leaves input blocks in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the point fetched it or not: a point
    that does not fetch has the block index of the point before, and the body leaves input blocks in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the point fetched it or not: a point
    that does not fetch has the block index of the point before, and the body leaves input blocks in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole 2000×128 block, the whole 2000×1 column and the whole 1×128 row, as rectangles. -/
abbrev rRows3 : Rect S2000x128 := Rect.unit (s := S2000x128) ![0, 0] S2000x128.size inb_S2000x128_S2000x128_0_0
abbrev rCol3 : Rect S2000x1 := Rect.unit (s := S2000x1) ![0, 0] S2000x1.size inb_S2000x1_S2000x1_0_0
abbrev rPar3 : Rect S1x128 := Rect.unit (s := S1x128) ![0, 0] S1x128.size inb_S1x128_S1x128_0_0

/-- What the body leaves in the output block, from the three input blocks: its one store, of the payload. -/
def out3_3 (x0 : Vec F S2000x128 .f32) (x1 : Vec F S2000x1 .f32) (x2 : Vec F S1x128 .f32) : Vec F S2000x128 .f32 :=
  View.canon [⟨rRows3, k3_pay1 (View.ld x0 rRows3) (View.ld x1 rCol3) (View.ld x2 rPar3)⟩]

/-- The one store covers the output block. -/
theorem cover3_3 (p0 : Vec F S2000x128 .f32) (y : S2000x128.Idx) :
    ∃ pc ∈ ([⟨rRows3, p0⟩] : List (View.Piece (Elt F) S2000x128 .f32)), y ∈ pc.1.set :=
  View.cover_of_tiled [⟨rRows3, p0⟩] S2000x128.size (by rfl) y

set_option maxHeartbeats 1000000 in
/-- The body on whole staging buffers — the inputs' holding `x0`, `x1`, `x2`, the output's holding anything — runs to
    its return with the inputs' as they were and the output's at `out3_3 x0 x1 x2`. -/
theorem sound_kernel3 (c : Dev nD) (E : Set ℕ) (i : grid3.Coords)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S2000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__post_kernel i arg1 harg1 arg2 harg2 arg3 harg3 arg4 harg4) K := by
  simp only [cc3__post_kernel_eq_skeleton]; unfold cc3__post_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The region's bookkeeping on core `c`: the windows' arrays as the region finds them; after the body at point `t`
    each input's buffer at its block and the output's at `out3_3` of the three input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is handed at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so `sound_kernel3` applies; the invariant and the
    core's dues pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.Kernel.Conv

end
-- ==== Proof.Bits.Body4.lean ====
/-
  Grid region 4: one block of 2000 rows of a node-feature matrix, each scaled by its own degree factor and multiplied into the 128×128 weight.
  At a grid point the body reads three input blocks whole — the 2000×128 block of rows, the 2000×1 column of
  factors, and the 128×128 weight (the same block at every point) — and overwrites the 2000×128 output block
  whole with one pure function of them (the payload). The output block's earlier contents are read but never used.
  Stated here for an arbitrary valuation `V` of the buffers at the region's entry: what each window's block is,
  what the body leaves in the output block, and that the body run from those blocks ends with exactly that.
-/
import proofs.«111035_j79285096284406_1_alg».proof.Proof.Gen.Kernel.Launch
import proofs.«111035_j79285096284406_1_alg».proof.Proof.Gen.Kernel.Skeleton
import proofs.«111035_j79285096284406_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's array, as the region finds it, read through the block's view. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, whether the point fetched it or not: a point
    that does not fetch has the block index of the point before, and the body leaves input blocks in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the point fetched it or not: a point
    that does not fetch has the block index of the point before, and the body leaves input blocks in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the point fetched it or not: a point
    that does not fetch has the block index of the point before, and the body leaves input blocks in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole 2000×128 block, the whole 2000×1 column and the whole 128×128 weight, as rectangles. -/
abbrev rRows4 : Rect S2000x128 := Rect.unit (s := S2000x128) ![0, 0] S2000x128.size inb_S2000x128_S2000x128_0_0
abbrev rCol4 : Rect S2000x1 := Rect.unit (s := S2000x1) ![0, 0] S2000x1.size inb_S2000x1_S2000x1_0_0
abbrev rPar4 : Rect S128x128 := Rect.unit (s := S128x128) ![0, 0] S128x128.size inb_S128x128_S128x128_0_0

/-- What the body leaves in the output block, from the three input blocks: its one store, of the payload. -/
def out4_3 (x0 : Vec F S2000x128 .f32) (x1 : Vec F S2000x1 .f32) (x2 : Vec F S128x128 .f32) : Vec F S2000x128 .f32 :=
  View.canon [⟨rRows4, k4_pay1 (View.ld x0 rRows4) (View.ld x1 rCol4) (View.ld x2 rPar4)⟩]

/-- The one store covers the output block. -/
theorem cover4_3 (p0 : Vec F S2000x128 .f32) (y : S2000x128.Idx) :
    ∃ pc ∈ ([⟨rRows4, p0⟩] : List (View.Piece (Elt F) S2000x128 .f32)), y ∈ pc.1.set :=
  View.cover_of_tiled [⟨rRows4, p0⟩] S2000x128.size (by rfl) y

set_option maxHeartbeats 1000000 in
/-- The body on whole staging buffers — the inputs' holding `x0`, `x1`, `x2`, the output's holding anything — runs to
    its return with the inputs' as they were and the output's at `out4_3 x0 x1 x2`. -/
theorem sound_kernel4 (c : Dev nD) (E : Set ℕ) (i : grid4.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S2000x128 .f32) (harg4 : arg4.IsWhole)
    (x0 : Vec F S2000x128 .f32) (x1 : Vec F S2000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__pre_kernel i arg1 harg1 arg2 harg2 arg3 harg3 arg4 harg4) K := by
  simp only [cc4__pre_kernel_eq_skeleton]; unfold cc4__pre_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The region's bookkeeping on core `c`: the windows' arrays as the region finds them; after the body at point `t`
    each input's buffer at its block and the output's at `out4_3` of the three input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is handed at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it hands back. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so `sound_kernel4` applies; the invariant and the
    core's dues pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation4 (c : Dev nD) : BodyObligation (dat4 (F := F) V c) (defs₀ (F := F)) Variants.none () Set.univ := fun t => by
  rw [bigSep_W4, bigSep_W4]
  exact sound_body4 V c t

end Cert.Kernel.Conv

end
-- ==== Proof.Bits.Body5.lean ====
/-
  Grid region 5: one block of 2000 rows of an aggregated matrix, each scaled by its own degree factor, shifted by the bias row, then passed through the leaky rectifier (slope 1/100 below zero).
  At a grid point the body reads three input blocks whole — the 2000×128 block of rows, the 2000×1 column of
  factors, and the 1×128 bias row (the same block at every point) — and overwrites the 2000×128 output block
  whole with one pure function of them (the payload). The output block's earlier contents are read but never used.
  Stated here for an arbitrary valuation `V` of the buffers at the region's entry: what each window's block is,
  what the body leaves in the output block, and that the body run from those blocks ends with exactly that.
-/
import proofs.«111035_j79285096284406_1_alg».proof.Proof.Gen.Kernel.Launch
import proofs.«111035_j79285096284406_1_alg».proof.Proof.Gen.Kernel.Skeleton
import proofs.«111035_j79285096284406_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's array, as the region finds it, read through the block's view. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, whether the point fetched it or not: a point
    that does not fetch has the block index of the point before, and the body leaves input blocks in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds its block at every point, whether the point fetched it or not: a point
    that does not fetch has the block index of the point before, and the body leaves input blocks in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds its block at every point, whether the point fetched it or not: a point
    that does not fetch has the block index of the point before, and the body leaves input blocks in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole 2000×128 block, the whole 2000×1 column and the whole 1×128 row, as rectangles. -/
abbrev rRows5 : Rect S2000x128 := Rect.unit (s := S2000x128) ![0, 0] S2000x128.size inb_S2000x128_S2000x128_0_0
abbrev rCol5 : Rect S2000x1 := Rect.unit (s := S2000x1) ![0, 0] S2000x1.size inb_S2000x1_S2000x1_0_0
abbrev rPar5 : Rect S1x128 := Rect.unit (s := S1x128) ![0, 0] S1x128.size inb_S1x128_S1x128_0_0

/-- What the body leaves in the output block, from the three input blocks: its one store, of the payload. -/
def out5_3 (x0 : Vec F S2000x128 .f32) (x1 : Vec F S2000x1 .f32) (x2 : Vec F S1x128 .f32) : Vec F S2000x128 .f32 :=
  View.canon [⟨rRows5, k5_pay1 (View.ld x0 rRows5) (View.ld x1 rCol5) (View.ld x2 rPar5)⟩]

/-- The one store covers the output block. -/
theorem cover5_3 (p0 : Vec F S2000x128 .f32) (y : S2000x128.Idx) :
    ∃ pc ∈ ([⟨rRows5, p0⟩] : List (View.Piece (Elt F) S2000x128 .f32)), y ∈ pc.1.set :=
  View.cover_of_tiled [⟨rRows5, p0⟩] S2000x128.size (by rfl) y

set_option maxHeartbeats 1000000 in
/-- The body on whole staging buffers — the inputs' holding `x0`, `x1`, `x2`, the output's holding anything — runs to
    its return with the inputs' as they were and the output's at `out5_3 x0 x1 x2`. -/
theorem sound_kernel5 (c : Dev nD) (E : Set ℕ) (i : grid5.Coords)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S2000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__post_kernel i arg1 harg1 arg2 harg2 arg3 harg3 arg4 harg4) K := by
  simp only [cc5__post_kernel_eq_skeleton]; unfold cc5__post_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The region's bookkeeping on core `c`: the windows' arrays as the region finds them; after the body at point `t`
    each input's buffer at its block and the output's at `out5_3` of the three input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is handed at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it hands back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so `sound_kernel5` applies; the invariant and the
    core's dues pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.Kernel.Conv

end
-- ==== Proof.Bits.Run.lean ====
/-
  The whole program as thirteen segments: seven stretches of host operations (degree counts, inverse square roots,
  gathers and scatter-adds of rows, the final concatenation) alternating with the six grid regions. Between two
  segments the TensorCore's unscoped buffers hold a known valuation `B0 … B13`: a host stretch applies its operations
  to the valuation; a region replaces its output window's array by the blocks its points wrote back and touches
  nothing else. The run of the program therefore ends with every unscoped buffer at `B13` — in particular every
  argument array as launched, and the result buffer at `B13`'s value for it.
-/
import proofs.«111035_j79285096284406_1_alg».proof.Proof.Bits.Body0
import proofs.«111035_j79285096284406_1_alg».proof.Proof.Bits.Body1
import proofs.«111035_j79285096284406_1_alg».proof.Proof.Bits.Body2
import proofs.«111035_j79285096284406_1_alg».proof.Proof.Bits.Body3
import proofs.«111035_j79285096284406_1_alg».proof.Proof.Bits.Body4
import proofs.«111035_j79285096284406_1_alg».proof.Proof.Bits.Body5
import proofs.«111035_j79285096284406_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each segment boundary -/

/-- Core `c`'s buffers at launch. -/
abbrev B0 : Dev nD → Valuation τ sig (Elt F) := fun c b => m (c, b)

/-- After host stretch 0: the contents region 0 is entered from. -/
abbrev B1 : Dev nD → Valuation τ sig (Elt F) := fun c => StableHlo.after hostOps0 (B0 m c)
/-- The same read at the TensorCore's references. -/
abbrev E1 : (c : Dev nD) → (b : Ref sig .tc) → Buf (Elt F) ((c : Thread nD τ).loc b) := fun c b => B1 m c b
/-- After region 0: its windows' arrays at what the pipeline leaves (inputs as entered, the output with every block
    written back), every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev X2 : (c : Dev nD) → (b : Ref sig .tc) → Buf (Elt F) ((c : Thread nD τ).loc b) := fun c b => B2 m c b
theorem hF0 (c : Dev nD) (w : Fin cfg0.W) : (dat0 (E1 m) c).arrAt w cfg0.N = X2 m c (Pipeline.arrRef spec0 w) :=
  (B2_arr m c w).symm
theorem hrest0 (c : Dev nD) : ∀ b, b ∉ Finset.univ.image (Pipeline.arrRef spec0) → X2 m c b = E1 m c b :=
  fun b hb => B2_of_ne m c b fun w e => hb (Finset.mem_image.mpr ⟨w, Finset.mem_univ _, e⟩)
/-- A host stretch leaves every buffer it does not write as it was. -/
theorem B1_keep (c : Dev nD) (r : Ref sig .tc) (h : r ∉ hostOps0_W) : B1 m c (Proc.devRef .tc r) = B0 m c (Proc.devRef .tc r) :=
  StableHlo.after_of_writes_sub hostOps0 _ hostOps0_writes h
/-- A region leaves every buffer that is not one of its output windows' arrays as it was. -/
theorem B2_keep (c : Dev nD) (r : Ref sig .tc) (h : ∀ w : Fin cfg0.W, Pipeline.arrRef spec0 w = r → (cfg0.win w).isOut = false) :
    B2 m c (Proc.devRef .tc r) = B1 m c (Proc.devRef .tc r) := by
  by_cases hw : ∃ w, Pipeline.arrRef spec0 w = r
  · obtain ⟨w, rfl⟩ := hw
    rw [B2_arr]
    exact ((dat0 (E1 m) c).arrAt_in w (h w rfl) _).trans (A_eq0 (E1 m) c w)
  · exact B2_of_ne m c r fun w e => hw ⟨w, e⟩

/-- After host stretch 1: the contents region 1 is entered from. -/
abbrev B3 : Dev nD → Valuation τ sig (Elt F) := fun c => StableHlo.after hostOps1 (B2 m c)
/-- The same read at the TensorCore's references. -/
abbrev E3 : (c : Dev nD) → (b : Ref sig .tc) → Buf (Elt F) ((c : Thread nD τ).loc b) := fun c b => B3 m c b
/-- After region 1: its windows' arrays at what the pipeline leaves (inputs as entered, the output with every block
    written back), every other buffer as entered. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev X4 : (c : Dev nD) → (b : Ref sig .tc) → Buf (Elt F) ((c : Thread nD τ).loc b) := fun c b => B4 m c b
theorem hF1 (c : Dev nD) (w : Fin cfg1.W) : (dat1 (E3 m) c).arrAt w cfg1.N = X4 m c (Pipeline.arrRef spec1 w) :=
  (B4_arr m c w).symm
theorem hrest1 (c : Dev nD) : ∀ b, b ∉ Finset.univ.image (Pipeline.arrRef spec1) → X4 m c b = E3 m c b :=
  fun b hb => B4_of_ne m c b fun w e => hb (Finset.mem_image.mpr ⟨w, Finset.mem_univ _, e⟩)
/-- A host stretch leaves every buffer it does not write as it was. -/
theorem B3_keep (c : Dev nD) (r : Ref sig .tc) (h : r ∉ hostOps1_W) : B3 m c (Proc.devRef .tc r) = B2 m c (Proc.devRef .tc r) :=
  StableHlo.after_of_writes_sub hostOps1 _ hostOps1_writes h
/-- A region leaves every buffer that is not one of its output windows' arrays as it was. -/
theorem B4_keep (c : Dev nD) (r : Ref sig .tc) (h : ∀ w : Fin cfg1.W, Pipeline.arrRef spec1 w = r → (cfg1.win w).isOut = false) :
    B4 m c (Proc.devRef .tc r) = B3 m c (Proc.devRef .tc r) := by
  by_cases hw : ∃ w, Pipeline.arrRef spec1 w = r
  · obtain ⟨w, rfl⟩ := hw
    rw [B4_arr]
    exact ((dat1 (E3 m) c).arrAt_in w (h w rfl) _).trans (A_eq1 (E3 m) c w)
  · exact B4_of_ne m c r fun w e => hw ⟨w, e⟩

/-- After host stretch 2: the contents region 2 is entered from. -/
abbrev B5 : Dev nD → Valuation τ sig (Elt F) := fun c => StableHlo.after hostOps2 (B4 m c)
/-- The same read at the TensorCore's references. -/
abbrev E5 : (c : Dev nD) → (b : Ref sig .tc) → Buf (Elt F) ((c : Thread nD τ).loc b) := fun c b => B5 m c b
/-- After region 2: its windows' arrays at what the pipeline leaves (inputs as entered, the output with every block
    written back), every other buffer as entered. -/
def B6 (c : Dev nD) : Valuation τ sig (Elt F) :=
  Pipeline.withArrays spec2 c (B5 m c) fun w => (dat2 (E5 m) c).arrAt w cfg2.N
theorem B6_arr (c : Dev nD) (w : Fin cfg2.W) :
    B6 m c (Proc.devRef .tc (Pipeline.arrRef spec2 w)) = (dat2 (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev X6 : (c : Dev nD) → (b : Ref sig .tc) → Buf (Elt F) ((c : Thread nD τ).loc b) := fun c b => B6 m c b
theorem hF2 (c : Dev nD) (w : Fin cfg2.W) : (dat2 (E5 m) c).arrAt w cfg2.N = X6 m c (Pipeline.arrRef spec2 w) :=
  (B6_arr m c w).symm
theorem hrest2 (c : Dev nD) : ∀ b, b ∉ Finset.univ.image (Pipeline.arrRef spec2) → X6 m c b = E5 m c b :=
  fun b hb => B6_of_ne m c b fun w e => hb (Finset.mem_image.mpr ⟨w, Finset.mem_univ _, e⟩)
/-- A host stretch leaves every buffer it does not write as it was. -/
theorem B5_keep (c : Dev nD) (r : Ref sig .tc) (h : r ∉ hostOps2_W) : B5 m c (Proc.devRef .tc r) = B4 m c (Proc.devRef .tc r) :=
  StableHlo.after_of_writes_sub hostOps2 _ hostOps2_writes h
/-- A region leaves every buffer that is not one of its output windows' arrays as it was. -/
theorem B6_keep (c : Dev nD) (r : Ref sig .tc) (h : ∀ w : Fin cfg2.W, Pipeline.arrRef spec2 w = r → (cfg2.win w).isOut = false) :
    B6 m c (Proc.devRef .tc r) = B5 m c (Proc.devRef .tc r) := by
  by_cases hw : ∃ w, Pipeline.arrRef spec2 w = r
  · obtain ⟨w, rfl⟩ := hw
    rw [B6_arr]
    exact ((dat2 (E5 m) c).arrAt_in w (h w rfl) _).trans (A_eq2 (E5 m) c w)
  · exact B6_of_ne m c r fun w e => hw ⟨w, e⟩

/-- After host stretch 3: the contents region 3 is entered from. -/
abbrev B7 : Dev nD → Valuation τ sig (Elt F) := fun c => StableHlo.after hostOps3 (B6 m c)
/-- The same read at the TensorCore's references. -/
abbrev E7 : (c : Dev nD) → (b : Ref sig .tc) → Buf (Elt F) ((c : Thread nD τ).loc b) := fun c b => B7 m c b
/-- After region 3: its windows' arrays at what the pipeline leaves (inputs as entered, the output with every block
    written back), every other buffer as entered. -/
def B8 (c : Dev nD) : Valuation τ sig (Elt F) :=
  Pipeline.withArrays spec3 c (B7 m c) fun w => (dat3 (E7 m) c).arrAt w cfg3.N
theorem B8_arr (c : Dev nD) (w : Fin cfg3.W) :
    B8 m c (Proc.devRef .tc (Pipeline.arrRef spec3 w)) = (dat3 (E7 m) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m c (Proc.devRef .tc b) = B7 m c (Proc.devRef .tc b) := by
  unfold B8; exact Pipeline.withArrays_of_ne spec3 c _ _ b hb
abbrev X8 : (c : Dev nD) → (b : Ref sig .tc) → Buf (Elt F) ((c : Thread nD τ).loc b) := fun c b => B8 m c b
theorem hF3 (c : Dev nD) (w : Fin cfg3.W) : (dat3 (E7 m) c).arrAt w cfg3.N = X8 m c (Pipeline.arrRef spec3 w) :=
  (B8_arr m c w).symm
theorem hrest3 (c : Dev nD) : ∀ b, b ∉ Finset.univ.image (Pipeline.arrRef spec3) → X8 m c b = E7 m c b :=
  fun b hb => B8_of_ne m c b fun w e => hb (Finset.mem_image.mpr ⟨w, Finset.mem_univ _, e⟩)
/-- A host stretch leaves every buffer it does not write as it was. -/
theorem B7_keep (c : Dev nD) (r : Ref sig .tc) (h : r ∉ hostOps3_W) : B7 m c (Proc.devRef .tc r) = B6 m c (Proc.devRef .tc r) :=
  StableHlo.after_of_writes_sub hostOps3 _ hostOps3_writes h
/-- A region leaves every buffer that is not one of its output windows' arrays as it was. -/
theorem B8_keep (c : Dev nD) (r : Ref sig .tc) (h : ∀ w : Fin cfg3.W, Pipeline.arrRef spec3 w = r → (cfg3.win w).isOut = false) :
    B8 m c (Proc.devRef .tc r) = B7 m c (Proc.devRef .tc r) := by
  by_cases hw : ∃ w, Pipeline.arrRef spec3 w = r
  · obtain ⟨w, rfl⟩ := hw
    rw [B8_arr]
    exact ((dat3 (E7 m) c).arrAt_in w (h w rfl) _).trans (A_eq3 (E7 m) c w)
  · exact B8_of_ne m c r fun w e => hw ⟨w, e⟩

/-- After host stretch 4: the contents region 4 is entered from. -/
abbrev B9 : Dev nD → Valuation τ sig (Elt F) := fun c => StableHlo.after hostOps4 (B8 m c)
/-- The same read at the TensorCore's references. -/
abbrev E9 : (c : Dev nD) → (b : Ref sig .tc) → Buf (Elt F) ((c : Thread nD τ).loc b) := fun c b => B9 m c b
/-- After region 4: its windows' arrays at what the pipeline leaves (inputs as entered, the output with every block
    written back), every other buffer as entered. -/
def B10 (c : Dev nD) : Valuation τ sig (Elt F) :=
  Pipeline.withArrays spec4 c (B9 m c) fun w => (dat4 (E9 m) c).arrAt w cfg4.N
theorem B10_arr (c : Dev nD) (w : Fin cfg4.W) :
    B10 m c (Proc.devRef .tc (Pipeline.arrRef spec4 w)) = (dat4 (E9 m) c).arrAt w cfg4.N := by
  unfold B10; exact Pipeline.withArrays_arr spec4 launch4.win.arr_inj c _ _ w
theorem B10_of_ne (c : Dev nD) (b : Ref sig .tc) (hb : ∀ w, Pipeline.arrRef spec4 w ≠ b) :
    B10 m c (Proc.devRef .tc b) = B9 m c (Proc.devRef .tc b) := by
  unfold B10; exact Pipeline.withArrays_of_ne spec4 c _ _ b hb
abbrev X10 : (c : Dev nD) → (b : Ref sig .tc) → Buf (Elt F) ((c : Thread nD τ).loc b) := fun c b => B10 m c b
theorem hF4 (c : Dev nD) (w : Fin cfg4.W) : (dat4 (E9 m) c).arrAt w cfg4.N = X10 m c (Pipeline.arrRef spec4 w) :=
  (B10_arr m c w).symm
theorem hrest4 (c : Dev nD) : ∀ b, b ∉ Finset.univ.image (Pipeline.arrRef spec4) → X10 m c b = E9 m c b :=
  fun b hb => B10_of_ne m c b fun w e => hb (Finset.mem_image.mpr ⟨w, Finset.mem_univ _, e⟩)
/-- A host stretch leaves every buffer it does not write as it was. -/
theorem B9_keep (c : Dev nD) (r : Ref sig .tc) (h : r ∉ hostOps4_W) : B9 m c (Proc.devRef .tc r) = B8 m c (Proc.devRef .tc r) :=
  StableHlo.after_of_writes_sub hostOps4 _ hostOps4_writes h
/-- A region leaves every buffer that is not one of its output windows' arrays as it was. -/
theorem B10_keep (c : Dev nD) (r : Ref sig .tc) (h : ∀ w : Fin cfg4.W, Pipeline.arrRef spec4 w = r → (cfg4.win w).isOut = false) :
    B10 m c (Proc.devRef .tc r) = B9 m c (Proc.devRef .tc r) := by
  by_cases hw : ∃ w, Pipeline.arrRef spec4 w = r
  · obtain ⟨w, rfl⟩ := hw
    rw [B10_arr]
    exact ((dat4 (E9 m) c).arrAt_in w (h w rfl) _).trans (A_eq4 (E9 m) c w)
  · exact B10_of_ne m c r fun w e => hw ⟨w, e⟩

/-- After host stretch 5: the contents region 5 is entered from. -/
abbrev B11 : Dev nD → Valuation τ sig (Elt F) := fun c => StableHlo.after hostOps5 (B10 m c)
/-- The same read at the TensorCore's references. -/
abbrev E11 : (c : Dev nD) → (b : Ref sig .tc) → Buf (Elt F) ((c : Thread nD τ).loc b) := fun c b => B11 m c b
/-- After region 5: its windows' arrays at what the pipeline leaves (inputs as entered, the output with every block
    written back), every other buffer as entered. -/
def B12 (c : Dev nD) : Valuation τ sig (Elt F) :=
  Pipeline.withArrays spec5 c (B11 m c) fun w => (dat5 (E11 m) c).arrAt w cfg5.N
theorem B12_arr (c : Dev nD) (w : Fin cfg5.W) :
    B12 m c (Proc.devRef .tc (Pipeline.arrRef spec5 w)) = (dat5 (E11 m) c).arrAt w cfg5.N := by
  unfold B12; exact Pipeline.withArrays_arr spec5 launch5.win.arr_inj c _ _ w
theorem B12_of_ne (c : Dev nD) (b : Ref sig .tc) (hb : ∀ w, Pipeline.arrRef spec5 w ≠ b) :
    B12 m c (Proc.devRef .tc b) = B11 m c (Proc.devRef .tc b) := by
  unfold B12; exact Pipeline.withArrays_of_ne spec5 c _ _ b hb
abbrev X12 : (c : Dev nD) → (b : Ref sig .tc) → Buf (Elt F) ((c : Thread nD τ).loc b) := fun c b => B12 m c b
theorem hF5 (c : Dev nD) (w : Fin cfg5.W) : (dat5 (E11 m) c).arrAt w cfg5.N = X12 m c (Pipeline.arrRef spec5 w) :=
  (B12_arr m c w).symm
theorem hrest5 (c : Dev nD) : ∀ b, b ∉ Finset.univ.image (Pipeline.arrRef spec5) → X12 m c b = E11 m c b :=
  fun b hb => B12_of_ne m c b fun w e => hb (Finset.mem_image.mpr ⟨w, Finset.mem_univ _, e⟩)
/-- A host stretch leaves every buffer it does not write as it was. -/
theorem B11_keep (c : Dev nD) (r : Ref sig .tc) (h : r ∉ hostOps5_W) : B11 m c (Proc.devRef .tc r) = B10 m c (Proc.devRef .tc r) :=
  StableHlo.after_of_writes_sub hostOps5 _ hostOps5_writes h
/-- A region leaves every buffer that is not one of its output windows' arrays as it was. -/
theorem B12_keep (c : Dev nD) (r : Ref sig .tc) (h : ∀ w : Fin cfg5.W, Pipeline.arrRef spec5 w = r → (cfg5.win w).isOut = false) :
    B12 m c (Proc.devRef .tc r) = B11 m c (Proc.devRef .tc r) := by
  by_cases hw : ∃ w, Pipeline.arrRef spec5 w = r
  · obtain ⟨w, rfl⟩ := hw
    rw [B12_arr]
    exact ((dat5 (E11 m) c).arrAt_in w (h w rfl) _).trans (A_eq5 (E11 m) c w)
  · exact B12_of_ne m c r fun w e => hw ⟨w, e⟩

/-- After the last host stretch (the concatenation): the contents at the return. -/
abbrev B13 : Dev nD → Valuation τ sig (Elt F) := fun c => StableHlo.after hostOps6 (B12 m c)
theorem B13_keep (c : Dev nD) (r : Ref sig .tc) (h : r ∉ hostOps6_W) : B13 m c (Proc.devRef .tc r) = B12 m c (Proc.devRef .tc r) :=
  StableHlo.after_of_writes_sub hostOps6 _ hostOps6_writes h

/-! ## No segment writes an argument -/

theorem B13_main_arg0 (c : Dev nD) : B13 m c (Proc.devRef .tc main_arg0) = m ((c : Thread nD τ).loc main_arg0) :=
  ((B13_keep m c main_arg0 (by decide)).trans <| (B12_keep m c main_arg0 (by decide)).trans <| (B11_keep m c main_arg0 (by decide)).trans <| (B10_keep m c main_arg0 (by decide)).trans <| (B9_keep m c main_arg0 (by decide)).trans <| (B8_keep m c main_arg0 (by decide)).trans <| (B7_keep m c main_arg0 (by decide)).trans <| (B6_keep m c main_arg0 (by decide)).trans <| (B5_keep m c main_arg0 (by decide)).trans <| (B4_keep m c main_arg0 (by decide)).trans <| (B3_keep m c main_arg0 (by decide)).trans <| (B2_keep m c main_arg0 (by decide)).trans <| (B1_keep m c main_arg0 (by decide))).trans rfl
theorem B13_main_arg1 (c : Dev nD) : B13 m c (Proc.devRef .tc main_arg1) = m ((c : Thread nD τ).loc main_arg1) :=
  ((B13_keep m c main_arg1 (by decide)).trans <| (B12_keep m c main_arg1 (by decide)).trans <| (B11_keep m c main_arg1 (by decide)).trans <| (B10_keep m c main_arg1 (by decide)).trans <| (B9_keep m c main_arg1 (by decide)).trans <| (B8_keep m c main_arg1 (by decide)).trans <| (B7_keep m c main_arg1 (by decide)).trans <| (B6_keep m c main_arg1 (by decide)).trans <| (B5_keep m c main_arg1 (by decide)).trans <| (B4_keep m c main_arg1 (by decide)).trans <| (B3_keep m c main_arg1 (by decide)).trans <| (B2_keep m c main_arg1 (by decide)).trans <| (B1_keep m c main_arg1 (by decide))).trans rfl
theorem B13_main_arg2 (c : Dev nD) : B13 m c (Proc.devRef .tc main_arg2) = m ((c : Thread nD τ).loc main_arg2) :=
  ((B13_keep m c main_arg2 (by decide)).trans <| (B12_keep m c main_arg2 (by decide)).trans <| (B11_keep m c main_arg2 (by decide)).trans <| (B10_keep m c main_arg2 (by decide)).trans <| (B9_keep m c main_arg2 (by decide)).trans <| (B8_keep m c main_arg2 (by decide)).trans <| (B7_keep m c main_arg2 (by decide)).trans <| (B6_keep m c main_arg2 (by decide)).trans <| (B5_keep m c main_arg2 (by decide)).trans <| (B4_keep m c main_arg2 (by decide)).trans <| (B3_keep m c main_arg2 (by decide)).trans <| (B2_keep m c main_arg2 (by decide)).trans <| (B1_keep m c main_arg2 (by decide))).trans rfl
theorem B13_main_arg3 (c : Dev nD) : B13 m c (Proc.devRef .tc main_arg3) = m ((c : Thread nD τ).loc main_arg3) :=
  ((B13_keep m c main_arg3 (by decide)).trans <| (B12_keep m c main_arg3 (by decide)).trans <| (B11_keep m c main_arg3 (by decide)).trans <| (B10_keep m c main_arg3 (by decide)).trans <| (B9_keep m c main_arg3 (by decide)).trans <| (B8_keep m c main_arg3 (by decide)).trans <| (B7_keep m c main_arg3 (by decide)).trans <| (B6_keep m c main_arg3 (by decide)).trans <| (B5_keep m c main_arg3 (by decide)).trans <| (B4_keep m c main_arg3 (by decide)).trans <| (B3_keep m c main_arg3 (by decide)).trans <| (B2_keep m c main_arg3 (by decide)).trans <| (B1_keep m c main_arg3 (by decide))).trans rfl
theorem B13_main_arg4 (c : Dev nD) : B13 m c (Proc.devRef .tc main_arg4) = m ((c : Thread nD τ).loc main_arg4) :=
  ((B13_keep m c main_arg4 (by decide)).trans <| (B12_keep m c main_arg4 (by decide)).trans <| (B11_keep m c main_arg4 (by decide)).trans <| (B10_keep m c main_arg4 (by decide)).trans <| (B9_keep m c main_arg4 (by decide)).trans <| (B8_keep m c main_arg4 (by decide)).trans <| (B7_keep m c main_arg4 (by decide)).trans <| (B6_keep m c main_arg4 (by decide)).trans <| (B5_keep m c main_arg4 (by decide)).trans <| (B4_keep m c main_arg4 (by decide)).trans <| (B3_keep m c main_arg4 (by decide)).trans <| (B2_keep m c main_arg4 (by decide)).trans <| (B1_keep m c main_arg4 (by decide))).trans rfl
theorem B13_main_arg5 (c : Dev nD) : B13 m c (Proc.devRef .tc main_arg5) = m ((c : Thread nD τ).loc main_arg5) :=
  ((B13_keep m c main_arg5 (by decide)).trans <| (B12_keep m c main_arg5 (by decide)).trans <| (B11_keep m c main_arg5 (by decide)).trans <| (B10_keep m c main_arg5 (by decide)).trans <| (B9_keep m c main_arg5 (by decide)).trans <| (B8_keep m c main_arg5 (by decide)).trans <| (B7_keep m c main_arg5 (by decide)).trans <| (B6_keep m c main_arg5 (by decide)).trans <| (B5_keep m c main_arg5 (by decide)).trans <| (B4_keep m c main_arg5 (by decide)).trans <| (B3_keep m c main_arg5 (by decide)).trans <| (B2_keep m c main_arg5 (by decide)).trans <| (B1_keep m c main_arg5 (by decide))).trans rfl
theorem B13_main_arg6 (c : Dev nD) : B13 m c (Proc.devRef .tc main_arg6) = m ((c : Thread nD τ).loc main_arg6) :=
  ((B13_keep m c main_arg6 (by decide)).trans <| (B12_keep m c main_arg6 (by decide)).trans <| (B11_keep m c main_arg6 (by decide)).trans <| (B10_keep m c main_arg6 (by decide)).trans <| (B9_keep m c main_arg6 (by decide)).trans <| (B8_keep m c main_arg6 (by decide)).trans <| (B7_keep m c main_arg6 (by decide)).trans <| (B6_keep m c main_arg6 (by decide)).trans <| (B5_keep m c main_arg6 (by decide)).trans <| (B4_keep m c main_arg6 (by decide)).trans <| (B3_keep m c main_arg6 (by decide)).trans <| (B2_keep m c main_arg6 (by decide)).trans <| (B1_keep m c main_arg6 (by decide))).trans rfl
theorem B13_main_arg7 (c : Dev nD) : B13 m c (Proc.devRef .tc main_arg7) = m ((c : Thread nD τ).loc main_arg7) :=
  ((B13_keep m c main_arg7 (by decide)).trans <| (B12_keep m c main_arg7 (by decide)).trans <| (B11_keep m c main_arg7 (by decide)).trans <| (B10_keep m c main_arg7 (by decide)).trans <| (B9_keep m c main_arg7 (by decide)).trans <| (B8_keep m c main_arg7 (by decide)).trans <| (B7_keep m c main_arg7 (by decide)).trans <| (B6_keep m c main_arg7 (by decide)).trans <| (B5_keep m c main_arg7 (by decide)).trans <| (B4_keep m c main_arg7 (by decide)).trans <| (B3_keep m c main_arg7 (by decide)).trans <| (B2_keep m c main_arg7 (by decide)).trans <| (B1_keep m c main_arg7 (by decide))).trans rfl
theorem B13_main_arg8 (c : Dev nD) : B13 m c (Proc.devRef .tc main_arg8) = m ((c : Thread nD τ).loc main_arg8) :=
  ((B13_keep m c main_arg8 (by decide)).trans <| (B12_keep m c main_arg8 (by decide)).trans <| (B11_keep m c main_arg8 (by decide)).trans <| (B10_keep m c main_arg8 (by decide)).trans <| (B9_keep m c main_arg8 (by decide)).trans <| (B8_keep m c main_arg8 (by decide)).trans <| (B7_keep m c main_arg8 (by decide)).trans <| (B6_keep m c main_arg8 (by decide)).trans <| (B5_keep m c main_arg8 (by decide)).trans <| (B4_keep m c main_arg8 (by decide)).trans <| (B3_keep m c main_arg8 (by decide)).trans <| (B2_keep m c main_arg8 (by decide)).trans <| (B1_keep m c main_arg8 (by decide))).trans rfl
theorem B13_main_arg9 (c : Dev nD) : B13 m c (Proc.devRef .tc main_arg9) = m ((c : Thread nD τ).loc main_arg9) :=
  ((B13_keep m c main_arg9 (by decide)).trans <| (B12_keep m c main_arg9 (by decide)).trans <| (B11_keep m c main_arg9 (by decide)).trans <| (B10_keep m c main_arg9 (by decide)).trans <| (B9_keep m c main_arg9 (by decide)).trans <| (B8_keep m c main_arg9 (by decide)).trans <| (B7_keep m c main_arg9 (by decide)).trans <| (B6_keep m c main_arg9 (by decide)).trans <| (B5_keep m c main_arg9 (by decide)).trans <| (B4_keep m c main_arg9 (by decide)).trans <| (B3_keep m c main_arg9 (by decide)).trans <| (B2_keep m c main_arg9 (by decide)).trans <| (B1_keep m c main_arg9 (by decide))).trans rfl
theorem B13_main_arg10 (c : Dev nD) : B13 m c (Proc.devRef .tc main_arg10) = m ((c : Thread nD τ).loc main_arg10) :=
  ((B13_keep m c main_arg10 (by decide)).trans <| (B12_keep m c main_arg10 (by decide)).trans <| (B11_keep m c main_arg10 (by decide)).trans <| (B10_keep m c main_arg10 (by decide)).trans <| (B9_keep m c main_arg10 (by decide)).trans <| (B8_keep m c main_arg10 (by decide)).trans <| (B7_keep m c main_arg10 (by decide)).trans <| (B6_keep m c main_arg10 (by decide)).trans <| (B5_keep m c main_arg10 (by decide)).trans <| (B4_keep m c main_arg10 (by decide)).trans <| (B3_keep m c main_arg10 (by decide)).trans <| (B2_keep m c main_arg10 (by decide)).trans <| (B1_keep m c main_arg10 (by decide))).trans rfl
theorem B13_main_arg11 (c : Dev nD) : B13 m c (Proc.devRef .tc main_arg11) = m ((c : Thread nD τ).loc main_arg11) :=
  ((B13_keep m c main_arg11 (by decide)).trans <| (B12_keep m c main_arg11 (by decide)).trans <| (B11_keep m c main_arg11 (by decide)).trans <| (B10_keep m c main_arg11 (by decide)).trans <| (B9_keep m c main_arg11 (by decide)).trans <| (B8_keep m c main_arg11 (by decide)).trans <| (B7_keep m c main_arg11 (by decide)).trans <| (B6_keep m c main_arg11 (by decide)).trans <| (B5_keep m c main_arg11 (by decide)).trans <| (B4_keep m c main_arg11 (by decide)).trans <| (B3_keep m c main_arg11 (by decide)).trans <| (B2_keep m c main_arg11 (by decide)).trans <| (B1_keep m c main_arg11 (by decide))).trans rfl
theorem B13_main_arg12 (c : Dev nD) : B13 m c (Proc.devRef .tc main_arg12) = m ((c : Thread nD τ).loc main_arg12) :=
  ((B13_keep m c main_arg12 (by decide)).trans <| (B12_keep m c main_arg12 (by decide)).trans <| (B11_keep m c main_arg12 (by decide)).trans <| (B10_keep m c main_arg12 (by decide)).trans <| (B9_keep m c main_arg12 (by decide)).trans <| (B8_keep m c main_arg12 (by decide)).trans <| (B7_keep m c main_arg12 (by decide)).trans <| (B6_keep m c main_arg12 (by decide)).trans <| (B5_keep m c main_arg12 (by decide)).trans <| (B4_keep m c main_arg12 (by decide)).trans <| (B3_keep m c main_arg12 (by decide)).trans <| (B2_keep m c main_arg12 (by decide)).trans <| (B1_keep m c main_arg12 (by decide))).trans rfl
theorem B13_main_arg13 (c : Dev nD) : B13 m c (Proc.devRef .tc main_arg13) = m ((c : Thread nD τ).loc main_arg13) :=
  ((B13_keep m c main_arg13 (by decide)).trans <| (B12_keep m c main_arg13 (by decide)).trans <| (B11_keep m c main_arg13 (by decide)).trans <| (B10_keep m c main_arg13 (by decide)).trans <| (B9_keep m c main_arg13 (by decide)).trans <| (B8_keep m c main_arg13 (by decide)).trans <| (B7_keep m c main_arg13 (by decide)).trans <| (B6_keep m c main_arg13 (by decide)).trans <| (B5_keep m c main_arg13 (by decide)).trans <| (B4_keep m c main_arg13 (by decide)).trans <| (B3_keep m c main_arg13 (by decide)).trans <| (B2_keep m c main_arg13 (by decide)).trans <| (B1_keep m c main_arg13 (by decide))).trans rfl
theorem B13_main_arg14 (c : Dev nD) : B13 m c (Proc.devRef .tc main_arg14) = m ((c : Thread nD τ).loc main_arg14) :=
  ((B13_keep m c main_arg14 (by decide)).trans <| (B12_keep m c main_arg14 (by decide)).trans <| (B11_keep m c main_arg14 (by decide)).trans <| (B10_keep m c main_arg14 (by decide)).trans <| (B9_keep m c main_arg14 (by decide)).trans <| (B8_keep m c main_arg14 (by decide)).trans <| (B7_keep m c main_arg14 (by decide)).trans <| (B6_keep m c main_arg14 (by decide)).trans <| (B5_keep m c main_arg14 (by decide)).trans <| (B4_keep m c main_arg14 (by decide)).trans <| (B3_keep m c main_arg14 (by decide)).trans <| (B2_keep m c main_arg14 (by decide)).trans <| (B1_keep m c main_arg14 (by decide))).trans rfl

/-! ## The bookkeeping family and the thread state -/

abbrev admC : (p : Fin 6) → (pcfgs (F := F) p).Adm := fun p => (cfgs p).toPCfg_adm
/-- Every pipeline's bookkeeping, each at its region's entry contents. -/
def pd : (p : Fin 6) → (c : Dev nD) → Dat τ (Elt F) Unit ℕ (UR sig nD τ) ℕ (Pipeline.pin (pcfgs (F := F)) admC p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
abbrev 𝒱C : Variants := Variants.none
abbrev LC : GSem nD τ sig → Finset Unit := fun _ => ∅
abbrev lvC : GSem nD τ sig → Unit → ℕ := fun _ _ => 0
/-- What rides beside the buffers through every segment: the generator register at some state, and the core owing nothing. -/
abbrev Rst (c : Dev nD) : sProp 𝕄 := iprop((∃ r, prngReg c r) ∗ ∃ W, owes (c : Thread nD τ) (0 : CellTallies nD τ sig Unit) W)
/-- A host stretch as a segment: its operations over the unscoped references from the contents `W`, `Rst` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱C LC lvC :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `B13`, the generator register at some state. -/
abbrev Tend (c : Dev nD) : sProp 𝕄 := iprop(StableHlo.held (c : Thread nD τ) (Pipeline.ucRefs τ sig) (B13 m c) ∗ ∃ r, prngReg c r)

/-! ## The regions as segments -/

-- unifying a library lemma stated over the pinned configuration with this pipeline's takes unfolding plain
-- definitions in a metavariable's type
set_option backward.isDefEq.respectTransparency.types false in
/-- Region 0 over the thread state: entered with every unscoped buffer at `B1`, left with them at `B2`. Its four
    arrays are split out of the unscoped buffers at entry and put back at exit; the generator register goes into the
    pipeline's invariant and comes back; nothing is owed; the kernel has no semaphore of its own. -/
def reg0 : Pipeline.RegionSeg (pcfgs (F := F)) admC (pd m) () defs₀ 𝒱C LC lvC 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LC lvC 0 fun _ _ => rfl
  pre c := iprop(StableHlo.held (c : Thread nD τ) (Pipeline.ucRefs τ sig) (B1 m c) ∗ Rst c)
  post c := iprop(StableHlo.held (c : Thread nD τ) (Pipeline.ucRefs τ sig) (B2 m c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admC (pd m) launch0.win launch0.arr_whole c
      ((pd m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admC (Ix := Unit) (Name := ℕ) (U := UR sig nD τ) (Lvl := ℕ)
      launch0.win launch0.arr_whole c (pd m) ((pd m 0 c).share_full fun _ => rfl)
      (E1 m c) (X2 m c) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with this pipeline's takes unfolding plain
-- definitions in a metavariable's type
set_option backward.isDefEq.respectTransparency.types false in
/-- Region 1 over the thread state: entered with every unscoped buffer at `B3`, left with them at `B4`. Its four
    arrays are split out of the unscoped buffers at entry and put back at exit; the generator register goes into the
    pipeline's invariant and comes back; nothing is owed; the kernel has no semaphore of its own. -/
def reg1 : Pipeline.RegionSeg (pcfgs (F := F)) admC (pd m) () defs₀ 𝒱C LC lvC 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ LC lvC 1 fun _ _ => rfl
  pre c := iprop(StableHlo.held (c : Thread nD τ) (Pipeline.ucRefs τ sig) (B3 m c) ∗ Rst c)
  post c := iprop(StableHlo.held (c : Thread nD τ) (Pipeline.ucRefs τ sig) (B4 m c) ∗ Rst c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) admC (pd m) launch1.win launch1.arr_whole c
      ((pd m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admC (Ix := Unit) (Name := ℕ) (U := UR sig nD τ) (Lvl := ℕ)
      launch1.win launch1.arr_whole c (pd m) ((pd m 1 c).share_full fun _ => rfl)
      (E3 m c) (X4 m c) ((pd m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with this pipeline's takes unfolding plain
-- definitions in a metavariable's type
set_option backward.isDefEq.respectTransparency.types false in
/-- Region 2 over the thread state: entered with every unscoped buffer at `B5`, left with them at `B6`. Its four
    arrays are split out of the unscoped buffers at entry and put back at exit; the generator register goes into the
    pipeline's invariant and comes back; nothing is owed; the kernel has no semaphore of its own. -/
def reg2 : Pipeline.RegionSeg (pcfgs (F := F)) admC (pd m) () defs₀ 𝒱C LC lvC 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ LC lvC 2 fun _ _ => rfl
  pre c := iprop(StableHlo.held (c : Thread nD τ) (Pipeline.ucRefs τ sig) (B5 m c) ∗ Rst c)
  post c := iprop(StableHlo.held (c : Thread nD τ) (Pipeline.ucRefs τ sig) (B6 m c) ∗ Rst c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) admC (pd m) launch2.win launch2.arr_whole c
      ((pd m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admC (Ix := Unit) (Name := ℕ) (U := UR sig nD τ) (Lvl := ℕ)
      launch2.win launch2.arr_whole c (pd m) ((pd m 2 c).share_full fun _ => rfl)
      (E5 m c) (X6 m c) ((pd m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with this pipeline's takes unfolding plain
-- definitions in a metavariable's type
set_option backward.isDefEq.respectTransparency.types false in
/-- Region 3 over the thread state: entered with every unscoped buffer at `B7`, left with them at `B8`. Its four
    arrays are split out of the unscoped buffers at entry and put back at exit; the generator register goes into the
    pipeline's invariant and comes back; nothing is owed; the kernel has no semaphore of its own. -/
def reg3 : Pipeline.RegionSeg (pcfgs (F := F)) admC (pd m) () defs₀ 𝒱C LC lvC 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ LC lvC 3 fun _ _ => rfl
  pre c := iprop(StableHlo.held (c : Thread nD τ) (Pipeline.ucRefs τ sig) (B7 m c) ∗ Rst c)
  post c := iprop(StableHlo.held (c : Thread nD τ) (Pipeline.ucRefs τ sig) (B8 m c) ∗ Rst c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) admC (pd m) launch3.win launch3.arr_whole c
      ((pd m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 3 c).Φ 0 = Pipeline.ΦA spec3 c from rfl]; unfold Pipeline.ΦA
    iintro ⟨Hp, -, Hr⟩
    isplitl [Hr]; · iexact Hr
    iexact Hp
  hout c := by
    rw [Pipeline.ownSems0_none, show (pd m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admC (Ix := Unit) (Name := ℕ) (U := UR sig nD τ) (Lvl := ℕ)
      launch3.win launch3.arr_whole c (pd m) ((pd m 3 c).share_full fun _ => rfl)
      (E7 m c) (X8 m c) ((pd m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with this pipeline's takes unfolding plain
-- definitions in a metavariable's type
set_option backward.isDefEq.respectTransparency.types false in
/-- Region 4 over the thread state: entered with every unscoped buffer at `B9`, left with them at `B10`. Its four
    arrays are split out of the unscoped buffers at entry and put back at exit; the generator register goes into the
    pipeline's invariant and comes back; nothing is owed; the kernel has no semaphore of its own. -/
def reg4 : Pipeline.RegionSeg (pcfgs (F := F)) admC (pd m) () defs₀ 𝒱C LC lvC 4 where
  win := launch4.win.to₀
  block_pos := launch4.block_pos
  stage_whole := launch4.stage_whole
  K := PEmpty
  osem k := k.elim
  ho := Pipeline.OwnSemFacts.none _
  hbody c := (body_obligation4 (E9 m) c).loose
  hwaits := Pipeline.hwaits_of_owed_zero _ _ _ _ LC lvC 4 fun _ _ => rfl
  pre c := iprop(StableHlo.held (c : Thread nD τ) (Pipeline.ucRefs τ sig) (B9 m c) ∗ Rst c)
  post c := iprop(StableHlo.held (c : Thread nD τ) (Pipeline.ucRefs τ sig) (B10 m c) ∗ Rst c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) admC (pd m) launch4.win launch4.arr_whole c
      ((pd m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 4 c).Φ 0 = Pipeline.ΦA spec4 c from rfl]; unfold Pipeline.ΦA
    iintro ⟨Hp, -, Hr⟩
    isplitl [Hr]; · iexact Hr
    iexact Hp
  hout c := by
    rw [Pipeline.ownSems0_none, show (pd m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admC (Ix := Unit) (Name := ℕ) (U := UR sig nD τ) (Lvl := ℕ)
      launch4.win launch4.arr_whole c (pd m) ((pd m 4 c).share_full fun _ => rfl)
      (E9 m c) (X10 m c) ((pd m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with this pipeline's takes unfolding plain
-- definitions in a metavariable's type
set_option backward.isDefEq.respectTransparency.types false in
/-- Region 5 over the thread state: entered with every unscoped buffer at `B11`, left with them at `B12`. Its four
    arrays are split out of the unscoped buffers at entry and put back at exit; the generator register goes into the
    pipeline's invariant and comes back; nothing is owed; the kernel has no semaphore of its own. -/
def reg5 : Pipeline.RegionSeg (pcfgs (F := F)) admC (pd m) () defs₀ 𝒱C LC lvC 5 where
  win := launch5.win.to₀
  block_pos := launch5.block_pos
  stage_whole := launch5.stage_whole
  K := PEmpty
  osem k := k.elim
  ho := Pipeline.OwnSemFacts.none _
  hbody c := (body_obligation5 (E11 m) c).loose
  hwaits := Pipeline.hwaits_of_owed_zero _ _ _ _ LC lvC 5 fun _ _ => rfl
  pre c := iprop(StableHlo.held (c : Thread nD τ) (Pipeline.ucRefs τ sig) (B11 m c) ∗ Rst c)
  post c := iprop(StableHlo.held (c : Thread nD τ) (Pipeline.ucRefs τ sig) (B12 m c) ∗ Rst c)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hsplit := Pipeline.arrays_of_unscopedBufs (p := 5) (pcfgs (F := F)) admC (pd m) launch5.win launch5.arr_whole c
      ((pd m 5 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 5 c).Φ 0 = Pipeline.ΦA spec5 c from rfl]; unfold Pipeline.ΦA
    iintro ⟨Hp, -, Hr⟩
    isplitl [Hr]; · iexact Hr
    iexact Hp
  hout c := by
    rw [Pipeline.ownSems0_none, show (pd m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admC (Ix := Unit) (Name := ℕ) (U := UR sig nD τ) (Lvl := ℕ)
      launch5.win launch5.arr_whole c (pd m) ((pd m 5 c).share_full fun _ => rfl)
      (E11 m c) (X12 m c) ((pd m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segsC : List (Pipeline.Seg (pcfgs (F := F)) admC (pd m) () defs₀ 𝒱C LC lvC) :=
  [ .host (hostSeg hostOps0 hostOps0_sub hostOps0_fresh (B0 m)),
    .region (reg0 m),
    .host (hostSeg hostOps1 hostOps1_sub hostOps1_fresh (B2 m)),
    .region (reg1 m),
    .host (hostSeg hostOps2 hostOps2_sub hostOps2_fresh (B4 m)),
    .region (reg2 m),
    .host (hostSeg hostOps3 hostOps3_sub hostOps3_fresh (B6 m)),
    .region (reg3 m),
    .host (hostSeg hostOps4 hostOps4_sub hostOps4_fresh (B8 m)),
    .region (reg4 m),
    .host (hostSeg hostOps5 hostOps5_sub hostOps5_fresh (B10 m)),
    .region (reg5 m),
    .host (hostSeg hostOps6 hostOps6_sub hostOps6_fresh (B12 m)) ]

theorem main_run (c : Dev nD) : main (F := F) c = Pipeline.Seg.run (segsC m) := (main_chain c).trans (by chain_rfl)

set_option backward.isDefEq.respectTransparency.types false in
/-- THE RUN: from any memory with zero counters every weakly fair execution of the program on the TensorCores
    terminates, nothing faulting, and in the final memory every unscoped buffer holds `B13`'s value for it. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B13 m c b) :=
  Pipeline.θ_run_regions_kit (pcfgs (F := F)) admC (pd m) () cellOf_inj emb₁ defs₀ 𝒱C LC lvC m ρ main (segsC m)
    (fun c Q => by rw [main_run m c])
    (by simp only [segsC, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rst c)) (Tₙ := Tend m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (B13 m c) ∗ Rst c)
          ⊢ iprop(Tend m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LC lvC fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B13 m c b)
    (hfin := fun c s' => by
      iintro ⟨⟨Hh, -⟩, HSI⟩
      unfold StableHlo.held
      imodintro
      iapply (pointsTo_read_all (Pipeline.ucRefs τ sig) (fun b => (((c : Thread nD τ)).1, b)) (B13 m c) s')
      isplitl [Hh] <;> iassumption)
    (hQ := fun s h => h)

/-- The frame: every argument array ends as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (B13_main_arg0 m c),
     (h c _ (mem_uc main_arg1 (by decide))).trans (B13_main_arg1 m c),
     (h c _ (mem_uc main_arg2 (by decide))).trans (B13_main_arg2 m c),
     (h c _ (mem_uc main_arg3 (by decide))).trans (B13_main_arg3 m c),
     (h c _ (mem_uc main_arg4 (by decide))).trans (B13_main_arg4 m c),
     (h c _ (mem_uc main_arg5 (by decide))).trans (B13_main_arg5 m c),
     (h c _ (mem_uc main_arg6 (by decide))).trans (B13_main_arg6 m c),
     (h c _ (mem_uc main_arg7 (by decide))).trans (B13_main_arg7 m c),
     (h c _ (mem_uc main_arg8 (by decide))).trans (B13_main_arg8 m c),
     (h c _ (mem_uc main_arg9 (by decide))).trans (B13_main_arg9 m c),
     (h c _ (mem_uc main_arg10 (by decide))).trans (B13_main_arg10 m c),
     (h c _ (mem_uc main_arg11 (by decide))).trans (B13_main_arg11 m c),
     (h c _ (mem_uc main_arg12 (by decide))).trans (B13_main_arg12 m c),
     (h c _ (mem_uc main_arg13 (by decide))).trans (B13_main_arg13 m c),
     (h c _ (mem_uc main_arg14 (by decide))).trans (B13_main_arg14 m c)⟩) (run_all m ρ)

end Cert.Kernel.Conv

end
-- ==== Proof.Ideal.Body0.lean ====
/-
  Grid region 0: one block of 2000 rows of a node-feature matrix, each scaled by its own degree factor and multiplied into the 128×128 weight.
  At a grid point the body reads three input blocks whole — the 2000×128 block of rows, the 2000×1 column of
  factors, and the 128×128 weight (the same block at every point) — and overwrites the 2000×128 output block
  whole with one pure function of them (the payload). The output block's earlier contents are read but never used.
  Stated here for an arbitrary valuation `V` of the buffers at the region's entry: what each window's block is,
  what the body leaves in the output block, and that the body run from those blocks ends with exactly that.
-/
import proofs.«111035_j79285096284406_1_alg».proof.Proof.Gen.KernelIdeal.Launch
import proofs.«111035_j79285096284406_1_alg».proof.Proof.Gen.KernelIdeal.Skeleton
import proofs.«111035_j79285096284406_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's array, as the region finds it, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or not: a point
    that does not fetch has the block index of the point before, and the body leaves input blocks in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or not: a point
    that does not fetch has the block index of the point before, and the body leaves input blocks in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or not: a point
    that does not fetch has the block index of the point before, and the body leaves input blocks in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 2000×128 block, the whole 2000×1 column and the whole 128×128 weight, as rectangles. -/
abbrev rRows0 : Rect S2000x128 := Rect.unit (s := S2000x128) ![0, 0] S2000x128.size inb_S2000x128_S2000x128_0_0
abbrev rCol0 : Rect S2000x1 := Rect.unit (s := S2000x1) ![0, 0] S2000x1.size inb_S2000x1_S2000x1_0_0
abbrev rPar0 : Rect S128x128 := Rect.unit (s := S128x128) ![0, 0] S128x128.size inb_S128x128_S128x128_0_0

/-- What the body leaves in the output block, from the three input blocks: its one store, of the payload. -/
def out0_3 (x0 : Vec F S2000x128 .f32) (x1 : Vec F S2000x1 .f32) (x2 : Vec F S128x128 .f32) : Vec F S2000x128 .f32 :=
  View.canon [⟨rRows0, k0_pay1 (View.ld x0 rRows0) (View.ld x1 rCol0) (View.ld x2 rPar0)⟩]

/-- The one store covers the output block. -/
theorem cover0_3 (p0 : Vec F S2000x128 .f32) (y : S2000x128.Idx) :
    ∃ pc ∈ ([⟨rRows0, p0⟩] : List (View.Piece (Elt F) S2000x128 .f32)), y ∈ pc.1.set :=
  View.cover_of_tiled [⟨rRows0, p0⟩] S2000x128.size (by rfl) y

set_option maxHeartbeats 1000000 in
/-- The body on whole staging buffers — the inputs' holding `x0`, `x1`, `x2`, the output's holding anything — runs to
    its return with the inputs' as they were and the output's at `out0_3 x0 x1 x2`. -/
theorem sound_kernel0 (c : Dev nD) (E : Set ℕ) (i : grid0.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S2000x128 .f32) (harg4 : arg4.IsWhole)
    (x0 : Vec F S2000x128 .f32) (x1 : Vec F S2000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__pre_kernel i arg1 harg1 arg2 harg2 arg3 harg3 arg4 harg4) K := by
  simp only [cc0__pre_kernel_eq_skeleton]; unfold cc0__pre_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's bookkeeping on core `c`: the windows' arrays as the region finds them; after the body at point `t`
    each input's buffer at its block and the output's at `out0_3` of the three input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and the
    core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Conv

end
-- ==== Proof.Ideal.Body1.lean ====
/-
  Grid region 1: one block of 2000 rows of an aggregated matrix, each scaled by its own degree factor, shifted by the bias row, then passed through the leaky rectifier (slope 1/100 below zero).
  At a grid point the body reads three input blocks whole — the 2000×128 block of rows, the 2000×1 column of
  factors, and the 1×128 bias row (the same block at every point) — and overwrites the 2000×128 output block
  whole with one pure function of them (the payload). The output block's earlier contents are read but never used.
  Stated here for an arbitrary valuation `V` of the buffers at the region's entry: what each window's block is,
  what the body leaves in the output block, and that the body run from those blocks ends with exactly that.
-/
import proofs.«111035_j79285096284406_1_alg».proof.Proof.Gen.KernelIdeal.Launch
import proofs.«111035_j79285096284406_1_alg».proof.Proof.Gen.KernelIdeal.Skeleton
import proofs.«111035_j79285096284406_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's array, as the region finds it, read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or not: a point
    that does not fetch has the block index of the point before, and the body leaves input blocks in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or not: a point
    that does not fetch has the block index of the point before, and the body leaves input blocks in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or not: a point
    that does not fetch has the block index of the point before, and the body leaves input blocks in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 2000×128 block, the whole 2000×1 column and the whole 1×128 row, as rectangles. -/
abbrev rRows1 : Rect S2000x128 := Rect.unit (s := S2000x128) ![0, 0] S2000x128.size inb_S2000x128_S2000x128_0_0
abbrev rCol1 : Rect S2000x1 := Rect.unit (s := S2000x1) ![0, 0] S2000x1.size inb_S2000x1_S2000x1_0_0
abbrev rPar1 : Rect S1x128 := Rect.unit (s := S1x128) ![0, 0] S1x128.size inb_S1x128_S1x128_0_0

/-- What the body leaves in the output block, from the three input blocks: its one store, of the payload. -/
def out1_3 (x0 : Vec F S2000x128 .f32) (x1 : Vec F S2000x1 .f32) (x2 : Vec F S1x128 .f32) : Vec F S2000x128 .f32 :=
  View.canon [⟨rRows1, k1_pay1 (View.ld x0 rRows1) (View.ld x1 rCol1) (View.ld x2 rPar1)⟩]

/-- The one store covers the output block. -/
theorem cover1_3 (p0 : Vec F S2000x128 .f32) (y : S2000x128.Idx) :
    ∃ pc ∈ ([⟨rRows1, p0⟩] : List (View.Piece (Elt F) S2000x128 .f32)), y ∈ pc.1.set :=
  View.cover_of_tiled [⟨rRows1, p0⟩] S2000x128.size (by rfl) y

set_option maxHeartbeats 1000000 in
/-- The body on whole staging buffers — the inputs' holding `x0`, `x1`, `x2`, the output's holding anything — runs to
    its return with the inputs' as they were and the output's at `out1_3 x0 x1 x2`. -/
theorem sound_kernel1 (c : Dev nD) (E : Set ℕ) (i : grid1.Coords)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S2000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__post_kernel i arg1 harg1 arg2 harg2 arg3 harg3 arg4 harg4) K := by
  simp only [cc1__post_kernel_eq_skeleton]; unfold cc1__post_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's bookkeeping on core `c`: the windows' arrays as the region finds them; after the body at point `t`
    each input's buffer at its block and the output's at `out1_3` of the three input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is handed at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and the
    core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Conv

end
-- ==== Proof.Ideal.Body2.lean ====
/-
  Grid region 2: one block of 2000 rows of a node-feature matrix, each scaled by its own degree factor and multiplied into the 128×128 weight.
  At a grid point the body reads three input blocks whole — the 2000×128 block of rows, the 2000×1 column of
  factors, and the 128×128 weight (the same block at every point) — and overwrites the 2000×128 output block
  whole with one pure function of them (the payload). The output block's earlier contents are read but never used.
  Stated here for an arbitrary valuation `V` of the buffers at the region's entry: what each window's block is,
  what the body leaves in the output block, and that the body run from those blocks ends with exactly that.
-/
import proofs.«111035_j79285096284406_1_alg».proof.Proof.Gen.KernelIdeal.Launch
import proofs.«111035_j79285096284406_1_alg».proof.Proof.Gen.KernelIdeal.Skeleton
import proofs.«111035_j79285096284406_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's array, as the region finds it, read through the block's view. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the point fetched it or not: a point
    that does not fetch has the block index of the point before, and the body leaves input blocks in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the point fetched it or not: a point
    that does not fetch has the block index of the point before, and the body leaves input blocks in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the point fetched it or not: a point
    that does not fetch has the block index of the point before, and the body leaves input blocks in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole 2000×128 block, the whole 2000×1 column and the whole 128×128 weight, as rectangles. -/
abbrev rRows2 : Rect S2000x128 := Rect.unit (s := S2000x128) ![0, 0] S2000x128.size inb_S2000x128_S2000x128_0_0
abbrev rCol2 : Rect S2000x1 := Rect.unit (s := S2000x1) ![0, 0] S2000x1.size inb_S2000x1_S2000x1_0_0
abbrev rPar2 : Rect S128x128 := Rect.unit (s := S128x128) ![0, 0] S128x128.size inb_S128x128_S128x128_0_0

/-- What the body leaves in the output block, from the three input blocks: its one store, of the payload. -/
def out2_3 (x0 : Vec F S2000x128 .f32) (x1 : Vec F S2000x1 .f32) (x2 : Vec F S128x128 .f32) : Vec F S2000x128 .f32 :=
  View.canon [⟨rRows2, k2_pay1 (View.ld x0 rRows2) (View.ld x1 rCol2) (View.ld x2 rPar2)⟩]

/-- The one store covers the output block. -/
theorem cover2_3 (p0 : Vec F S2000x128 .f32) (y : S2000x128.Idx) :
    ∃ pc ∈ ([⟨rRows2, p0⟩] : List (View.Piece (Elt F) S2000x128 .f32)), y ∈ pc.1.set :=
  View.cover_of_tiled [⟨rRows2, p0⟩] S2000x128.size (by rfl) y

set_option maxHeartbeats 1000000 in
/-- The body on whole staging buffers — the inputs' holding `x0`, `x1`, `x2`, the output's holding anything — runs to
    its return with the inputs' as they were and the output's at `out2_3 x0 x1 x2`. -/
theorem sound_kernel2 (c : Dev nD) (E : Set ℕ) (i : grid2.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S2000x128 .f32) (harg4 : arg4.IsWhole)
    (x0 : Vec F S2000x128 .f32) (x1 : Vec F S2000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__pre_kernel i arg1 harg1 arg2 harg2 arg3 harg3 arg4 harg4) K := by
  simp only [cc2__pre_kernel_eq_skeleton]; unfold cc2__pre_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's bookkeeping on core `c`: the windows' arrays as the region finds them; after the body at point `t`
    each input's buffer at its block and the output's at `out2_3` of the three input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies; the invariant and the
    core's dues pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Conv

end
-- ==== Proof.Ideal.Body3.lean ====
/-
  Grid region 3: one block of 2000 rows of an aggregated matrix, each scaled by its own degree factor, shifted by the bias row, then passed through the leaky rectifier (slope 1/100 below zero).
  At a grid point the body reads three input blocks whole — the 2000×128 block of rows, the 2000×1 column of
  factors, and the 1×128 bias row (the same block at every point) — and overwrites the 2000×128 output block
  whole with one pure function of them (the payload). The output block's earlier contents are read but never used.
  Stated here for an arbitrary valuation `V` of the buffers at the region's entry: what each window's block is,
  what the body leaves in the output block, and that the body run from those blocks ends with exactly that.
-/
import proofs.«111035_j79285096284406_1_alg».proof.Proof.Gen.KernelIdeal.Launch
import proofs.«111035_j79285096284406_1_alg».proof.Proof.Gen.KernelIdeal.Skeleton
import proofs.«111035_j79285096284406_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's array, as the region finds it, read through the block's view. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the point fetched it or not: a point
    that does not fetch has the block index of the point before, and the body leaves input blocks in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the point fetched it or not: a point
    that does not fetch has the block index of the point before, and the body leaves input blocks in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the point fetched it or not: a point
    that does not fetch has the block index of the point before, and the body leaves input blocks in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole 2000×128 block, the whole 2000×1 column and the whole 1×128 row, as rectangles. -/
abbrev rRows3 : Rect S2000x128 := Rect.unit (s := S2000x128) ![0, 0] S2000x128.size inb_S2000x128_S2000x128_0_0
abbrev rCol3 : Rect S2000x1 := Rect.unit (s := S2000x1) ![0, 0] S2000x1.size inb_S2000x1_S2000x1_0_0
abbrev rPar3 : Rect S1x128 := Rect.unit (s := S1x128) ![0, 0] S1x128.size inb_S1x128_S1x128_0_0

/-- What the body leaves in the output block, from the three input blocks: its one store, of the payload. -/
def out3_3 (x0 : Vec F S2000x128 .f32) (x1 : Vec F S2000x1 .f32) (x2 : Vec F S1x128 .f32) : Vec F S2000x128 .f32 :=
  View.canon [⟨rRows3, k3_pay1 (View.ld x0 rRows3) (View.ld x1 rCol3) (View.ld x2 rPar3)⟩]

/-- The one store covers the output block. -/
theorem cover3_3 (p0 : Vec F S2000x128 .f32) (y : S2000x128.Idx) :
    ∃ pc ∈ ([⟨rRows3, p0⟩] : List (View.Piece (Elt F) S2000x128 .f32)), y ∈ pc.1.set :=
  View.cover_of_tiled [⟨rRows3, p0⟩] S2000x128.size (by rfl) y

set_option maxHeartbeats 1000000 in
/-- The body on whole staging buffers — the inputs' holding `x0`, `x1`, `x2`, the output's holding anything — runs to
    its return with the inputs' as they were and the output's at `out3_3 x0 x1 x2`. -/
theorem sound_kernel3 (c : Dev nD) (E : Set ℕ) (i : grid3.Coords)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S2000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__post_kernel i arg1 harg1 arg2 harg2 arg3 harg3 arg4 harg4) K := by
  simp only [cc3__post_kernel_eq_skeleton]; unfold cc3__post_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The region's bookkeeping on core `c`: the windows' arrays as the region finds them; after the body at point `t`
    each input's buffer at its block and the output's at `out3_3` of the three input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is handed at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so `sound_kernel3` applies; the invariant and the
    core's dues pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Conv

end
-- ==== Proof.Ideal.Body4.lean ====
/-
  Grid region 4: one block of 2000 rows of a node-feature matrix, each scaled by its own degree factor and multiplied into the 128×128 weight.
  At a grid point the body reads three input blocks whole — the 2000×128 block of rows, the 2000×1 column of
  factors, and the 128×128 weight (the same block at every point) — and overwrites the 2000×128 output block
  whole with one pure function of them (the payload). The output block's earlier contents are read but never used.
  Stated here for an arbitrary valuation `V` of the buffers at the region's entry: what each window's block is,
  what the body leaves in the output block, and that the body run from those blocks ends with exactly that.
-/
import proofs.«111035_j79285096284406_1_alg».proof.Proof.Gen.KernelIdeal.Launch
import proofs.«111035_j79285096284406_1_alg».proof.Proof.Gen.KernelIdeal.Skeleton
import proofs.«111035_j79285096284406_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's array, as the region finds it, read through the block's view. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, whether the point fetched it or not: a point
    that does not fetch has the block index of the point before, and the body leaves input blocks in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the point fetched it or not: a point
    that does not fetch has the block index of the point before, and the body leaves input blocks in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the point fetched it or not: a point
    that does not fetch has the block index of the point before, and the body leaves input blocks in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole 2000×128 block, the whole 2000×1 column and the whole 128×128 weight, as rectangles. -/
abbrev rRows4 : Rect S2000x128 := Rect.unit (s := S2000x128) ![0, 0] S2000x128.size inb_S2000x128_S2000x128_0_0
abbrev rCol4 : Rect S2000x1 := Rect.unit (s := S2000x1) ![0, 0] S2000x1.size inb_S2000x1_S2000x1_0_0
abbrev rPar4 : Rect S128x128 := Rect.unit (s := S128x128) ![0, 0] S128x128.size inb_S128x128_S128x128_0_0

/-- What the body leaves in the output block, from the three input blocks: its one store, of the payload. -/
def out4_3 (x0 : Vec F S2000x128 .f32) (x1 : Vec F S2000x1 .f32) (x2 : Vec F S128x128 .f32) : Vec F S2000x128 .f32 :=
  View.canon [⟨rRows4, k4_pay1 (View.ld x0 rRows4) (View.ld x1 rCol4) (View.ld x2 rPar4)⟩]

/-- The one store covers the output block. -/
theorem cover4_3 (p0 : Vec F S2000x128 .f32) (y : S2000x128.Idx) :
    ∃ pc ∈ ([⟨rRows4, p0⟩] : List (View.Piece (Elt F) S2000x128 .f32)), y ∈ pc.1.set :=
  View.cover_of_tiled [⟨rRows4, p0⟩] S2000x128.size (by rfl) y

set_option maxHeartbeats 1000000 in
/-- The body on whole staging buffers — the inputs' holding `x0`, `x1`, `x2`, the output's holding anything — runs to
    its return with the inputs' as they were and the output's at `out4_3 x0 x1 x2`. -/
theorem sound_kernel4 (c : Dev nD) (E : Set ℕ) (i : grid4.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S2000x128 .f32) (harg4 : arg4.IsWhole)
    (x0 : Vec F S2000x128 .f32) (x1 : Vec F S2000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__pre_kernel i arg1 harg1 arg2 harg2 arg3 harg3 arg4 harg4) K := by
  simp only [cc4__pre_kernel_eq_skeleton]; unfold cc4__pre_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The region's bookkeeping on core `c`: the windows' arrays as the region finds them; after the body at point `t`
    each input's buffer at its block and the output's at `out4_3` of the three input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is handed at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it hands back. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so `sound_kernel4` applies; the invariant and the
    core's dues pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Conv

end
-- ==== Proof.Ideal.Body5.lean ====
/-
  Grid region 5: one block of 2000 rows of an aggregated matrix, each scaled by its own degree factor, shifted by the bias row, then passed through the leaky rectifier (slope 1/100 below zero).
  At a grid point the body reads three input blocks whole — the 2000×128 block of rows, the 2000×1 column of
  factors, and the 1×128 bias row (the same block at every point) — and overwrites the 2000×128 output block
  whole with one pure function of them (the payload). The output block's earlier contents are read but never used.
  Stated here for an arbitrary valuation `V` of the buffers at the region's entry: what each window's block is,
  what the body leaves in the output block, and that the body run from those blocks ends with exactly that.
-/
import proofs.«111035_j79285096284406_1_alg».proof.Proof.Gen.KernelIdeal.Launch
import proofs.«111035_j79285096284406_1_alg».proof.Proof.Gen.KernelIdeal.Skeleton
import proofs.«111035_j79285096284406_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's array, as the region finds it, read through the block's view. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, whether the point fetched it or not: a point
    that does not fetch has the block index of the point before, and the body leaves input blocks in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds its block at every point, whether the point fetched it or not: a point
    that does not fetch has the block index of the point before, and the body leaves input blocks in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds its block at every point, whether the point fetched it or not: a point
    that does not fetch has the block index of the point before, and the body leaves input blocks in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole 2000×128 block, the whole 2000×1 column and the whole 1×128 row, as rectangles. -/
abbrev rRows5 : Rect S2000x128 := Rect.unit (s := S2000x128) ![0, 0] S2000x128.size inb_S2000x128_S2000x128_0_0
abbrev rCol5 : Rect S2000x1 := Rect.unit (s := S2000x1) ![0, 0] S2000x1.size inb_S2000x1_S2000x1_0_0
abbrev rPar5 : Rect S1x128 := Rect.unit (s := S1x128) ![0, 0] S1x128.size inb_S1x128_S1x128_0_0

/-- What the body leaves in the output block, from the three input blocks: its one store, of the payload. -/
def out5_3 (x0 : Vec F S2000x128 .f32) (x1 : Vec F S2000x1 .f32) (x2 : Vec F S1x128 .f32) : Vec F S2000x128 .f32 :=
  View.canon [⟨rRows5, k5_pay1 (View.ld x0 rRows5) (View.ld x1 rCol5) (View.ld x2 rPar5)⟩]

/-- The one store covers the output block. -/
theorem cover5_3 (p0 : Vec F S2000x128 .f32) (y : S2000x128.Idx) :
    ∃ pc ∈ ([⟨rRows5, p0⟩] : List (View.Piece (Elt F) S2000x128 .f32)), y ∈ pc.1.set :=
  View.cover_of_tiled [⟨rRows5, p0⟩] S2000x128.size (by rfl) y

set_option maxHeartbeats 1000000 in
/-- The body on whole staging buffers — the inputs' holding `x0`, `x1`, `x2`, the output's holding anything — runs to
    its return with the inputs' as they were and the output's at `out5_3 x0 x1 x2`. -/
theorem sound_kernel5 (c : Dev nD) (E : Set ℕ) (i : grid5.Coords)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S2000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__post_kernel i arg1 harg1 arg2 harg2 arg3 harg3 arg4 harg4) K := by
  simp only [cc5__post_kernel_eq_skeleton]; unfold cc5__post_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The region's bookkeeping on core `c`: the windows' arrays as the region finds them; after the body at point `t`
    each input's buffer at its block and the output's at `out5_3` of the three input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is handed at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it hands back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so `sound_kernel5` applies; the invariant and the
    core's dues pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Conv

end
-- ==== Proof.Ideal.Run.lean ====
/-
  The whole program as thirteen segments: seven stretches of host operations (degree counts, inverse square roots,
  gathers and scatter-adds of rows, the final concatenation) alternating with the six grid regions. Between two
  segments the TensorCore's unscoped buffers hold a known valuation `B0 … B13`: a host stretch applies its operations
  to the valuation; a region replaces its output window's array by the blocks its points wrote back and touches
  nothing else. The run of the program therefore ends with every unscoped buffer at `B13` — in particular every
  argument array as launched, and the result buffer at `B13`'s value for it.
-/
import proofs.«111035_j79285096284406_1_alg».proof.Proof.Ideal.Body0
import proofs.«111035_j79285096284406_1_alg».proof.Proof.Ideal.Body1
import proofs.«111035_j79285096284406_1_alg».proof.Proof.Ideal.Body2
import proofs.«111035_j79285096284406_1_alg».proof.Proof.Ideal.Body3
import proofs.«111035_j79285096284406_1_alg».proof.Proof.Ideal.Body4
import proofs.«111035_j79285096284406_1_alg».proof.Proof.Ideal.Body5
import proofs.«111035_j79285096284406_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each segment boundary -/

/-- Core `c`'s buffers at launch. -/
abbrev B0 : Dev nD → Valuation τ sig (Elt F) := fun c b => m (c, b)

/-- After host stretch 0: the contents region 0 is entered from. -/
abbrev B1 : Dev nD → Valuation τ sig (Elt F) := fun c => StableHlo.after hostOps0 (B0 m c)
/-- The same read at the TensorCore's references. -/
abbrev E1 : (c : Dev nD) → (b : Ref sig .tc) → Buf (Elt F) ((c : Thread nD τ).loc b) := fun c b => B1 m c b
/-- After region 0: its windows' arrays at what the pipeline leaves (inputs as entered, the output with every block
    written back), every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev X2 : (c : Dev nD) → (b : Ref sig .tc) → Buf (Elt F) ((c : Thread nD τ).loc b) := fun c b => B2 m c b
theorem hF0 (c : Dev nD) (w : Fin cfg0.W) : (dat0 (E1 m) c).arrAt w cfg0.N = X2 m c (Pipeline.arrRef spec0 w) :=
  (B2_arr m c w).symm
theorem hrest0 (c : Dev nD) : ∀ b, b ∉ Finset.univ.image (Pipeline.arrRef spec0) → X2 m c b = E1 m c b :=
  fun b hb => B2_of_ne m c b fun w e => hb (Finset.mem_image.mpr ⟨w, Finset.mem_univ _, e⟩)
/-- A host stretch leaves every buffer it does not write as it was. -/
theorem B1_keep (c : Dev nD) (r : Ref sig .tc) (h : r ∉ hostOps0_W) : B1 m c (Proc.devRef .tc r) = B0 m c (Proc.devRef .tc r) :=
  StableHlo.after_of_writes_sub hostOps0 _ hostOps0_writes h
/-- A region leaves every buffer that is not one of its output windows' arrays as it was. -/
theorem B2_keep (c : Dev nD) (r : Ref sig .tc) (h : ∀ w : Fin cfg0.W, Pipeline.arrRef spec0 w = r → (cfg0.win w).isOut = false) :
    B2 m c (Proc.devRef .tc r) = B1 m c (Proc.devRef .tc r) := by
  by_cases hw : ∃ w, Pipeline.arrRef spec0 w = r
  · obtain ⟨w, rfl⟩ := hw
    rw [B2_arr]
    exact ((dat0 (E1 m) c).arrAt_in w (h w rfl) _).trans (A_eq0 (E1 m) c w)
  · exact B2_of_ne m c r fun w e => hw ⟨w, e⟩

/-- After host stretch 1: the contents region 1 is entered from. -/
abbrev B3 : Dev nD → Valuation τ sig (Elt F) := fun c => StableHlo.after hostOps1 (B2 m c)
/-- The same read at the TensorCore's references. -/
abbrev E3 : (c : Dev nD) → (b : Ref sig .tc) → Buf (Elt F) ((c : Thread nD τ).loc b) := fun c b => B3 m c b
/-- After region 1: its windows' arrays at what the pipeline leaves (inputs as entered, the output with every block
    written back), every other buffer as entered. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev X4 : (c : Dev nD) → (b : Ref sig .tc) → Buf (Elt F) ((c : Thread nD τ).loc b) := fun c b => B4 m c b
theorem hF1 (c : Dev nD) (w : Fin cfg1.W) : (dat1 (E3 m) c).arrAt w cfg1.N = X4 m c (Pipeline.arrRef spec1 w) :=
  (B4_arr m c w).symm
theorem hrest1 (c : Dev nD) : ∀ b, b ∉ Finset.univ.image (Pipeline.arrRef spec1) → X4 m c b = E3 m c b :=
  fun b hb => B4_of_ne m c b fun w e => hb (Finset.mem_image.mpr ⟨w, Finset.mem_univ _, e⟩)
/-- A host stretch leaves every buffer it does not write as it was. -/
theorem B3_keep (c : Dev nD) (r : Ref sig .tc) (h : r ∉ hostOps1_W) : B3 m c (Proc.devRef .tc r) = B2 m c (Proc.devRef .tc r) :=
  StableHlo.after_of_writes_sub hostOps1 _ hostOps1_writes h
/-- A region leaves every buffer that is not one of its output windows' arrays as it was. -/
theorem B4_keep (c : Dev nD) (r : Ref sig .tc) (h : ∀ w : Fin cfg1.W, Pipeline.arrRef spec1 w = r → (cfg1.win w).isOut = false) :
    B4 m c (Proc.devRef .tc r) = B3 m c (Proc.devRef .tc r) := by
  by_cases hw : ∃ w, Pipeline.arrRef spec1 w = r
  · obtain ⟨w, rfl⟩ := hw
    rw [B4_arr]
    exact ((dat1 (E3 m) c).arrAt_in w (h w rfl) _).trans (A_eq1 (E3 m) c w)
  · exact B4_of_ne m c r fun w e => hw ⟨w, e⟩

/-- After host stretch 2: the contents region 2 is entered from. -/
abbrev B5 : Dev nD → Valuation τ sig (Elt F) := fun c => StableHlo.after hostOps2 (B4 m c)
/-- The same read at the TensorCore's references. -/
abbrev E5 : (c : Dev nD) → (b : Ref sig .tc) → Buf (Elt F) ((c : Thread nD τ).loc b) := fun c b => B5 m c b
/-- After region 2: its windows' arrays at what the pipeline leaves (inputs as entered, the output with every block
    written back), every other buffer as entered. -/
def B6 (c : Dev nD) : Valuation τ sig (Elt F) :=
  Pipeline.withArrays spec2 c (B5 m c) fun w => (dat2 (E5 m) c).arrAt w cfg2.N
theorem B6_arr (c : Dev nD) (w : Fin cfg2.W) :
    B6 m c (Proc.devRef .tc (Pipeline.arrRef spec2 w)) = (dat2 (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev X6 : (c : Dev nD) → (b : Ref sig .tc) → Buf (Elt F) ((c : Thread nD τ).loc b) := fun c b => B6 m c b
theorem hF2 (c : Dev nD) (w : Fin cfg2.W) : (dat2 (E5 m) c).arrAt w cfg2.N = X6 m c (Pipeline.arrRef spec2 w) :=
  (B6_arr m c w).symm
theorem hrest2 (c : Dev nD) : ∀ b, b ∉ Finset.univ.image (Pipeline.arrRef spec2) → X6 m c b = E5 m c b :=
  fun b hb => B6_of_ne m c b fun w e => hb (Finset.mem_image.mpr ⟨w, Finset.mem_univ _, e⟩)
/-- A host stretch leaves every buffer it does not write as it was. -/
theorem B5_keep (c : Dev nD) (r : Ref sig .tc) (h : r ∉ hostOps2_W) : B5 m c (Proc.devRef .tc r) = B4 m c (Proc.devRef .tc r) :=
  StableHlo.after_of_writes_sub hostOps2 _ hostOps2_writes h
/-- A region leaves every buffer that is not one of its output windows' arrays as it was. -/
theorem B6_keep (c : Dev nD) (r : Ref sig .tc) (h : ∀ w : Fin cfg2.W, Pipeline.arrRef spec2 w = r → (cfg2.win w).isOut = false) :
    B6 m c (Proc.devRef .tc r) = B5 m c (Proc.devRef .tc r) := by
  by_cases hw : ∃ w, Pipeline.arrRef spec2 w = r
  · obtain ⟨w, rfl⟩ := hw
    rw [B6_arr]
    exact ((dat2 (E5 m) c).arrAt_in w (h w rfl) _).trans (A_eq2 (E5 m) c w)
  · exact B6_of_ne m c r fun w e => hw ⟨w, e⟩

/-- After host stretch 3: the contents region 3 is entered from. -/
abbrev B7 : Dev nD → Valuation τ sig (Elt F) := fun c => StableHlo.after hostOps3 (B6 m c)
/-- The same read at the TensorCore's references. -/
abbrev E7 : (c : Dev nD) → (b : Ref sig .tc) → Buf (Elt F) ((c : Thread nD τ).loc b) := fun c b => B7 m c b
/-- After region 3: its windows' arrays at what the pipeline leaves (inputs as entered, the output with every block
    written back), every other buffer as entered. -/
def B8 (c : Dev nD) : Valuation τ sig (Elt F) :=
  Pipeline.withArrays spec3 c (B7 m c) fun w => (dat3 (E7 m) c).arrAt w cfg3.N
theorem B8_arr (c : Dev nD) (w : Fin cfg3.W) :
    B8 m c (Proc.devRef .tc (Pipeline.arrRef spec3 w)) = (dat3 (E7 m) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m c (Proc.devRef .tc b) = B7 m c (Proc.devRef .tc b) := by
  unfold B8; exact Pipeline.withArrays_of_ne spec3 c _ _ b hb
abbrev X8 : (c : Dev nD) → (b : Ref sig .tc) → Buf (Elt F) ((c : Thread nD τ).loc b) := fun c b => B8 m c b
theorem hF3 (c : Dev nD) (w : Fin cfg3.W) : (dat3 (E7 m) c).arrAt w cfg3.N = X8 m c (Pipeline.arrRef spec3 w) :=
  (B8_arr m c w).symm
theorem hrest3 (c : Dev nD) : ∀ b, b ∉ Finset.univ.image (Pipeline.arrRef spec3) → X8 m c b = E7 m c b :=
  fun b hb => B8_of_ne m c b fun w e => hb (Finset.mem_image.mpr ⟨w, Finset.mem_univ _, e⟩)
/-- A host stretch leaves every buffer it does not write as it was. -/
theorem B7_keep (c : Dev nD) (r : Ref sig .tc) (h : r ∉ hostOps3_W) : B7 m c (Proc.devRef .tc r) = B6 m c (Proc.devRef .tc r) :=
  StableHlo.after_of_writes_sub hostOps3 _ hostOps3_writes h
/-- A region leaves every buffer that is not one of its output windows' arrays as it was. -/
theorem B8_keep (c : Dev nD) (r : Ref sig .tc) (h : ∀ w : Fin cfg3.W, Pipeline.arrRef spec3 w = r → (cfg3.win w).isOut = false) :
    B8 m c (Proc.devRef .tc r) = B7 m c (Proc.devRef .tc r) := by
  by_cases hw : ∃ w, Pipeline.arrRef spec3 w = r
  · obtain ⟨w, rfl⟩ := hw
    rw [B8_arr]
    exact ((dat3 (E7 m) c).arrAt_in w (h w rfl) _).trans (A_eq3 (E7 m) c w)
  · exact B8_of_ne m c r fun w e => hw ⟨w, e⟩

/-- After host stretch 4: the contents region 4 is entered from. -/
abbrev B9 : Dev nD → Valuation τ sig (Elt F) := fun c => StableHlo.after hostOps4 (B8 m c)
/-- The same read at the TensorCore's references. -/
abbrev E9 : (c : Dev nD) → (b : Ref sig .tc) → Buf (Elt F) ((c : Thread nD τ).loc b) := fun c b => B9 m c b
/-- After region 4: its windows' arrays at what the pipeline leaves (inputs as entered, the output with every block
    written back), every other buffer as entered. -/
def B10 (c : Dev nD) : Valuation τ sig (Elt F) :=
  Pipeline.withArrays spec4 c (B9 m c) fun w => (dat4 (E9 m) c).arrAt w cfg4.N
theorem B10_arr (c : Dev nD) (w : Fin cfg4.W) :
    B10 m c (Proc.devRef .tc (Pipeline.arrRef spec4 w)) = (dat4 (E9 m) c).arrAt w cfg4.N := by
  unfold B10; exact Pipeline.withArrays_arr spec4 launch4.win.arr_inj c _ _ w
theorem B10_of_ne (c : Dev nD) (b : Ref sig .tc) (hb : ∀ w, Pipeline.arrRef spec4 w ≠ b) :
    B10 m c (Proc.devRef .tc b) = B9 m c (Proc.devRef .tc b) := by
  unfold B10; exact Pipeline.withArrays_of_ne spec4 c _ _ b hb
abbrev X10 : (c : Dev nD) → (b : Ref sig .tc) → Buf (Elt F) ((c : Thread nD τ).loc b) := fun c b => B10 m c b
theorem hF4 (c : Dev nD) (w : Fin cfg4.W) : (dat4 (E9 m) c).arrAt w cfg4.N = X10 m c (Pipeline.arrRef spec4 w) :=
  (B10_arr m c w).symm
theorem hrest4 (c : Dev nD) : ∀ b, b ∉ Finset.univ.image (Pipeline.arrRef spec4) → X10 m c b = E9 m c b :=
  fun b hb => B10_of_ne m c b fun w e => hb (Finset.mem_image.mpr ⟨w, Finset.mem_univ _, e⟩)
/-- A host stretch leaves every buffer it does not write as it was. -/
theorem B9_keep (c : Dev nD) (r : Ref sig .tc) (h : r ∉ hostOps4_W) : B9 m c (Proc.devRef .tc r) = B8 m c (Proc.devRef .tc r) :=
  StableHlo.after_of_writes_sub hostOps4 _ hostOps4_writes h
/-- A region leaves every buffer that is not one of its output windows' arrays as it was. -/
theorem B10_keep (c : Dev nD) (r : Ref sig .tc) (h : ∀ w : Fin cfg4.W, Pipeline.arrRef spec4 w = r → (cfg4.win w).isOut = false) :
    B10 m c (Proc.devRef .tc r) = B9 m c (Proc.devRef .tc r) := by
  by_cases hw : ∃ w, Pipeline.arrRef spec4 w = r
  · obtain ⟨w, rfl⟩ := hw
    rw [B10_arr]
    exact ((dat4 (E9 m) c).arrAt_in w (h w rfl) _).trans (A_eq4 (E9 m) c w)
  · exact B10_of_ne m c r fun w e => hw ⟨w, e⟩

/-- After host stretch 5: the contents region 5 is entered from. -/
abbrev B11 : Dev nD → Valuation τ sig (Elt F) := fun c => StableHlo.after hostOps5 (B10 m c)
/-- The same read at the TensorCore's references. -/
abbrev E11 : (c : Dev nD) → (b : Ref sig .tc) → Buf (Elt F) ((c : Thread nD τ).loc b) := fun c b => B11 m c b
/-- After region 5: its windows' arrays at what the pipeline leaves (inputs as entered, the output with every block
    written back), every other buffer as entered. -/
def B12 (c : Dev nD) : Valuation τ sig (Elt F) :=
  Pipeline.withArrays spec5 c (B11 m c) fun w => (dat5 (E11 m) c).arrAt w cfg5.N
theorem B12_arr (c : Dev nD) (w : Fin cfg5.W) :
    B12 m c (Proc.devRef .tc (Pipeline.arrRef spec5 w)) = (dat5 (E11 m) c).arrAt w cfg5.N := by
  unfold B12; exact Pipeline.withArrays_arr spec5 launch5.win.arr_inj c _ _ w
theorem B12_of_ne (c : Dev nD) (b : Ref sig .tc) (hb : ∀ w, Pipeline.arrRef spec5 w ≠ b) :
    B12 m c (Proc.devRef .tc b) = B11 m c (Proc.devRef .tc b) := by
  unfold B12; exact Pipeline.withArrays_of_ne spec5 c _ _ b hb
abbrev X12 : (c : Dev nD) → (b : Ref sig .tc) → Buf (Elt F) ((c : Thread nD τ).loc b) := fun c b => B12 m c b
theorem hF5 (c : Dev nD) (w : Fin cfg5.W) : (dat5 (E11 m) c).arrAt w cfg5.N = X12 m c (Pipeline.arrRef spec5 w) :=
  (B12_arr m c w).symm
theorem hrest5 (c : Dev nD) : ∀ b, b ∉ Finset.univ.image (Pipeline.arrRef spec5) → X12 m c b = E11 m c b :=
  fun b hb => B12_of_ne m c b fun w e => hb (Finset.mem_image.mpr ⟨w, Finset.mem_univ _, e⟩)
/-- A host stretch leaves every buffer it does not write as it was. -/
theorem B11_keep (c : Dev nD) (r : Ref sig .tc) (h : r ∉ hostOps5_W) : B11 m c (Proc.devRef .tc r) = B10 m c (Proc.devRef .tc r) :=
  StableHlo.after_of_writes_sub hostOps5 _ hostOps5_writes h
/-- A region leaves every buffer that is not one of its output windows' arrays as it was. -/
theorem B12_keep (c : Dev nD) (r : Ref sig .tc) (h : ∀ w : Fin cfg5.W, Pipeline.arrRef spec5 w = r → (cfg5.win w).isOut = false) :
    B12 m c (Proc.devRef .tc r) = B11 m c (Proc.devRef .tc r) := by
  by_cases hw : ∃ w, Pipeline.arrRef spec5 w = r
  · obtain ⟨w, rfl⟩ := hw
    rw [B12_arr]
    exact ((dat5 (E11 m) c).arrAt_in w (h w rfl) _).trans (A_eq5 (E11 m) c w)
  · exact B12_of_ne m c r fun w e => hw ⟨w, e⟩

/-- After the last host stretch (the concatenation): the contents at the return. -/
abbrev B13 : Dev nD → Valuation τ sig (Elt F) := fun c => StableHlo.after hostOps6 (B12 m c)
theorem B13_keep (c : Dev nD) (r : Ref sig .tc) (h : r ∉ hostOps6_W) : B13 m c (Proc.devRef .tc r) = B12 m c (Proc.devRef .tc r) :=
  StableHlo.after_of_writes_sub hostOps6 _ hostOps6_writes h

/-! ## No segment writes an argument -/

theorem B13_main_arg0 (c : Dev nD) : B13 m c (Proc.devRef .tc main_arg0) = m ((c : Thread nD τ).loc main_arg0) :=
  ((B13_keep m c main_arg0 (by decide)).trans <| (B12_keep m c main_arg0 (by decide)).trans <| (B11_keep m c main_arg0 (by decide)).trans <| (B10_keep m c main_arg0 (by decide)).trans <| (B9_keep m c main_arg0 (by decide)).trans <| (B8_keep m c main_arg0 (by decide)).trans <| (B7_keep m c main_arg0 (by decide)).trans <| (B6_keep m c main_arg0 (by decide)).trans <| (B5_keep m c main_arg0 (by decide)).trans <| (B4_keep m c main_arg0 (by decide)).trans <| (B3_keep m c main_arg0 (by decide)).trans <| (B2_keep m c main_arg0 (by decide)).trans <| (B1_keep m c main_arg0 (by decide))).trans rfl
theorem B13_main_arg1 (c : Dev nD) : B13 m c (Proc.devRef .tc main_arg1) = m ((c : Thread nD τ).loc main_arg1) :=
  ((B13_keep m c main_arg1 (by decide)).trans <| (B12_keep m c main_arg1 (by decide)).trans <| (B11_keep m c main_arg1 (by decide)).trans <| (B10_keep m c main_arg1 (by decide)).trans <| (B9_keep m c main_arg1 (by decide)).trans <| (B8_keep m c main_arg1 (by decide)).trans <| (B7_keep m c main_arg1 (by decide)).trans <| (B6_keep m c main_arg1 (by decide)).trans <| (B5_keep m c main_arg1 (by decide)).trans <| (B4_keep m c main_arg1 (by decide)).trans <| (B3_keep m c main_arg1 (by decide)).trans <| (B2_keep m c main_arg1 (by decide)).trans <| (B1_keep m c main_arg1 (by decide))).trans rfl
theorem B13_main_arg2 (c : Dev nD) : B13 m c (Proc.devRef .tc main_arg2) = m ((c : Thread nD τ).loc main_arg2) :=
  ((B13_keep m c main_arg2 (by decide)).trans <| (B12_keep m c main_arg2 (by decide)).trans <| (B11_keep m c main_arg2 (by decide)).trans <| (B10_keep m c main_arg2 (by decide)).trans <| (B9_keep m c main_arg2 (by decide)).trans <| (B8_keep m c main_arg2 (by decide)).trans <| (B7_keep m c main_arg2 (by decide)).trans <| (B6_keep m c main_arg2 (by decide)).trans <| (B5_keep m c main_arg2 (by decide)).trans <| (B4_keep m c main_arg2 (by decide)).trans <| (B3_keep m c main_arg2 (by decide)).trans <| (B2_keep m c main_arg2 (by decide)).trans <| (B1_keep m c main_arg2 (by decide))).trans rfl
theorem B13_main_arg3 (c : Dev nD) : B13 m c (Proc.devRef .tc main_arg3) = m ((c : Thread nD τ).loc main_arg3) :=
  ((B13_keep m c main_arg3 (by decide)).trans <| (B12_keep m c main_arg3 (by decide)).trans <| (B11_keep m c main_arg3 (by decide)).trans <| (B10_keep m c main_arg3 (by decide)).trans <| (B9_keep m c main_arg3 (by decide)).trans <| (B8_keep m c main_arg3 (by decide)).trans <| (B7_keep m c main_arg3 (by decide)).trans <| (B6_keep m c main_arg3 (by decide)).trans <| (B5_keep m c main_arg3 (by decide)).trans <| (B4_keep m c main_arg3 (by decide)).trans <| (B3_keep m c main_arg3 (by decide)).trans <| (B2_keep m c main_arg3 (by decide)).trans <| (B1_keep m c main_arg3 (by decide))).trans rfl
theorem B13_main_arg4 (c : Dev nD) : B13 m c (Proc.devRef .tc main_arg4) = m ((c : Thread nD τ).loc main_arg4) :=
  ((B13_keep m c main_arg4 (by decide)).trans <| (B12_keep m c main_arg4 (by decide)).trans <| (B11_keep m c main_arg4 (by decide)).trans <| (B10_keep m c main_arg4 (by decide)).trans <| (B9_keep m c main_arg4 (by decide)).trans <| (B8_keep m c main_arg4 (by decide)).trans <| (B7_keep m c main_arg4 (by decide)).trans <| (B6_keep m c main_arg4 (by decide)).trans <| (B5_keep m c main_arg4 (by decide)).trans <| (B4_keep m c main_arg4 (by decide)).trans <| (B3_keep m c main_arg4 (by decide)).trans <| (B2_keep m c main_arg4 (by decide)).trans <| (B1_keep m c main_arg4 (by decide))).trans rfl
theorem B13_main_arg5 (c : Dev nD) : B13 m c (Proc.devRef .tc main_arg5) = m ((c : Thread nD τ).loc main_arg5) :=
  ((B13_keep m c main_arg5 (by decide)).trans <| (B12_keep m c main_arg5 (by decide)).trans <| (B11_keep m c main_arg5 (by decide)).trans <| (B10_keep m c main_arg5 (by decide)).trans <| (B9_keep m c main_arg5 (by decide)).trans <| (B8_keep m c main_arg5 (by decide)).trans <| (B7_keep m c main_arg5 (by decide)).trans <| (B6_keep m c main_arg5 (by decide)).trans <| (B5_keep m c main_arg5 (by decide)).trans <| (B4_keep m c main_arg5 (by decide)).trans <| (B3_keep m c main_arg5 (by decide)).trans <| (B2_keep m c main_arg5 (by decide)).trans <| (B1_keep m c main_arg5 (by decide))).trans rfl
theorem B13_main_arg6 (c : Dev nD) : B13 m c (Proc.devRef .tc main_arg6) = m ((c : Thread nD τ).loc main_arg6) :=
  ((B13_keep m c main_arg6 (by decide)).trans <| (B12_keep m c main_arg6 (by decide)).trans <| (B11_keep m c main_arg6 (by decide)).trans <| (B10_keep m c main_arg6 (by decide)).trans <| (B9_keep m c main_arg6 (by decide)).trans <| (B8_keep m c main_arg6 (by decide)).trans <| (B7_keep m c main_arg6 (by decide)).trans <| (B6_keep m c main_arg6 (by decide)).trans <| (B5_keep m c main_arg6 (by decide)).trans <| (B4_keep m c main_arg6 (by decide)).trans <| (B3_keep m c main_arg6 (by decide)).trans <| (B2_keep m c main_arg6 (by decide)).trans <| (B1_keep m c main_arg6 (by decide))).trans rfl
theorem B13_main_arg7 (c : Dev nD) : B13 m c (Proc.devRef .tc main_arg7) = m ((c : Thread nD τ).loc main_arg7) :=
  ((B13_keep m c main_arg7 (by decide)).trans <| (B12_keep m c main_arg7 (by decide)).trans <| (B11_keep m c main_arg7 (by decide)).trans <| (B10_keep m c main_arg7 (by decide)).trans <| (B9_keep m c main_arg7 (by decide)).trans <| (B8_keep m c main_arg7 (by decide)).trans <| (B7_keep m c main_arg7 (by decide)).trans <| (B6_keep m c main_arg7 (by decide)).trans <| (B5_keep m c main_arg7 (by decide)).trans <| (B4_keep m c main_arg7 (by decide)).trans <| (B3_keep m c main_arg7 (by decide)).trans <| (B2_keep m c main_arg7 (by decide)).trans <| (B1_keep m c main_arg7 (by decide))).trans rfl
theorem B13_main_arg8 (c : Dev nD) : B13 m c (Proc.devRef .tc main_arg8) = m ((c : Thread nD τ).loc main_arg8) :=
  ((B13_keep m c main_arg8 (by decide)).trans <| (B12_keep m c main_arg8 (by decide)).trans <| (B11_keep m c main_arg8 (by decide)).trans <| (B10_keep m c main_arg8 (by decide)).trans <| (B9_keep m c main_arg8 (by decide)).trans <| (B8_keep m c main_arg8 (by decide)).trans <| (B7_keep m c main_arg8 (by decide)).trans <| (B6_keep m c main_arg8 (by decide)).trans <| (B5_keep m c main_arg8 (by decide)).trans <| (B4_keep m c main_arg8 (by decide)).trans <| (B3_keep m c main_arg8 (by decide)).trans <| (B2_keep m c main_arg8 (by decide)).trans <| (B1_keep m c main_arg8 (by decide))).trans rfl
theorem B13_main_arg9 (c : Dev nD) : B13 m c (Proc.devRef .tc main_arg9) = m ((c : Thread nD τ).loc main_arg9) :=
  ((B13_keep m c main_arg9 (by decide)).trans <| (B12_keep m c main_arg9 (by decide)).trans <| (B11_keep m c main_arg9 (by decide)).trans <| (B10_keep m c main_arg9 (by decide)).trans <| (B9_keep m c main_arg9 (by decide)).trans <| (B8_keep m c main_arg9 (by decide)).trans <| (B7_keep m c main_arg9 (by decide)).trans <| (B6_keep m c main_arg9 (by decide)).trans <| (B5_keep m c main_arg9 (by decide)).trans <| (B4_keep m c main_arg9 (by decide)).trans <| (B3_keep m c main_arg9 (by decide)).trans <| (B2_keep m c main_arg9 (by decide)).trans <| (B1_keep m c main_arg9 (by decide))).trans rfl
theorem B13_main_arg10 (c : Dev nD) : B13 m c (Proc.devRef .tc main_arg10) = m ((c : Thread nD τ).loc main_arg10) :=
  ((B13_keep m c main_arg10 (by decide)).trans <| (B12_keep m c main_arg10 (by decide)).trans <| (B11_keep m c main_arg10 (by decide)).trans <| (B10_keep m c main_arg10 (by decide)).trans <| (B9_keep m c main_arg10 (by decide)).trans <| (B8_keep m c main_arg10 (by decide)).trans <| (B7_keep m c main_arg10 (by decide)).trans <| (B6_keep m c main_arg10 (by decide)).trans <| (B5_keep m c main_arg10 (by decide)).trans <| (B4_keep m c main_arg10 (by decide)).trans <| (B3_keep m c main_arg10 (by decide)).trans <| (B2_keep m c main_arg10 (by decide)).trans <| (B1_keep m c main_arg10 (by decide))).trans rfl
theorem B13_main_arg11 (c : Dev nD) : B13 m c (Proc.devRef .tc main_arg11) = m ((c : Thread nD τ).loc main_arg11) :=
  ((B13_keep m c main_arg11 (by decide)).trans <| (B12_keep m c main_arg11 (by decide)).trans <| (B11_keep m c main_arg11 (by decide)).trans <| (B10_keep m c main_arg11 (by decide)).trans <| (B9_keep m c main_arg11 (by decide)).trans <| (B8_keep m c main_arg11 (by decide)).trans <| (B7_keep m c main_arg11 (by decide)).trans <| (B6_keep m c main_arg11 (by decide)).trans <| (B5_keep m c main_arg11 (by decide)).trans <| (B4_keep m c main_arg11 (by decide)).trans <| (B3_keep m c main_arg11 (by decide)).trans <| (B2_keep m c main_arg11 (by decide)).trans <| (B1_keep m c main_arg11 (by decide))).trans rfl
theorem B13_main_arg12 (c : Dev nD) : B13 m c (Proc.devRef .tc main_arg12) = m ((c : Thread nD τ).loc main_arg12) :=
  ((B13_keep m c main_arg12 (by decide)).trans <| (B12_keep m c main_arg12 (by decide)).trans <| (B11_keep m c main_arg12 (by decide)).trans <| (B10_keep m c main_arg12 (by decide)).trans <| (B9_keep m c main_arg12 (by decide)).trans <| (B8_keep m c main_arg12 (by decide)).trans <| (B7_keep m c main_arg12 (by decide)).trans <| (B6_keep m c main_arg12 (by decide)).trans <| (B5_keep m c main_arg12 (by decide)).trans <| (B4_keep m c main_arg12 (by decide)).trans <| (B3_keep m c main_arg12 (by decide)).trans <| (B2_keep m c main_arg12 (by decide)).trans <| (B1_keep m c main_arg12 (by decide))).trans rfl
theorem B13_main_arg13 (c : Dev nD) : B13 m c (Proc.devRef .tc main_arg13) = m ((c : Thread nD τ).loc main_arg13) :=
  ((B13_keep m c main_arg13 (by decide)).trans <| (B12_keep m c main_arg13 (by decide)).trans <| (B11_keep m c main_arg13 (by decide)).trans <| (B10_keep m c main_arg13 (by decide)).trans <| (B9_keep m c main_arg13 (by decide)).trans <| (B8_keep m c main_arg13 (by decide)).trans <| (B7_keep m c main_arg13 (by decide)).trans <| (B6_keep m c main_arg13 (by decide)).trans <| (B5_keep m c main_arg13 (by decide)).trans <| (B4_keep m c main_arg13 (by decide)).trans <| (B3_keep m c main_arg13 (by decide)).trans <| (B2_keep m c main_arg13 (by decide)).trans <| (B1_keep m c main_arg13 (by decide))).trans rfl
theorem B13_main_arg14 (c : Dev nD) : B13 m c (Proc.devRef .tc main_arg14) = m ((c : Thread nD τ).loc main_arg14) :=
  ((B13_keep m c main_arg14 (by decide)).trans <| (B12_keep m c main_arg14 (by decide)).trans <| (B11_keep m c main_arg14 (by decide)).trans <| (B10_keep m c main_arg14 (by decide)).trans <| (B9_keep m c main_arg14 (by decide)).trans <| (B8_keep m c main_arg14 (by decide)).trans <| (B7_keep m c main_arg14 (by decide)).trans <| (B6_keep m c main_arg14 (by decide)).trans <| (B5_keep m c main_arg14 (by decide)).trans <| (B4_keep m c main_arg14 (by decide)).trans <| (B3_keep m c main_arg14 (by decide)).trans <| (B2_keep m c main_arg14 (by decide)).trans <| (B1_keep m c main_arg14 (by decide))).trans rfl

/-! ## The bookkeeping family and the thread state -/

abbrev admC : (p : Fin 6) → (pcfgs (F := F) p).Adm := fun p => (cfgs p).toPCfg_adm
/-- Every pipeline's bookkeeping, each at its region's entry contents. -/
def pd : (p : Fin 6) → (c : Dev nD) → Dat τ (Elt F) Unit ℕ (UR sig nD τ) ℕ (Pipeline.pin (pcfgs (F := F)) admC p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
abbrev 𝒱C : Variants := Variants.none
abbrev LC : GSem nD τ sig → Finset Unit := fun _ => ∅
abbrev lvC : GSem nD τ sig → Unit → ℕ := fun _ _ => 0
/-- What rides beside the buffers through every segment: the generator register at some state, and the core owing nothing. -/
abbrev Rst (c : Dev nD) : sProp 𝕄 := iprop((∃ r, prngReg c r) ∗ ∃ W, owes (c : Thread nD τ) (0 : CellTallies nD τ sig Unit) W)
/-- A host stretch as a segment: its operations over the unscoped references from the contents `W`, `Rst` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱C LC lvC :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `B13`, the generator register at some state. -/
abbrev Tend (c : Dev nD) : sProp 𝕄 := iprop(StableHlo.held (c : Thread nD τ) (Pipeline.ucRefs τ sig) (B13 m c) ∗ ∃ r, prngReg c r)

/-! ## The regions as segments -/

-- unifying a library lemma stated over the pinned configuration with this pipeline's takes unfolding plain
-- definitions in a metavariable's type
set_option backward.isDefEq.respectTransparency.types false in
/-- Region 0 over the thread state: entered with every unscoped buffer at `B1`, left with them at `B2`. Its four
    arrays are split out of the unscoped buffers at entry and put back at exit; the generator register goes into the
    pipeline's invariant and comes back; nothing is owed; the kernel has no semaphore of its own. -/
def reg0 : Pipeline.RegionSeg (pcfgs (F := F)) admC (pd m) () defs₀ 𝒱C LC lvC 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LC lvC 0 fun _ _ => rfl
  pre c := iprop(StableHlo.held (c : Thread nD τ) (Pipeline.ucRefs τ sig) (B1 m c) ∗ Rst c)
  post c := iprop(StableHlo.held (c : Thread nD τ) (Pipeline.ucRefs τ sig) (B2 m c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admC (pd m) launch0.win launch0.arr_whole c
      ((pd m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admC (Ix := Unit) (Name := ℕ) (U := UR sig nD τ) (Lvl := ℕ)
      launch0.win launch0.arr_whole c (pd m) ((pd m 0 c).share_full fun _ => rfl)
      (E1 m c) (X2 m c) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with this pipeline's takes unfolding plain
-- definitions in a metavariable's type
set_option backward.isDefEq.respectTransparency.types false in
/-- Region 1 over the thread state: entered with every unscoped buffer at `B3`, left with them at `B4`. Its four
    arrays are split out of the unscoped buffers at entry and put back at exit; the generator register goes into the
    pipeline's invariant and comes back; nothing is owed; the kernel has no semaphore of its own. -/
def reg1 : Pipeline.RegionSeg (pcfgs (F := F)) admC (pd m) () defs₀ 𝒱C LC lvC 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ LC lvC 1 fun _ _ => rfl
  pre c := iprop(StableHlo.held (c : Thread nD τ) (Pipeline.ucRefs τ sig) (B3 m c) ∗ Rst c)
  post c := iprop(StableHlo.held (c : Thread nD τ) (Pipeline.ucRefs τ sig) (B4 m c) ∗ Rst c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) admC (pd m) launch1.win launch1.arr_whole c
      ((pd m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admC (Ix := Unit) (Name := ℕ) (U := UR sig nD τ) (Lvl := ℕ)
      launch1.win launch1.arr_whole c (pd m) ((pd m 1 c).share_full fun _ => rfl)
      (E3 m c) (X4 m c) ((pd m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with this pipeline's takes unfolding plain
-- definitions in a metavariable's type
set_option backward.isDefEq.respectTransparency.types false in
/-- Region 2 over the thread state: entered with every unscoped buffer at `B5`, left with them at `B6`. Its four
    arrays are split out of the unscoped buffers at entry and put back at exit; the generator register goes into the
    pipeline's invariant and comes back; nothing is owed; the kernel has no semaphore of its own. -/
def reg2 : Pipeline.RegionSeg (pcfgs (F := F)) admC (pd m) () defs₀ 𝒱C LC lvC 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ LC lvC 2 fun _ _ => rfl
  pre c := iprop(StableHlo.held (c : Thread nD τ) (Pipeline.ucRefs τ sig) (B5 m c) ∗ Rst c)
  post c := iprop(StableHlo.held (c : Thread nD τ) (Pipeline.ucRefs τ sig) (B6 m c) ∗ Rst c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) admC (pd m) launch2.win launch2.arr_whole c
      ((pd m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admC (Ix := Unit) (Name := ℕ) (U := UR sig nD τ) (Lvl := ℕ)
      launch2.win launch2.arr_whole c (pd m) ((pd m 2 c).share_full fun _ => rfl)
      (E5 m c) (X6 m c) ((pd m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with this pipeline's takes unfolding plain
-- definitions in a metavariable's type
set_option backward.isDefEq.respectTransparency.types false in
/-- Region 3 over the thread state: entered with every unscoped buffer at `B7`, left with them at `B8`. Its four
    arrays are split out of the unscoped buffers at entry and put back at exit; the generator register goes into the
    pipeline's invariant and comes back; nothing is owed; the kernel has no semaphore of its own. -/
def reg3 : Pipeline.RegionSeg (pcfgs (F := F)) admC (pd m) () defs₀ 𝒱C LC lvC 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ LC lvC 3 fun _ _ => rfl
  pre c := iprop(StableHlo.held (c : Thread nD τ) (Pipeline.ucRefs τ sig) (B7 m c) ∗ Rst c)
  post c := iprop(StableHlo.held (c : Thread nD τ) (Pipeline.ucRefs τ sig) (B8 m c) ∗ Rst c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) admC (pd m) launch3.win launch3.arr_whole c
      ((pd m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 3 c).Φ 0 = Pipeline.ΦA spec3 c from rfl]; unfold Pipeline.ΦA
    iintro ⟨Hp, -, Hr⟩
    isplitl [Hr]; · iexact Hr
    iexact Hp
  hout c := by
    rw [Pipeline.ownSems0_none, show (pd m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admC (Ix := Unit) (Name := ℕ) (U := UR sig nD τ) (Lvl := ℕ)
      launch3.win launch3.arr_whole c (pd m) ((pd m 3 c).share_full fun _ => rfl)
      (E7 m c) (X8 m c) ((pd m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with this pipeline's takes unfolding plain
-- definitions in a metavariable's type
set_option backward.isDefEq.respectTransparency.types false in
/-- Region 4 over the thread state: entered with every unscoped buffer at `B9`, left with them at `B10`. Its four
    arrays are split out of the unscoped buffers at entry and put back at exit; the generator register goes into the
    pipeline's invariant and comes back; nothing is owed; the kernel has no semaphore of its own. -/
def reg4 : Pipeline.RegionSeg (pcfgs (F := F)) admC (pd m) () defs₀ 𝒱C LC lvC 4 where
  win := launch4.win.to₀
  block_pos := launch4.block_pos
  stage_whole := launch4.stage_whole
  K := PEmpty
  osem k := k.elim
  ho := Pipeline.OwnSemFacts.none _
  hbody c := (body_obligation4 (E9 m) c).loose
  hwaits := Pipeline.hwaits_of_owed_zero _ _ _ _ LC lvC 4 fun _ _ => rfl
  pre c := iprop(StableHlo.held (c : Thread nD τ) (Pipeline.ucRefs τ sig) (B9 m c) ∗ Rst c)
  post c := iprop(StableHlo.held (c : Thread nD τ) (Pipeline.ucRefs τ sig) (B10 m c) ∗ Rst c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) admC (pd m) launch4.win launch4.arr_whole c
      ((pd m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 4 c).Φ 0 = Pipeline.ΦA spec4 c from rfl]; unfold Pipeline.ΦA
    iintro ⟨Hp, -, Hr⟩
    isplitl [Hr]; · iexact Hr
    iexact Hp
  hout c := by
    rw [Pipeline.ownSems0_none, show (pd m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admC (Ix := Unit) (Name := ℕ) (U := UR sig nD τ) (Lvl := ℕ)
      launch4.win launch4.arr_whole c (pd m) ((pd m 4 c).share_full fun _ => rfl)
      (E9 m c) (X10 m c) ((pd m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with this pipeline's takes unfolding plain
-- definitions in a metavariable's type
set_option backward.isDefEq.respectTransparency.types false in
/-- Region 5 over the thread state: entered with every unscoped buffer at `B11`, left with them at `B12`. Its four
    arrays are split out of the unscoped buffers at entry and put back at exit; the generator register goes into the
    pipeline's invariant and comes back; nothing is owed; the kernel has no semaphore of its own. -/
def reg5 : Pipeline.RegionSeg (pcfgs (F := F)) admC (pd m) () defs₀ 𝒱C LC lvC 5 where
  win := launch5.win.to₀
  block_pos := launch5.block_pos
  stage_whole := launch5.stage_whole
  K := PEmpty
  osem k := k.elim
  ho := Pipeline.OwnSemFacts.none _
  hbody c := (body_obligation5 (E11 m) c).loose
  hwaits := Pipeline.hwaits_of_owed_zero _ _ _ _ LC lvC 5 fun _ _ => rfl
  pre c := iprop(StableHlo.held (c : Thread nD τ) (Pipeline.ucRefs τ sig) (B11 m c) ∗ Rst c)
  post c := iprop(StableHlo.held (c : Thread nD τ) (Pipeline.ucRefs τ sig) (B12 m c) ∗ Rst c)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hsplit := Pipeline.arrays_of_unscopedBufs (p := 5) (pcfgs (F := F)) admC (pd m) launch5.win launch5.arr_whole c
      ((pd m 5 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 5 c).Φ 0 = Pipeline.ΦA spec5 c from rfl]; unfold Pipeline.ΦA
    iintro ⟨Hp, -, Hr⟩
    isplitl [Hr]; · iexact Hr
    iexact Hp
  hout c := by
    rw [Pipeline.ownSems0_none, show (pd m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admC (Ix := Unit) (Name := ℕ) (U := UR sig nD τ) (Lvl := ℕ)
      launch5.win launch5.arr_whole c (pd m) ((pd m 5 c).share_full fun _ => rfl)
      (E11 m c) (X12 m c) ((pd m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segsC : List (Pipeline.Seg (pcfgs (F := F)) admC (pd m) () defs₀ 𝒱C LC lvC) :=
  [ .host (hostSeg hostOps0 hostOps0_sub hostOps0_fresh (B0 m)),
    .region (reg0 m),
    .host (hostSeg hostOps1 hostOps1_sub hostOps1_fresh (B2 m)),
    .region (reg1 m),
    .host (hostSeg hostOps2 hostOps2_sub hostOps2_fresh (B4 m)),
    .region (reg2 m),
    .host (hostSeg hostOps3 hostOps3_sub hostOps3_fresh (B6 m)),
    .region (reg3 m),
    .host (hostSeg hostOps4 hostOps4_sub hostOps4_fresh (B8 m)),
    .region (reg4 m),
    .host (hostSeg hostOps5 hostOps5_sub hostOps5_fresh (B10 m)),
    .region (reg5 m),
    .host (hostSeg hostOps6 hostOps6_sub hostOps6_fresh (B12 m)) ]

theorem main_run (c : Dev nD) : main (F := F) c = Pipeline.Seg.run (segsC m) := (main_chain c).trans (by chain_rfl)

set_option backward.isDefEq.respectTransparency.types false in
/-- THE RUN: from any memory with zero counters every weakly fair execution of the program on the TensorCores
    terminates, nothing faulting, and in the final memory every unscoped buffer holds `B13`'s value for it. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B13 m c b) :=
  Pipeline.θ_run_regions_kit (pcfgs (F := F)) admC (pd m) () cellOf_inj emb₁ defs₀ 𝒱C LC lvC m ρ main (segsC m)
    (fun c Q => by rw [main_run m c])
    (by simp only [segsC, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rst c)) (Tₙ := Tend m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (B13 m c) ∗ Rst c)
          ⊢ iprop(Tend m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LC lvC fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B13 m c b)
    (hfin := fun c s' => by
      iintro ⟨⟨Hh, -⟩, HSI⟩
      unfold StableHlo.held
      imodintro
      iapply (pointsTo_read_all (Pipeline.ucRefs τ sig) (fun b => (((c : Thread nD τ)).1, b)) (B13 m c) s')
      isplitl [Hh] <;> iassumption)
    (hQ := fun s h => h)

/-- The frame: every argument array ends as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (B13_main_arg0 m c),
     (h c _ (mem_uc main_arg1 (by decide))).trans (B13_main_arg1 m c),
     (h c _ (mem_uc main_arg2 (by decide))).trans (B13_main_arg2 m c),
     (h c _ (mem_uc main_arg3 (by decide))).trans (B13_main_arg3 m c),
     (h c _ (mem_uc main_arg4 (by decide))).trans (B13_main_arg4 m c),
     (h c _ (mem_uc main_arg5 (by decide))).trans (B13_main_arg5 m c),
     (h c _ (mem_uc main_arg6 (by decide))).trans (B13_main_arg6 m c),
     (h c _ (mem_uc main_arg7 (by decide))).trans (B13_main_arg7 m c),
     (h c _ (mem_uc main_arg8 (by decide))).trans (B13_main_arg8 m c),
     (h c _ (mem_uc main_arg9 (by decide))).trans (B13_main_arg9 m c),
     (h c _ (mem_uc main_arg10 (by decide))).trans (B13_main_arg10 m c),
     (h c _ (mem_uc main_arg11 (by decide))).trans (B13_main_arg11 m c),
     (h c _ (mem_uc main_arg12 (by decide))).trans (B13_main_arg12 m c),
     (h c _ (mem_uc main_arg13 (by decide))).trans (B13_main_arg13 m c),
     (h c _ (mem_uc main_arg14 (by decide))).trans (B13_main_arg14 m c)⟩) (run_all m ρ)

end Cert.KernelIdeal.Conv

end
-- ==== Proof.Spec.lean ====
/-
  The two row-block functions of a normalised graph convolution, over the extended reals, index by index.

  `scaleMatmul n x s w`: row r of the n×128 matrix `x` is scaled by the r-th entry of the n×1 column `s` and then multiplied
  into the 128×128 matrix `w`: entry (r, q) is  Σ_k (x[r,k] · s[r,0]) · w[k,q].

  `scaleShiftLeaky n a s b`: entry (r, q) of the n×128 matrix `a` is scaled by s[r,0], shifted by the q-th entry of the
  1×128 row `b`, and the result v is kept when v ≥ 0 and replaced by ℓ·v otherwise, where ℓ is the single-precision
  number nearest 1/100 (the same binary word wherever it is written, so it is never evaluated).

  Both are stated for any number of rows `n`; nothing here mentions a program.
-/
import Idealize.ShloMosaic.PureOps.Ideal
import Idealize.ShloMosaic.Lib.ValueIdx

noncomputable section

namespace Cert.GraphConv

open Idealize.ShloMosaic Idealize.ShloMosaic.ValueIdx

/-- The n×128 matrices, n×1 columns, the 128×128 weight and the 1×128 row, as literal shapes. -/
abbrev Mat (n : Nat) : Shape := ⟨2, ![n, 128]⟩
abbrev Col (n : Nat) : Shape := ⟨2, ![n, 1]⟩
abbrev Wgt : Shape := ⟨2, ![128, 128]⟩
abbrev Row : Shape := ⟨2, ![1, 128]⟩

/-- Entry (r, q) is Σ_k (x[r,k] · s[r,0]) · w[k,q]. -/
def scaleMatmul (n : Nat) (x : (Mat n).Idx → EReal) (s : (Col n).Idx → EReal) (w : Wgt.Idx → EReal) : (Mat n).Idx → EReal :=
  fun i => ∑ k : Fin 128, (x (ix2 (n0 := n) (n1 := 128) (i 0) k) * s (ix2 (n0 := n) (n1 := 1) (i 0) 0)) * w (ix2 (n0 := 128) (n1 := 128) k (i 1))

/-- The value before the rectifier: a[r,q] · s[r,0] + b[0,q]. -/
def scaleShift (n : Nat) (a : (Mat n).Idx → EReal) (s : (Col n).Idx → EReal) (b : Row.Idx → EReal) : (Mat n).Idx → EReal :=
  fun i => a i * s (ix2 (n0 := n) (n1 := 1) (i 0) 0) + b (ix2 (n0 := 1) (n1 := 128) 0 (i 1))

/-- The leaky rectifier at one extended real: v when v ≥ 0 (as the ordered comparison against the zero word decides),
    otherwise ℓ · v. -/
def leaky (v : Ideal .f32) : Ideal .f32 :=
  Scalar.select (FloatOps.cmpf (F := Ideal) (φ := .f32) .oge v (FloatOps.ofBits (F := Ideal) .f32 0x00000000#32)) v
    (FloatOps.mulf (F := Ideal) (φ := .f32) (FloatOps.ofBits (F := Ideal) .f32 0x3C23D70A#32) v)

/-- Entry (r, q) is the leaky rectifier of a[r,q] · s[r,0] + b[0,q]. -/
def scaleShiftLeaky (n : Nat) (a : (Mat n).Idx → EReal) (s : (Col n).Idx → EReal) (b : Row.Idx → EReal) : (Mat n).Idx → EReal :=
  fun i => leaky (scaleShift n a s b i)

end Cert.GraphConv

end
-- ==== Proof.Ideal.RefRows.lean ====
/-
  The reference's three operation chains, read as functions of their operands at the ideal instance.

  For each row count n ∈ {20000, 100000, 10000}:
  * scale-then-multiply: the contraction of (x ⊙ the column r broadcast along the rows) with w has entry (p, q)
    Σ_k (x[p,k] · r[p]) · w[k,q];
  * scale-then-shift-then-rectify: a ⊙ (r broadcast along the rows) + (b broadcast down the columns) has entry (p, q)
    a[p,q] · r[p] + b[q], and the select on "≥ 0" between that value v and ℓ · v is the leaky rectifier of v.
  Both are stated with the column given as an n×1 array s with s[p,0] = r[p], and the row as a 1×128 array b2 with
  b2[0,q] = b[q]: the specification's functions at those arrays. Nothing here runs a program.
-/
import proofs.«111035_j79285096284406_1_alg».proof.ReferenceIdeal
import proofs.«111035_j79285096284406_1_alg».proof.Proof.Gen.ReferenceIdeal.Read
import proofs.«111035_j79285096284406_1_alg».proof.Proof.Spec
import Idealize.ShloMosaic.PureOps.Ideal.Laws
import Idealize.ShloMosaic.Lib.ValueIdx
import Idealize.ShloMosaic.Lib.Pipeline.Value

noncomputable section

namespace Cert.ReferenceIdeal.Conv

open Cert.ReferenceIdeal Cert.ReferenceIdeal.Gen Cert.ReferenceIdeal.Read Idealize.ShloMosaic Idealize.ShloMosaic.ValueIdx
open scoped BigOperators

/-! ## n = 20000 -/

/-- The contraction over the one shared axis at entry (p, q): Σ_k y[p,k] · w[k,q]. -/
theorem dot_apply_20000 (y : FVec Ideal S20000x128 .f32) (w : FVec Ideal S128x128 .f32) (p : Fin 20000) (q : Fin 128) :
    Host.dotGeneral (F := Ideal) dot_S20000x128_S128x128_S20000x128_1_0_0_1_n_n none y w (ix2 p q)
      = ∑ k : Fin 128, y (ix2 p k) * w (ix2 k q) := by
  simp only [Host.dotGeneral]
  rw [Ideal.dotGeneral_apply, ← Equiv.sum_comp (ValueIdx.contrEquiv1 dot_S20000x128_S128x128_S20000x128_1_0_0_1_n_n 128 rfl rfl).symm]
  refine Finset.sum_congr rfl fun k _ => ?_
  have hk := ValueIdx.contrEquiv1_symm_val dot_S20000x128_S128x128_S20000x128_1_0_0_1_n_n 128 rfl rfl k
  have el : dot_S20000x128_S128x128_S20000x128_1_0_0_1_n_n.lhsIdx (ix2 p q) ((ValueIdx.contrEquiv1 dot_S20000x128_S128x128_S20000x128_1_0_0_1_n_n 128 rfl rfl).symm k) = ix2 p k := funext fun a => Fin.ext (by
    match a with
    | ⟨0, _⟩ => exact lhs_main_v15_0 _ _
    | ⟨1, _⟩ => exact (lhs_main_v15_1 _ _).trans hk)
  have er : dot_S20000x128_S128x128_S20000x128_1_0_0_1_n_n.rhsIdx (ix2 p q) ((ValueIdx.contrEquiv1 dot_S20000x128_S128x128_S20000x128_1_0_0_1_n_n 128 rfl rfl).symm k) = ix2 k q := funext fun a => Fin.ext (by
    match a with
    | ⟨0, _⟩ => exact (rhs_main_v15_0 _ _).trans hk
    | ⟨1, _⟩ => exact rhs_main_v15_1 _ _)
  rw [el, er]

/-- The vector r as a column, broadcast along the rows: entry (p, k) is r[p]. -/
theorem bcast_col_20000 (r : FVec Ideal S20000 .f32) (p : Fin 20000) (k : Fin 128) :
    broadcastInDim S20000x128 ![0, 1] bcast_S20000x1_S20000x128_0_1 (broadcastInDim S20000x1 ![0] bcast_S20000_S20000x1_0 r) (ix2 p k)
      = r (ix1 p) :=
  (broadcastInDim_apply _ bcast_S20000x1_S20000x128_0_1 _ (ix2 p k) (ix2 p (0 : Fin 1)) (fun a => match a with
    | ⟨0, _⟩ => by show p.val = if (20000 : Nat) = 1 then 0 else p.val; rw [if_neg (by decide)]
    | ⟨1, _⟩ => by show (0 : Nat) = if (1 : Nat) = 1 then 0 else k.val; rw [if_pos rfl])).trans
  (broadcastInDim_apply _ bcast_S20000_S20000x1_0 r (ix2 p (0 : Fin 1)) (ix1 p) (fun a => match a with
    | ⟨0, _⟩ => by show p.val = if (20000 : Nat) = 1 then 0 else p.val; rw [if_neg (by decide)]))

/-- The vector b as a row, broadcast down the columns: entry (p, q) is b[q]. -/
theorem bcast_row_20000 (b : FVec Ideal S128 .f32) (p : Fin 20000) (q : Fin 128) :
    broadcastInDim S20000x128 ![0, 1] bcast_S1x128_S20000x128_0_1 (broadcastInDim S1x128 ![1] bcast_S128_S1x128_1 b) (ix2 p q)
      = b (ix1 q) :=
  (broadcastInDim_apply _ bcast_S1x128_S20000x128_0_1 _ (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])).trans
  (broadcastInDim_apply _ bcast_S128_S1x128_1 b (ix2 (0 : Fin 1) q) (ix1 q) (fun a => match a with
    | ⟨0, _⟩ => by show q.val = if (128 : Nat) = 1 then 0 else q.val; rw [if_neg (by decide)]))

/-- A scalar broadcast to every entry reads the scalar. -/
theorem bcast_scalar_20000 (c : FVec Ideal S_ .f32) (i : S20000x128.Idx) :
    broadcastInDim S20000x128 ![] bcast_S_S20000x128 c i = c ix0 :=
  broadcastInDim_apply _ bcast_S_S20000x128 c i ix0 (fun a => a.elim0)

/-- The first chain is the specification's scale-then-multiply. -/
theorem ref_scaleMatmul_20000 (x : FVec Ideal S20000x128 .f32) (r : FVec Ideal S20000 .f32) (w : FVec Ideal S128x128 .f32)
    (s : FVec Ideal S20000x1 .f32) (hs : ∀ p : Fin 20000, s (ValueIdx.ix2 p (0 : Fin 1)) = r (ValueIdx.ix1 p)) :
    Host.dotGeneral (F := Ideal) dot_S20000x128_S128x128_S20000x128_1_0_0_1_n_n none
      (mulf x (broadcastInDim S20000x128 ![0, 1] bcast_S20000x1_S20000x128_0_1 (broadcastInDim S20000x1 ![0] bcast_S20000_S20000x1_0 r))) w
    = Cert.GraphConv.scaleMatmul 20000 x s w := by
  funext i
  obtain ⟨p, q, rfl⟩ : ∃ (p : Fin 20000) (q : Fin 128), i = ix2 p q := ⟨i 0, i 1, eq_ix2 i⟩
  refine (dot_apply_20000 _ w p q).trans ?_
  show _ = ∑ k : Fin 128, (x (ix2 p k) * s (ix2 p (0 : Fin 1))) * w (ix2 k q)
  refine Finset.sum_congr rfl fun k _ => ?_
  rw [mulf_apply, bcast_col_20000, hs p]

/-- The select between v and ℓ · v on "v ≥ 0", entry by entry, is the leaky rectifier of the entry. -/
theorem leaky_select_20000 (X : FVec Ideal S20000x128 .f32) :
    select (cmpf .oge X (broadcastInDim S20000x128 ![] bcast_S_S20000x128 (constant (F := Ideal) S_ .f32 0x00000000#32))) X
           (mulf (broadcastInDim S20000x128 ![] bcast_S_S20000x128 (constant (F := Ideal) S_ .f32 0x3C23D70A#32)) X)
      = fun i => Cert.GraphConv.leaky (X i) := by
  funext i
  show Scalar.select (FloatOps.cmpf .oge (X i) (broadcastInDim S20000x128 ![] bcast_S_S20000x128 (constant (F := Ideal) S_ .f32 0x00000000#32) i)) (X i)
      (FloatOps.mulf (broadcastInDim S20000x128 ![] bcast_S_S20000x128 (constant (F := Ideal) S_ .f32 0x3C23D70A#32) i) (X i)) = _
  rw [bcast_scalar_20000, bcast_scalar_20000]
  rfl

/-- The second chain, with its rectifier, is the specification's scale-shift-rectify. -/
theorem ref_scaleShiftLeaky_20000 (a : FVec Ideal S20000x128 .f32) (r : FVec Ideal S20000 .f32) (b : FVec Ideal S128 .f32)
    (s : FVec Ideal S20000x1 .f32) (hs : ∀ p : Fin 20000, s (ValueIdx.ix2 p (0 : Fin 1)) = r (ValueIdx.ix1 p))
    (b2 : FVec Ideal S1x128 .f32) (hb : ∀ q : Fin 128, b2 (ValueIdx.ix2 (0 : Fin 1) q) = b (ValueIdx.ix1 q)) :
    (let X := addf (mulf a (broadcastInDim S20000x128 ![0, 1] bcast_S20000x1_S20000x128_0_1 (broadcastInDim S20000x1 ![0] bcast_S20000_S20000x1_0 r)))
                (broadcastInDim S20000x128 ![0, 1] bcast_S1x128_S20000x128_0_1 (broadcastInDim S1x128 ![1] bcast_S128_S1x128_1 b));
     select (cmpf .oge X (broadcastInDim S20000x128 ![] bcast_S_S20000x128 (constant (F := Ideal) S_ .f32 0x00000000#32))) X
            (mulf (broadcastInDim S20000x128 ![] bcast_S_S20000x128 (constant (F := Ideal) S_ .f32 0x3C23D70A#32)) X))
    = Cert.GraphConv.scaleShiftLeaky 20000 a s b2 := by
  refine (leaky_select_20000 _).trans ?_
  funext i
  obtain ⟨p, q, rfl⟩ : ∃ (p : Fin 20000) (q : Fin 128), i = ix2 p q := ⟨i 0, i 1, eq_ix2 i⟩
  show Cert.GraphConv.leaky _ = Cert.GraphConv.leaky (a (ix2 p q) * s (ix2 p (0 : Fin 1)) + b2 (ix2 (0 : Fin 1) q))
  refine congrArg Cert.GraphConv.leaky ?_
  rw [addf_apply, mulf_apply, bcast_col_20000, bcast_row_20000, hs p, hb q]

/-! ## n = 100000 -/

/-- The contraction over the one shared axis at entry (p, q): Σ_k y[p,k] · w[k,q]. -/
theorem dot_apply_100000 (y : FVec Ideal S100000x128 .f32) (w : FVec Ideal S128x128 .f32) (p : Fin 100000) (q : Fin 128) :
    Host.dotGeneral (F := Ideal) dot_S100000x128_S128x128_S100000x128_1_0_0_1_n_n none y w (ix2 p q)
      = ∑ k : Fin 128, y (ix2 p k) * w (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k := funext fun a => Fin.ext (by
    match a with
    | ⟨0, _⟩ => exact lhs_main_v48_0 _ _
    | ⟨1, _⟩ => exact (lhs_main_v48_1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q := funext fun a => Fin.ext (by
    match a with
    | ⟨0, _⟩ => exact (rhs_main_v48_0 _ _).trans hk
    | ⟨1, _⟩ => exact rhs_main_v48_1 _ _)
  rw [el, er]

/-- The vector r as a column, broadcast along the rows: entry (p, k) is r[p]. -/
theorem bcast_col_100000 (r : FVec Ideal S100000 .f32) (p : Fin 100000) (k : Fin 128) :
    broadcastInDim S100000x128 ![0, 1] bcast_S100000x1_S100000x128_0_1 (broadcastInDim S100000x1 ![0] bcast_S100000_S100000x1_0 r) (ix2 p k)
      = r (ix1 p) :=
  (broadcastInDim_apply _ bcast_S100000x1_S100000x128_0_1 _ (ix2 p k) (ix2 p (0 : Fin 1)) (fun a => match a with
    | ⟨0, _⟩ => by show p.val = if (100000 : Nat) = 1 then 0 else p.val; rw [if_neg (by decide)]
    | ⟨1, _⟩ => by show (0 : Nat) = if (1 : Nat) = 1 then 0 else k.val; rw [if_pos rfl])).trans
  (broadcastInDim_apply _ bcast_S100000_S100000x1_0 r (ix2 p (0 : Fin 1)) (ix1 p) (fun a => match a with
    | ⟨0, _⟩ => by show p.val = if (100000 : Nat) = 1 then 0 else p.val; rw [if_neg (by decide)]))

/-- The vector b as a row, broadcast down the columns: entry (p, q) is b[q]. -/
theorem bcast_row_100000 (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) :=
  (broadcastInDim_apply _ bcast_S1x128_S100000x128_0_1 _ (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])).trans
  (broadcastInDim_apply _ bcast_S128_S1x128_1 b (ix2 (0 : Fin 1) q) (ix1 q) (fun a => match a with
    | ⟨0, _⟩ => by show q.val = if (128 : Nat) = 1 then 0 else q.val; rw [if_neg (by decide)]))

/-- A scalar broadcast to every entry reads the scalar. -/
theorem bcast_scalar_100000 (c : FVec Ideal S_ .f32) (i : S100000x128.Idx) :
    broadcastInDim S100000x128 ![] bcast_S_S100000x128 c i = c ix0 :=
  broadcastInDim_apply _ bcast_S_S100000x128 c i ix0 (fun a => a.elim0)

/-- The first chain is the specification's scale-then-multiply. -/
theorem ref_scaleMatmul_100000 (x : FVec Ideal S100000x128 .f32) (r : FVec Ideal S100000 .f32) (w : FVec Ideal S128x128 .f32)
    (s : FVec Ideal S100000x1 .f32) (hs : ∀ p : Fin 100000, s (ValueIdx.ix2 p (0 : Fin 1)) = r (ValueIdx.ix1 p)) :
    Host.dotGeneral (F := Ideal) dot_S100000x128_S128x128_S100000x128_1_0_0_1_n_n none
      (mulf x (broadcastInDim S100000x128 ![0, 1] bcast_S100000x1_S100000x128_0_1 (broadcastInDim S100000x1 ![0] bcast_S100000_S100000x1_0 r))) w
    = Cert.GraphConv.scaleMatmul 100000 x s w := by
  funext i
  obtain ⟨p, q, rfl⟩ : ∃ (p : Fin 100000) (q : Fin 128), i = ix2 p q := ⟨i 0, i 1, eq_ix2 i⟩
  refine (dot_apply_100000 _ w p q).trans ?_
  show _ = ∑ k : Fin 128, (x (ix2 p k) * s (ix2 p (0 : Fin 1))) * w (ix2 k q)
  refine Finset.sum_congr rfl fun k _ => ?_
  rw [mulf_apply, bcast_col_100000, hs p]

/-- The select between v and ℓ · v on "v ≥ 0", entry by entry, is the leaky rectifier of the entry. -/
theorem leaky_select_100000 (X : FVec Ideal S100000x128 .f32) :
    select (cmpf .oge X (broadcastInDim S100000x128 ![] bcast_S_S100000x128 (constant (F := Ideal) S_ .f32 0x00000000#32))) X
           (mulf (broadcastInDim S100000x128 ![] bcast_S_S100000x128 (constant (F := Ideal) S_ .f32 0x3C23D70A#32)) X)
      = fun i => Cert.GraphConv.leaky (X i) := by
  funext i
  show Scalar.select (FloatOps.cmpf .oge (X i) (broadcastInDim S100000x128 ![] bcast_S_S100000x128 (constant (F := Ideal) S_ .f32 0x00000000#32) i)) (X i)
      (FloatOps.mulf (broadcastInDim S100000x128 ![] bcast_S_S100000x128 (constant (F := Ideal) S_ .f32 0x3C23D70A#32) i) (X i)) = _
  rw [bcast_scalar_100000, bcast_scalar_100000]
  rfl

/-- The second chain, with its rectifier, is the specification's scale-shift-rectify. -/
theorem ref_scaleShiftLeaky_100000 (a : FVec Ideal S100000x128 .f32) (r : FVec Ideal S100000 .f32) (b : FVec Ideal S128 .f32)
    (s : FVec Ideal S100000x1 .f32) (hs : ∀ p : Fin 100000, s (ValueIdx.ix2 p (0 : Fin 1)) = r (ValueIdx.ix1 p))
    (b2 : FVec Ideal S1x128 .f32) (hb : ∀ q : Fin 128, b2 (ValueIdx.ix2 (0 : Fin 1) q) = b (ValueIdx.ix1 q)) :
    (let X := addf (mulf a (broadcastInDim S100000x128 ![0, 1] bcast_S100000x1_S100000x128_0_1 (broadcastInDim S100000x1 ![0] bcast_S100000_S100000x1_0 r)))
                (broadcastInDim S100000x128 ![0, 1] bcast_S1x128_S100000x128_0_1 (broadcastInDim S1x128 ![1] bcast_S128_S1x128_1 b));
     select (cmpf .oge X (broadcastInDim S100000x128 ![] bcast_S_S100000x128 (constant (F := Ideal) S_ .f32 0x00000000#32))) X
            (mulf (broadcastInDim S100000x128 ![] bcast_S_S100000x128 (constant (F := Ideal) S_ .f32 0x3C23D70A#32)) X))
    = Cert.GraphConv.scaleShiftLeaky 100000 a s b2 := by
  refine (leaky_select_100000 _).trans ?_
  funext i
  obtain ⟨p, q, rfl⟩ : ∃ (p : Fin 100000) (q : Fin 128), i = ix2 p q := ⟨i 0, i 1, eq_ix2 i⟩
  show Cert.GraphConv.leaky _ = Cert.GraphConv.leaky (a (ix2 p q) * s (ix2 p (0 : Fin 1)) + b2 (ix2 (0 : Fin 1) q))
  refine congrArg Cert.GraphConv.leaky ?_
  rw [addf_apply, mulf_apply, bcast_col_100000, bcast_row_100000, hs p, hb q]

/-! ## n = 10000 -/

/-- The contraction over the one shared axis at entry (p, q): Σ_k y[p,k] · w[k,q]. -/
theorem dot_apply_10000 (y : FVec Ideal S10000x128 .f32) (w : FVec Ideal S128x128 .f32) (p : Fin 10000) (q : Fin 128) :
    Host.dotGeneral (F := Ideal) dot_S10000x128_S128x128_S10000x128_1_0_0_1_n_n none y w (ix2 p q)
      = ∑ k : Fin 128, y (ix2 p k) * w (ix2 k q) := by
  simp only [Host.dotGeneral]
  rw [Ideal.dotGeneral_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_main_v81_0 _ _
    | ⟨1, _⟩ => exact (lhs_main_v81_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_main_v81_0 _ _).trans hk
    | ⟨1, _⟩ => exact rhs_main_v81_1 _ _)
  rw [el, er]

/-- The vector r as a column, broadcast along the rows: entry (p, k) is r[p]. -/
theorem bcast_col_10000 (r : FVec Ideal S10000 .f32) (p : Fin 10000) (k : Fin 128) :
    broadcastInDim S10000x128 ![0, 1] bcast_S10000x1_S10000x128_0_1 (broadcastInDim S10000x1 ![0] bcast_S10000_S10000x1_0 r) (ix2 p k)
      = r (ix1 p) :=
  (broadcastInDim_apply _ bcast_S10000x1_S10000x128_0_1 _ (ix2 p k) (ix2 p (0 : Fin 1)) (fun a => match a with
    | ⟨0, _⟩ => by show p.val = if (10000 : Nat) = 1 then 0 else p.val; rw [if_neg (by decide)]
    | ⟨1, _⟩ => by show (0 : Nat) = if (1 : Nat) = 1 then 0 else k.val; rw [if_pos rfl])).trans
  (broadcastInDim_apply _ bcast_S10000_S10000x1_0 r (ix2 p (0 : Fin 1)) (ix1 p) (fun a => match a with
    | ⟨0, _⟩ => by show p.val = if (10000 : Nat) = 1 then 0 else p.val; rw [if_neg (by decide)]))

/-- The vector b as a row, broadcast down the columns: entry (p, q) is b[q]. -/
theorem bcast_row_10000 (b : FVec Ideal S128 .f32) (p : Fin 10000) (q : Fin 128) :
    broadcastInDim S10000x128 ![0, 1] bcast_S1x128_S10000x128_0_1 (broadcastInDim S1x128 ![1] bcast_S128_S1x128_1 b) (ix2 p q)
      = b (ix1 q) :=
  (broadcastInDim_apply _ bcast_S1x128_S10000x128_0_1 _ (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])).trans
  (broadcastInDim_apply _ bcast_S128_S1x128_1 b (ix2 (0 : Fin 1) q) (ix1 q) (fun a => match a with
    | ⟨0, _⟩ => by show q.val = if (128 : Nat) = 1 then 0 else q.val; rw [if_neg (by decide)]))

/-- A scalar broadcast to every entry reads the scalar. -/
theorem bcast_scalar_10000 (c : FVec Ideal S_ .f32) (i : S10000x128.Idx) :
    broadcastInDim S10000x128 ![] bcast_S_S10000x128 c i = c ix0 :=
  broadcastInDim_apply _ bcast_S_S10000x128 c i ix0 (fun a => a.elim0)

/-- The first chain is the specification's scale-then-multiply. -/
theorem ref_scaleMatmul_10000 (x : FVec Ideal S10000x128 .f32) (r : FVec Ideal S10000 .f32) (w : FVec Ideal S128x128 .f32)
    (s : FVec Ideal S10000x1 .f32) (hs : ∀ p : Fin 10000, s (ValueIdx.ix2 p (0 : Fin 1)) = r (ValueIdx.ix1 p)) :
    Host.dotGeneral (F := Ideal) dot_S10000x128_S128x128_S10000x128_1_0_0_1_n_n none
      (mulf x (broadcastInDim S10000x128 ![0, 1] bcast_S10000x1_S10000x128_0_1 (broadcastInDim S10000x1 ![0] bcast_S10000_S10000x1_0 r))) w
    = Cert.GraphConv.scaleMatmul 10000 x s w := by
  funext i
  obtain ⟨p, q, rfl⟩ : ∃ (p : Fin 10000) (q : Fin 128), i = ix2 p q := ⟨i 0, i 1, eq_ix2 i⟩
  refine (dot_apply_10000 _ w p q).trans ?_
  show _ = ∑ k : Fin 128, (x (ix2 p k) * s (ix2 p (0 : Fin 1))) * w (ix2 k q)
  refine Finset.sum_congr rfl fun k _ => ?_
  rw [mulf_apply, bcast_col_10000, hs p]

/-- The select between v and ℓ · v on "v ≥ 0", entry by entry, is the leaky rectifier of the entry. -/
theorem leaky_select_10000 (X : FVec Ideal S10000x128 .f32) :
    select (cmpf .oge X (broadcastInDim S10000x128 ![] bcast_S_S10000x128 (constant (F := Ideal) S_ .f32 0x00000000#32))) X
           (mulf (broadcastInDim S10000x128 ![] bcast_S_S10000x128 (constant (F := Ideal) S_ .f32 0x3C23D70A#32)) X)
      = fun i => Cert.GraphConv.leaky (X i) := by
  funext i
  show Scalar.select (FloatOps.cmpf .oge (X i) (broadcastInDim S10000x128 ![] bcast_S_S10000x128 (constant (F := Ideal) S_ .f32 0x00000000#32) i)) (X i)
      (FloatOps.mulf (broadcastInDim S10000x128 ![] bcast_S_S10000x128 (constant (F := Ideal) S_ .f32 0x3C23D70A#32) i) (X i)) = _
  rw [bcast_scalar_10000, bcast_scalar_10000]
  rfl

/-- The second chain, with its rectifier, is the specification's scale-shift-rectify. -/
theorem ref_scaleShiftLeaky_10000 (a : FVec Ideal S10000x128 .f32) (r : FVec Ideal S10000 .f32) (b : FVec Ideal S128 .f32)
    (s : FVec Ideal S10000x1 .f32) (hs : ∀ p : Fin 10000, s (ValueIdx.ix2 p (0 : Fin 1)) = r (ValueIdx.ix1 p))
    (b2 : FVec Ideal S1x128 .f32) (hb : ∀ q : Fin 128, b2 (ValueIdx.ix2 (0 : Fin 1) q) = b (ValueIdx.ix1 q)) :
    (let X := addf (mulf a (broadcastInDim S10000x128 ![0, 1] bcast_S10000x1_S10000x128_0_1 (broadcastInDim S10000x1 ![0] bcast_S10000_S10000x1_0 r)))
                (broadcastInDim S10000x128 ![0, 1] bcast_S1x128_S10000x128_0_1 (broadcastInDim S1x128 ![1] bcast_S128_S1x128_1 b));
     select (cmpf .oge X (broadcastInDim S10000x128 ![] bcast_S_S10000x128 (constant (F := Ideal) S_ .f32 0x00000000#32))) X
            (mulf (broadcastInDim S10000x128 ![] bcast_S_S10000x128 (constant (F := Ideal) S_ .f32 0x3C23D70A#32)) X))
    = Cert.GraphConv.scaleShiftLeaky 10000 a s b2 := by
  refine (leaky_select_10000 _).trans ?_
  funext i
  obtain ⟨p, q, rfl⟩ : ∃ (p : Fin 10000) (q : Fin 128), i = ix2 p q := ⟨i 0, i 1, eq_ix2 i⟩
  show Cert.GraphConv.leaky _ = Cert.GraphConv.leaky (a (ix2 p q) * s (ix2 p (0 : Fin 1)) + b2 (ix2 (0 : Fin 1) q))
  refine congrArg Cert.GraphConv.leaky ?_
  rw [addf_apply, mulf_apply, bcast_col_10000, bcast_row_10000, hs p, hb q]

end Cert.ReferenceIdeal.Conv

end
-- ==== Proof.Ideal.RefTree.lean ====
/-
  The reference's returned array as a tree over the argument arrays.

  Each of the three graph convolutions is: the leaky rectifier of (scale, then shift) applied to the scatter-add, into zeros
  and at the destination indices, of the rows gathered at the normalised source indices from (scale, then multiply) of the
  features. The two scaling columns are the reciprocal square roots of the clamped degree counts, as n×1 arrays, and the shift
  is the bias as a 1×128 array; those, the zero array and the index arrays stay folded as the generated stage values
  `val_main_v…` of the arguments. The returned array is the concatenation of the three results along the rows.
-/
import proofs.«111035_j79285096284406_1_alg».proof.Proof.Ideal.RefRows
import proofs.«111035_j79285096284406_1_alg».proof.Proof.Gen.ReferenceIdeal.Read
import proofs.«111035_j79285096284406_1_alg».proof.Proof.Spec

noncomputable section

namespace Cert.ReferenceIdeal.Conv

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The vector r as an 20000×1 column: entry (p, 0) is r[p]. -/
theorem col_apply_20000 (r : FVec Ideal S20000 .f32) (p : Fin 20000) :
    broadcastInDim S20000x1 ![0] bcast_S20000_S20000x1_0 r (ix2 p (0 : Fin 1)) = r (ix1 p) :=
  broadcastInDim_apply _ bcast_S20000_S20000x1_0 r (ix2 p (0 : Fin 1)) (ix1 p) (fun a => match a with
    | ⟨0, _⟩ => by show p.val = if (20000 : Nat) = 1 then 0 else p.val; rw [if_neg (by decide)])

/-- The vector r as an 100000×1 column: entry (p, 0) is r[p]. -/
theorem col_apply_100000 (r : FVec Ideal S100000 .f32) (p : Fin 100000) :
    broadcastInDim S100000x1 ![0] bcast_S100000_S100000x1_0 r (ix2 p (0 : Fin 1)) = r (ix1 p) :=
  broadcastInDim_apply _ bcast_S100000_S100000x1_0 r (ix2 p (0 : Fin 1)) (ix1 p) (fun a => match a with
    | ⟨0, _⟩ => by show p.val = if (100000 : Nat) = 1 then 0 else p.val; rw [if_neg (by decide)])

/-- The vector r as an 10000×1 column: entry (p, 0) is r[p]. -/
theorem col_apply_10000 (r : FVec Ideal S10000 .f32) (p : Fin 10000) :
    broadcastInDim S10000x1 ![0] bcast_S10000_S10000x1_0 r (ix2 p (0 : Fin 1)) = r (ix1 p) :=
  broadcastInDim_apply _ bcast_S10000_S10000x1_0 r (ix2 p (0 : Fin 1)) (ix1 p) (fun a => match a with
    | ⟨0, _⟩ => by show p.val = if (10000 : Nat) = 1 then 0 else p.val; rw [if_neg (by decide)])

/-- The vector b as a 1×128 row: entry (0, q) is b[q]. -/
theorem row_apply (b : FVec Ideal S128 .f32) (q : Fin 128) :
    broadcastInDim S1x128 ![1] bcast_S128_S1x128_1 b (ix2 (0 : Fin 1) q) = b (ix1 q) :=
  broadcastInDim_apply _ bcast_S128_S1x128_1 b (ix2 (0 : Fin 1) q) (ix1 q) (fun a => match a with
    | ⟨0, _⟩ => by show q.val = if (128 : Nat) = 1 then 0 else q.val; rw [if_neg (by decide)])

/-! ## The three convolutions as trees -/

/-- The convolution on the 20000-row features (argument 0), with weight, bias and index arrays the arguments 3, 4, 9, 10. -/
def svcR (x0 : (⟨S20000x128, .f32⟩ : BufTy).Contents (Elt Ideal)) (x3 : (⟨S128x128, .f32⟩ : BufTy).Contents (Elt Ideal)) (x4 : (⟨S128, .f32⟩ : BufTy).Contents (Elt Ideal)) (x9 x10 : (⟨S640000, .i32⟩ : BufTy).Contents (Elt Ideal)) : (⟨S20000x128, .f32⟩ : BufTy).Contents (Elt Ideal) :=
  Cert.GraphConv.scaleShiftLeaky 20000
    (Host.scatterAdd (F := Ideal) (φ := .f32) scatter_S20000x128_S640000x1_S640000x128_1_0_0_1 (val_main_v23 (F := Ideal)) (val_main_v24 (F := Ideal) x10)
      (Host.gather (α := Ideal .f32) gather_S20000x128_S640000x1_S640000x128_1_0_n_n_0_1_1128
        (Cert.GraphConv.scaleMatmul 20000 x0 (val_main_v12 (F := Ideal) x9) x3) (val_main_v21 (F := Ideal) x9)))
    (val_main_v27 (F := Ideal) x10) (val_main_v30 (F := Ideal) x4)

/-- The convolution from the 100000-row features (argument 1) to 10000 rows, with weight, bias and index arrays the arguments 5, 6, 11, 12. -/
def nodeR (x1 : (⟨S100000x128, .f32⟩ : BufTy).Contents (Elt Ideal)) (x5 : (⟨S128x128, .f32⟩ : BufTy).Contents (Elt Ideal)) (x6 : (⟨S128, .f32⟩ : BufTy).Contents (Elt Ideal)) (x11 x12 : (⟨S200000, .i32⟩ : BufTy).Contents (Elt Ideal)) : (⟨S10000x128, .f32⟩ : BufTy).Contents (Elt Ideal) :=
  Cert.GraphConv.scaleShiftLeaky 10000
    (Host.scatterAdd (F := Ideal) (φ := .f32) scatter_S10000x128_S200000x1_S200000x128_1_0_0_1 (val_main_v56 (F := Ideal)) (val_main_v57 (F := Ideal) x12)
      (Host.gather (α := Ideal .f32) gather_S100000x128_S200000x1_S200000x128_1_0_n_n_0_1_1128
        (Cert.GraphConv.scaleMatmul 100000 x1 (val_main_v45 (F := Ideal) x11) x5) (val_main_v54 (F := Ideal) x11)))
    (val_main_v60 (F := Ideal) x12) (val_main_v63 (F := Ideal) x6)

/-- The convolution from the 10000-row features (argument 2) to 100000 rows, with weight, bias and index arrays the arguments 7, 8, 13, 14. -/
def instR (x2 : (⟨S10000x128, .f32⟩ : BufTy).Contents (Elt Ideal)) (x7 : (⟨S128x128, .f32⟩ : BufTy).Contents (Elt Ideal)) (x8 : (⟨S128, .f32⟩ : BufTy).Contents (Elt Ideal)) (x13 x14 : (⟨S200000, .i32⟩ : BufTy).Contents (Elt Ideal)) : (⟨S100000x128, .f32⟩ : BufTy).Contents (Elt Ideal) :=
  Cert.GraphConv.scaleShiftLeaky 100000
    (Host.scatterAdd (F := Ideal) (φ := .f32) scatter_S100000x128_S200000x1_S200000x128_1_0_0_1 (val_main_v89 (F := Ideal)) (val_main_v90 (F := Ideal) x14)
      (Host.gather (α := Ideal .f32) gather_S10000x128_S200000x1_S200000x128_1_0_n_n_0_1_1128
        (Cert.GraphConv.scaleMatmul 10000 x2 (val_main_v78 (F := Ideal) x13) x7) (val_main_v87 (F := Ideal) x13)))
    (val_main_v93 (F := Ideal) x14) (val_main_v96 (F := Ideal) x8)

/-! ## Each convolution's last stage is its tree -/

/-- The convolution on the 20000-row features (argument 0), with weight, bias and index arrays the arguments 3, 4, 9, 10: its last stage is the tree. -/
theorem val_svc (x0 : (⟨S20000x128, .f32⟩ : BufTy).Contents (Elt Ideal)) (x3 : (⟨S128x128, .f32⟩ : BufTy).Contents (Elt Ideal)) (x4 : (⟨S128, .f32⟩ : BufTy).Contents (Elt Ideal)) (x9 x10 : (⟨S640000, .i32⟩ : BufTy).Contents (Elt Ideal)) :
    val_main_v113 (F := Ideal) x0 x3 x4 x9 x10 = svcR x0 x3 x4 x9 x10 := by
  have hmm : val_main_v15 (F := Ideal) x0 x3 x9 = Cert.GraphConv.scaleMatmul 20000 x0 (val_main_v12 (F := Ideal) x9) x3 :=
    ref_scaleMatmul_20000 x0 (val_main_v11 (F := Ideal) x9) x3 (val_main_v12 (F := Ideal) x9) (fun p => col_apply_20000 _ p)
  have hlk : val_main_v113 (F := Ideal) x0 x3 x4 x9 x10
      = Cert.GraphConv.scaleShiftLeaky 20000 (val_main_v25 (F := Ideal) x0 x3 x9 x10) (val_main_v27 (F := Ideal) x10) (val_main_v30 (F := Ideal) x4) :=
    ref_scaleShiftLeaky_20000 (val_main_v25 (F := Ideal) x0 x3 x9 x10) (val_main_v26 (F := Ideal) x10) x4 (val_main_v27 (F := Ideal) x10)
      (fun p => col_apply_20000 _ p) (val_main_v30 (F := Ideal) x4) (fun q => row_apply _ q)
  rw [hlk]
  unfold svcR val_main_v25 val_main_v22
  rw [hmm]

/-- The convolution from the 100000-row features (argument 1) to 10000 rows, with weight, bias and index arrays the arguments 5, 6, 11, 12: its last stage is the tree. -/
theorem val_node (x1 : (⟨S100000x128, .f32⟩ : BufTy).Contents (Elt Ideal)) (x5 : (⟨S128x128, .f32⟩ : BufTy).Contents (Elt Ideal)) (x6 : (⟨S128, .f32⟩ : BufTy).Contents (Elt Ideal)) (x11 x12 : (⟨S200000, .i32⟩ : BufTy).Contents (Elt Ideal)) :
    val_main_v103 (F := Ideal) x1 x5 x6 x11 x12 = nodeR x1 x5 x6 x11 x12 := by
  have hmm : val_main_v48 (F := Ideal) x1 x5 x11 = Cert.GraphConv.scaleMatmul 100000 x1 (val_main_v45 (F := Ideal) x11) x5 :=
    ref_scaleMatmul_100000 x1 (val_main_v44 (F := Ideal) x11) x5 (val_main_v45 (F := Ideal) x11) (fun p => col_apply_100000 _ p)
  have hlk : val_main_v103 (F := Ideal) x1 x5 x6 x11 x12
      = Cert.GraphConv.scaleShiftLeaky 10000 (val_main_v58 (F := Ideal) x1 x5 x11 x12) (val_main_v60 (F := Ideal) x12) (val_main_v63 (F := Ideal) x6) :=
    ref_scaleShiftLeaky_10000 (val_main_v58 (F := Ideal) x1 x5 x11 x12) (val_main_v59 (F := Ideal) x12) x6 (val_main_v60 (F := Ideal) x12)
      (fun p => col_apply_10000 _ p) (val_main_v63 (F := Ideal) x6) (fun q => row_apply _ q)
  rw [hlk]
  unfold nodeR val_main_v58 val_main_v55
  rw [hmm]

/-- The convolution from the 10000-row features (argument 2) to 100000 rows, with weight, bias and index arrays the arguments 7, 8, 13, 14: its last stage is the tree. -/
theorem val_inst (x2 : (⟨S10000x128, .f32⟩ : BufTy).Contents (Elt Ideal)) (x7 : (⟨S128x128, .f32⟩ : BufTy).Contents (Elt Ideal)) (x8 : (⟨S128, .f32⟩ : BufTy).Contents (Elt Ideal)) (x13 x14 : (⟨S200000, .i32⟩ : BufTy).Contents (Elt Ideal)) :
    val_main_v108 (F := Ideal) x2 x7 x8 x13 x14 = instR x2 x7 x8 x13 x14 := by
  have hmm : val_main_v81 (F := Ideal) x2 x7 x13 = Cert.GraphConv.scaleMatmul 10000 x2 (val_main_v78 (F := Ideal) x13) x7 :=
    ref_scaleMatmul_10000 x2 (val_main_v77 (F := Ideal) x13) x7 (val_main_v78 (F := Ideal) x13) (fun p => col_apply_10000 _ p)
  have hlk : val_main_v108 (F := Ideal) x2 x7 x8 x13 x14
      = Cert.GraphConv.scaleShiftLeaky 100000 (val_main_v91 (F := Ideal) x2 x7 x13 x14) (val_main_v93 (F := Ideal) x14) (val_main_v96 (F := Ideal) x8) :=
    ref_scaleShiftLeaky_100000 (val_main_v91 (F := Ideal) x2 x7 x13 x14) (val_main_v92 (F := Ideal) x14) x8 (val_main_v93 (F := Ideal) x14)
      (fun p => col_apply_100000 _ p) (val_main_v96 (F := Ideal) x8) (fun q => row_apply _ q)
  rw [hlk]
  unfold instR val_main_v91 val_main_v88
  rw [hmm]

/-! ## The returned array -/

/-- The array the run returns is the concatenation, along the rows, of the three trees at the argument arrays. -/
theorem ref_result (m : (ℓ : Loc nD τ sig) → Buf (Elt Ideal) ℓ) (c : Dev nD) :
    Cert.ReferenceIdeal.Value.res_main_v114 (F := Ideal) m c
      = concatenate S130000x128 0
          [⟨S10000x128, nodeR (m ((c.tc : Thread nD τ).loc main_arg1)) (m ((c.tc : Thread nD τ).loc main_arg5)) (m ((c.tc : Thread nD τ).loc main_arg6)) (m ((c.tc : Thread nD τ).loc main_arg11)) (m ((c.tc : Thread nD τ).loc main_arg12))⟩,
           ⟨S100000x128, instR (m ((c.tc : Thread nD τ).loc main_arg2)) (m ((c.tc : Thread nD τ).loc main_arg7)) (m ((c.tc : Thread nD τ).loc main_arg8)) (m ((c.tc : Thread nD τ).loc main_arg13)) (m ((c.tc : Thread nD τ).loc main_arg14))⟩,
           ⟨S20000x128, svcR (m ((c.tc : Thread nD τ).loc main_arg0)) (m ((c.tc : Thread nD τ).loc main_arg3)) (m ((c.tc : Thread nD τ).loc main_arg4)) (m ((c.tc : Thread nD τ).loc main_arg9)) (m ((c.tc : Thread nD τ).loc main_arg10))⟩]
          concatenates_S10000x128_S100000x128_S20000x128_S130000x128_d0 := by
  refine (val_main_v114_eq (F := Ideal) m c).trans ?_
  unfold val_main_v114
  rw [val_node, val_inst, val_svc]

end Cert.ReferenceIdeal.Conv

end
-- ==== Proof.Ideal.Payload.lean ====
/-
  Each kernel body's payload, at the extended reals, is the specification's row-block function.

  The bodies of the three scale-and-multiply calls compute, at an index (r, q), the sum over k of
  (x[r,k] · s[r,0]) · w[k,q]: the narrowing of the operands is the identity on extended reals, the column s is
  laid along every row's 128 entries, and the product accumulates into the zero matrix. The bodies of the three
  scale-shift-rectify calls compute a[r,q] · s[r,0] + b[0,q] and then the leaky rectifier of it.
-/
import proofs.«111035_j79285096284406_1_alg».proof.Proof.Gen.KernelIdeal.Skeleton
import proofs.«111035_j79285096284406_1_alg».proof.Proof.Spec
import Idealize.ShloMosaic.PureOps.Ideal.Laws
import Idealize.ShloMosaic.Lib.ValueIdx
import Idealize.ShloMosaic.Lib.Pipeline.Value
import Idealize.ShloMosaic.Lib.ValueLayout

set_option synthInstance.maxSize 4096

noncomputable section

namespace Cert.KernelIdeal.Conv

open Cert.KernelIdeal Cert.KernelIdeal.Gen Idealize.ShloMosaic Idealize.SL.Sem Idealize.ShloMosaic.ValueIdx
open scoped BigOperators

/-! ## A column laid along every row -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The scale-and-multiply payload -/

/-- The contraction's left operand index at the k-th term is (r, k). -/
theorem lhsIdx_eq (j : S2000x128.Idx) (k : Fin 128) :
    dot_S2000x128_S128x128_S2000x128_1_0_0_1_n_n.lhsIdx j
      ((contrEquiv1 dot_S2000x128_S128x128_S2000x128_1_0_0_1_n_n 128 rfl rfl).symm k) = ix2 (n0 := 2000) (n1 := 128) (j 0) k := by
  have hk := contrEquiv1_symm_val dot_S2000x128_S128x128_S2000x128_1_0_0_1_n_n 128 rfl rfl k
  refine funext fun a => Fin.ext ?_
  match a with
  | ⟨0, _⟩ =>
    show (dot_S2000x128_S128x128_S2000x128_1_0_0_1_n_n.lhsIdx j _ 0).val = (j 0).val
    unfold DotDims.lhsIdx
    rw [dif_neg (show ¬(0 : Fin S2000x128.rank) ∈ dot_S2000x128_S128x128_S2000x128_1_0_0_1_n_n.lhsBatch by decide),
      dif_pos (show (0 : Fin S2000x128.rank) ∈ dot_S2000x128_S128x128_S2000x128_1_0_0_1_n_n.lhsNonContracting by decide)]
    rfl
  | ⟨1, _⟩ =>
    exact (dot_S2000x128_S128x128_S2000x128_1_0_0_1_n_n.lhsIdx_val_of_single rfl j _).trans hk

/-- The contraction's right operand index at the k-th term is (k, q). -/
theorem rhsIdx_eq (j : S2000x128.Idx) (k : Fin 128) :
    dot_S2000x128_S128x128_S2000x128_1_0_0_1_n_n.rhsIdx j
      ((contrEquiv1 dot_S2000x128_S128x128_S2000x128_1_0_0_1_n_n 128 rfl rfl).symm k) = ix2 (n0 := 128) (n1 := 128) k (j 1) := by
  have hk := contrEquiv1_symm_val dot_S2000x128_S128x128_S2000x128_1_0_0_1_n_n 128 rfl rfl k
  refine funext fun a => Fin.ext ?_
  match a with
  | ⟨0, _⟩ =>
    exact (dot_S2000x128_S128x128_S2000x128_1_0_0_1_n_n.rhsIdx_val_of_single rfl j _).trans hk
  | ⟨1, _⟩ =>
    show (dot_S2000x128_S128x128_S2000x128_1_0_0_1_n_n.rhsIdx j _ 1).val = (j 1).val
    unfold DotDims.rhsIdx
    rw [dif_neg (show ¬(1 : Fin S128x128.rank) ∈ dot_S2000x128_S128x128_S2000x128_1_0_0_1_n_n.rhsBatch by decide),
      dif_pos (show (1 : Fin S128x128.rank) ∈ dot_S2000x128_S128x128_S2000x128_1_0_0_1_n_n.rhsNonContracting by decide)]
    rfl

/-- The column s, cast to its own shape and laid along the 128 entries of each row, reads s[r,0] at (r, k). -/
theorem col_apply (s : Vec Ideal S2000x1 .f32) (r : Fin 2000) (k : Fin 128) :
    broadcastTo S2000x128 (shapeCast S2000x1 s shapeCasts_S2000x1_S2000x1) broadcasts_S2000x1_S2000x128
      (ix2 (n0 := 2000) (n1 := 128) r k) = s (ix2 (n0 := 2000) (n1 := 1) r 0) := by
  rw [shapeCast_self]
  exact broadcastTo_a1_ab_apply s broadcasts_S2000x1_S2000x128 r k

/-- The product of the scaled rows with the weight, accumulated into the zero matrix, entry by entry. -/
theorem scaleMatmul_body (x : Vec Ideal S2000x128 .f32) (s : Vec Ideal S2000x1 .f32) (w : Vec Ideal S128x128 .f32) :
    matmul (F := Ideal) dot_S2000x128_S128x128_S2000x128_1_0_0_1_n_n none
      (truncf (F := Ideal) .bf16 (mulf (F := Ideal) x
        (broadcastTo S2000x128 (shapeCast S2000x1 s shapeCasts_S2000x1_S2000x1) broadcasts_S2000x1_S2000x128)) bitsLt_bf16_f32)
      (truncf (F := Ideal) .bf16 w bitsLt_bf16_f32)
      (constant (F := Ideal) S2000x128 .f32 0x00000000#32) = Cert.GraphConv.scaleMatmul 2000 x s w := by
  funext j
  refine (Ideal.matmul_constant_zero_apply dot_S2000x128_S128x128_S2000x128_1_0_0_1_n_n none _ _ j).trans ?_
  refine (Equiv.sum_comp (contrEquiv1 dot_S2000x128_S128x128_S2000x128_1_0_0_1_n_n 128 rfl rfl).symm _).symm.trans ?_
  unfold Cert.GraphConv.scaleMatmul
  refine Finset.sum_congr rfl fun k _ => ?_
  show (truncf (F := Ideal) .bf16 (mulf (F := Ideal) x _) bitsLt_bf16_f32) (dot_S2000x128_S128x128_S2000x128_1_0_0_1_n_n.lhsIdx j _)
      * (truncf (F := Ideal) .bf16 w bitsLt_bf16_f32) (dot_S2000x128_S128x128_S2000x128_1_0_0_1_n_n.rhsIdx j _) = _
  rw [lhsIdx_eq j k, rhsIdx_eq j k]
  exact congrArg (fun t => x (ix2 (n0 := 2000) (n1 := 128) (j 0) k) * t * w (ix2 (n0 := 128) (n1 := 128) k (j 1))) (col_apply s (j 0) k)

theorem k0_pay1_eq (x0 : Vec Ideal S2000x128 .f32) (x1 : Vec Ideal S2000x1 .f32) (x2 : Vec Ideal S128x128 .f32) :
    Gen.k0_pay1 (F := Ideal) x0 x1 x2 = Cert.GraphConv.scaleMatmul 2000 x0 x1 x2 :=
  scaleMatmul_body x0 x1 x2

theorem k2_pay1_eq (x0 : Vec Ideal S2000x128 .f32) (x1 : Vec Ideal S2000x1 .f32) (x2 : Vec Ideal S128x128 .f32) :
    Gen.k2_pay1 (F := Ideal) x0 x1 x2 = Cert.GraphConv.scaleMatmul 2000 x0 x1 x2 :=
  scaleMatmul_body x0 x1 x2

theorem k4_pay1_eq (x0 : Vec Ideal S2000x128 .f32) (x1 : Vec Ideal S2000x1 .f32) (x2 : Vec Ideal S128x128 .f32) :
    Gen.k4_pay1 (F := Ideal) x0 x1 x2 = Cert.GraphConv.scaleMatmul 2000 x0 x1 x2 :=
  scaleMatmul_body x0 x1 x2

/-! ## The scale-shift-rectify payload -/

/-- The row b, cast to its own shape and laid along each of the 2000 rows, reads b[0,q] at (r, q). -/
theorem row_apply (b : Vec Ideal S1x128 .f32) (r : Fin 2000) (q : Fin 128) :
    broadcastTo S2000x128 (shapeCast S1x128 b shapeCasts_S1x128_S1x128) broadcasts_S1x128_S2000x128
      (ix2 (n0 := 2000) (n1 := 128) r q) = b (ix2 (n0 := 1) (n1 := 128) 0 q) := by
  rw [shapeCast_self]
  exact broadcastTo_1b_ab_apply b broadcasts_S1x128_S2000x128 r q

/-- The value before the rectifier, entry by entry: a[r,q] · s[r,0] + b[0,q]. -/
theorem scaleShift_body (a : Vec Ideal S2000x128 .f32) (s : Vec Ideal S2000x1 .f32) (b : Vec Ideal S1x128 .f32)
    (j : S2000x128.Idx) :
    addf (F := Ideal) (φ := .f32)
      (mulf (F := Ideal) (φ := .f32) (shapeCast S2000x128 a shapeCasts_S2000x128_S2000x128)
        (broadcastTo S2000x128 (shapeCast S2000x1 s shapeCasts_S2000x1_S2000x1) broadcasts_S2000x1_S2000x128))
      (broadcastTo S2000x128 (shapeCast S1x128 b shapeCasts_S1x128_S1x128) broadcasts_S1x128_S2000x128) j
      = Cert.GraphConv.scaleShift 2000 a s b j := by
  have h1 : shapeCast S2000x128 a shapeCasts_S2000x128_S2000x128 j = a j :=
    congrFun (shapeCast_self a shapeCasts_S2000x128_S2000x128) j
  have h2 : broadcastTo S2000x128 (shapeCast S2000x1 s shapeCasts_S2000x1_S2000x1) broadcasts_S2000x1_S2000x128 j
      = s (ix2 (n0 := 2000) (n1 := 1) (j 0) 0) :=
    (congrArg _ (eq_ix2 j)).trans (col_apply s (j 0) (j 1))
  have h3 : broadcastTo S2000x128 (shapeCast S1x128 b shapeCasts_S1x128_S1x128) broadcasts_S1x128_S2000x128 j
      = b (ix2 (n0 := 1) (n1 := 128) 0 (j 1)) :=
    (congrArg _ (eq_ix2 j)).trans (row_apply b (j 0) (j 1))
  exact congrArg₂ (fun u v : EReal => u + v) (congrArg₂ (fun u v : EReal => u * v) h1 h2) h3

/-- The rectified value, as a function of the index. -/
theorem scaleShiftLeaky_body (a : Vec Ideal S2000x128 .f32) (s : Vec Ideal S2000x1 .f32) (b : Vec Ideal S1x128 .f32) :
    (fun j : S2000x128.Idx => Cert.GraphConv.leaky
      (addf (F := Ideal) (φ := .f32)
        (mulf (F := Ideal) (φ := .f32) (shapeCast S2000x128 a shapeCasts_S2000x128_S2000x128)
          (broadcastTo S2000x128 (shapeCast S2000x1 s shapeCasts_S2000x1_S2000x1) broadcasts_S2000x1_S2000x128))
        (broadcastTo S2000x128 (shapeCast S1x128 b shapeCasts_S1x128_S1x128) broadcasts_S1x128_S2000x128) j))
      = Cert.GraphConv.scaleShiftLeaky 2000 a s b :=
  funext fun j => congrArg Cert.GraphConv.leaky (scaleShift_body a s b j)

theorem k1_pay1_eq (x0 : Vec Ideal S2000x128 .f32) (x2 : Vec Ideal S2000x1 .f32) (x6 : Vec Ideal S1x128 .f32) :
    Gen.k1_pay1 (F := Ideal) x0 x2 x6 = Cert.GraphConv.scaleShiftLeaky 2000 x0 x2 x6 :=
  scaleShiftLeaky_body x0 x2 x6

theorem k3_pay1_eq (x0 : Vec Ideal S2000x128 .f32) (x2 : Vec Ideal S2000x1 .f32) (x6 : Vec Ideal S1x128 .f32) :
    Gen.k3_pay1 (F := Ideal) x0 x2 x6 = Cert.GraphConv.scaleShiftLeaky 2000 x0 x2 x6 :=
  scaleShiftLeaky_body x0 x2 x6

theorem k5_pay1_eq (x0 : Vec Ideal S2000x128 .f32) (x2 : Vec Ideal S2000x1 .f32) (x6 : Vec Ideal S1x128 .f32) :
    Gen.k5_pay1 (F := Ideal) x0 x2 x6 = Cert.GraphConv.scaleShiftLeaky 2000 x0 x2 x6 :=
  scaleShiftLeaky_body x0 x2 x6

end Cert.KernelIdeal.Conv

end
-- ==== Proof.Ideal.Blocks.lean ====
/-
  From blocks to the array. Each region cuts its three input arrays into blocks of 2000 rows, applies the
  specification's row-block function to the blocks at a grid point, and writes the 2000 rows back. Both row-block
  functions act row by row (row r of the result depends on row r of the matrix, entry r of the column, and the whole
  parameter), so the function of the blocks at point t is the block at t of the function of the whole arrays; the
  blocks of the grid's points cover every row, so the array the region leaves is that function of the arrays it found.
-/
import proofs.«111035_j79285096284406_1_alg».proof.Proof.Ideal.Body0
import proofs.«111035_j79285096284406_1_alg».proof.Proof.Ideal.Body1
import proofs.«111035_j79285096284406_1_alg».proof.Proof.Ideal.Body2
import proofs.«111035_j79285096284406_1_alg».proof.Proof.Ideal.Body3
import proofs.«111035_j79285096284406_1_alg».proof.Proof.Ideal.Body4
import proofs.«111035_j79285096284406_1_alg».proof.Proof.Ideal.Body5
import proofs.«111035_j79285096284406_1_alg».proof.Proof.Ideal.Payload
import proofs.«111035_j79285096284406_1_alg».proof.Proof.Spec
import Idealize.ShloMosaic.Lib.Pipeline.Value
import Idealize.ShloMosaic.Lib.ValueIdx

set_option maxRecDepth 16384

noncomputable section

namespace Cert.KernelIdeal.Conv

open Cert.KernelIdeal Cert.KernelIdeal.Gen
open Idealize.ShloMosaic Idealize.ShloMosaic.TcCoe Idealize.SL.Sem Idealize.ShloMosaic.ValueIdx
open Idealize.ShloMosaic.Pipeline (Dat)
open Cert.GraphConv (Mat Col Wgt Row scaleMatmul scaleShift leaky scaleShiftLeaky)
open scoped BigOperators

/-! ## The row-block functions commute with taking a block of rows -/

/-- A block's zero offsets, as the constant function. -/
theorem zeros2 : (![0, 0] : Fin 2 → Nat) = fun _ => 0 := funext fun a => by fin_cases a <;> rfl

/-- The scale-and-multiply function of a block of 2000 rows starting at row `off` (the matrix's and the column's
    blocks move together, the weight is whole) is the block of the function of the whole arrays. -/
theorem scaleMatmul_block {n : ℕ} (A0 : (Mat n).Idx → EReal) (A1 : (Col n).Idx → EReal) (A2 : Wgt.Idx → EReal)
    (e0 : (Mat 2000).Idx → (Mat n).Idx) (e1 : (Col 2000).Idx → (Col n).Idx) (e2 : Wgt.Idx → Wgt.Idx)
    (e3 : (Mat 2000).Idx → (Mat n).Idx) (off : ℕ)
    (h00 : ∀ y, (e0 y 0).val = off + (y 0).val) (h01 : ∀ y, (e0 y 1).val = (y 1).val)
    (h10 : ∀ y, (e1 y 0).val = off + (y 0).val)
    (h20 : ∀ y, (e2 y 0).val = (y 0).val) (h21 : ∀ y, (e2 y 1).val = (y 1).val)
    (h30 : ∀ y, (e3 y 0).val = off + (y 0).val) (h31 : ∀ y, (e3 y 1).val = (y 1).val) (j : (Mat 2000).Idx) :
    scaleMatmul 2000 (fun y => A0 (e0 y)) (fun y => A1 (e1 y)) (fun y => A2 (e2 y)) j
      = scaleMatmul n A0 A1 A2 (e3 j) := by
  unfold scaleMatmul
  refine Finset.sum_congr rfl fun k _ => ?_
  have i0 : e0 (ix2 (n0 := 2000) (n1 := 128) (j 0) k) = ix2 (n0 := n) (n1 := 128) (e3 j 0) k := by
    funext a; apply Fin.ext
    match a with
    | ⟨0, _⟩ => exact (h00 _).trans (h30 j).symm
    | ⟨1, _⟩ => exact h01 _
  have i1 : e1 (ix2 (n0 := 2000) (n1 := 1) (j 0) 0) = ix2 (n0 := n) (n1 := 1) (e3 j 0) 0 := by
    funext a; apply Fin.ext
    match a with
    | ⟨0, _⟩ => exact (h10 _).trans (h30 j).symm
    | ⟨1, _⟩ =>
      have h1 : (e1 (ix2 (n0 := 2000) (n1 := 1) (j 0) 0) 1).val < 1 := (e1 _ 1).isLt
      exact Nat.lt_one_iff.mp h1
  have i2 : e2 (ix2 (n0 := 128) (n1 := 128) k (j 1)) = ix2 (n0 := 128) (n1 := 128) k (e3 j 1) := by
    funext a; apply Fin.ext
    match a with
    | ⟨0, _⟩ => exact h20 _
    | ⟨1, _⟩ => exact (h21 _).trans (h31 j).symm
  show A0 (e0 _) * A1 (e1 _) * A2 (e2 _) = _
  rw [i0, i1, i2]

/-- The scale-shift-rectify function of a block of 2000 rows starting at row `off` (the matrix's and the column's
    blocks move together, the bias row is whole) is the block of the function of the whole arrays. -/
theorem scaleShiftLeaky_block {n : ℕ} (A0 : (Mat n).Idx → EReal) (A1 : (Col n).Idx → EReal) (A2 : Row.Idx → EReal)
    (e0 : (Mat 2000).Idx → (Mat n).Idx) (e1 : (Col 2000).Idx → (Col n).Idx) (e2 : Row.Idx → Row.Idx)
    (e3 : (Mat 2000).Idx → (Mat n).Idx) (off : ℕ)
    (h00 : ∀ y, (e0 y 0).val = off + (y 0).val) (h01 : ∀ y, (e0 y 1).val = (y 1).val)
    (h10 : ∀ y, (e1 y 0).val = off + (y 0).val)
    (h21 : ∀ y, (e2 y 1).val = (y 1).val)
    (h30 : ∀ y, (e3 y 0).val = off + (y 0).val) (h31 : ∀ y, (e3 y 1).val = (y 1).val) (j : (Mat 2000).Idx) :
    scaleShiftLeaky 2000 (fun y => A0 (e0 y)) (fun y => A1 (e1 y)) (fun y => A2 (e2 y)) j
      = scaleShiftLeaky n A0 A1 A2 (e3 j) := by
  unfold scaleShiftLeaky
  refine congrArg leaky ?_
  unfold scaleShift
  have i0 : e0 j = e3 j := by
    funext a; apply Fin.ext
    match a with
    | ⟨0, _⟩ => exact (h00 _).trans (h30 j).symm
    | ⟨1, _⟩ => exact (h01 _).trans (h31 j).symm
  have i1 : e1 (ix2 (n0 := 2000) (n1 := 1) (j 0) 0) = ix2 (n0 := n) (n1 := 1) (e3 j 0) 0 := by
    funext a; apply Fin.ext
    match a with
    | ⟨0, _⟩ => exact (h10 _).trans (h30 j).symm
    | ⟨1, _⟩ =>
      have h1 : (e1 (ix2 (n0 := 2000) (n1 := 1) (j 0) 0) 1).val < 1 := (e1 _ 1).isLt
      exact Nat.lt_one_iff.mp h1
  have i2 : e2 (ix2 (n0 := 1) (n1 := 128) 0 (j 1)) = ix2 (n0 := 1) (n1 := 128) 0 (e3 j 1) := by
    funext a; apply Fin.ext
    match a with
    | ⟨0, _⟩ =>
      have h1 : (e2 (ix2 (n0 := 1) (n1 := 128) 0 (j 1)) 0).val < 1 := (e2 _ 0).isLt
      exact Nat.lt_one_iff.mp h1
    | ⟨1, _⟩ => exact (h21 _).trans (h31 j).symm
  show A0 (e0 j) * A1 (e1 _) + A2 (e2 _) = _
  rw [i0, i1, i2]

/-! ## Region 0: 20000 rows in 10 blocks, scale and multiply -/

section Region0
variable (E : (c : Dev nD) → (b : Ref sig .tc) → Buf (Elt Ideal) ((c : Thread nD τ).loc b))

/-- The index maps over the grid: the matrix's, the column's and the output's blocks are the t-th on the row axis
    and the only one across; the weight's block is the whole weight. -/
theorem idx_facts0 : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the row-block function of the arrays as the region finds them. -/
theorem flushed0_eq (c : Dev nD) (t : Fin cfg0.N) :
    (dat0 (F := Ideal) E c).flushed 3 t
      = ((cfg0.win 3).blk t).view.read (Elt Ideal) (scaleMatmul 20000 (E c main_arg0) (E c main_v12) (E c main_arg3)) := by
  show (cfg0.win 3).cut (grid0.coords t) ((dat0 (F := Ideal) E c).after 3 t) = _
  rw [after0_3]
  unfold out0_3
  rw [View.canon_unit_zero zeros2]
  simp only [View.ld_unit_zero (S := S2000x128) zeros2, View.ld_unit_zero (S := S2000x1) zeros2,
    View.ld_unit_zero (S := S128x128) zeros2]
  rw [k0_pay1_eq]
  obtain ⟨e0, e1, e2, e3, e4, e5, e6, e7⟩ := idx_facts0 t
  funext j
  show scaleMatmul 2000 (fun y => E c main_arg0 (((cfg0.win 0).blk t).view.emb y))
      (fun y => E c main_v12 (((cfg0.win 1).blk t).view.emb y))
      (fun y => E c main_arg3 (((cfg0.win 2).blk t).view.emb y)) j
    = scaleMatmul 20000 (E c main_arg0) (E c main_v12) (E c main_arg3) (((cfg0.win 3).blk t).view.emb j)
  exact scaleMatmul_block (E c main_arg0) (E c main_v12) (E c main_arg3)
    ((cfg0.win 0).blk t).view.emb ((cfg0.win 1).blk t).view.emb ((cfg0.win 2).blk t).view.emb
    ((cfg0.win 3).blk t).view.emb (win0_3.index t (0 : Fin 2) * 2000)
    (fun y => by show win0_0.index t (0 : Fin 2) * 2000 + 1 * (y 0).val = _; omega)
    (fun y => by show win0_0.index t (1 : Fin 2) * 128 + 1 * (y 1).val = _; omega)
    (fun y => by show win0_1.index t (0 : Fin 2) * 2000 + 1 * (y 0).val = _; omega)
    (fun y => by show win0_2.index t (0 : Fin 2) * 128 + 1 * (y 0).val = _; omega)
    (fun y => by show win0_2.index t (1 : Fin 2) * 128 + 1 * (y 1).val = _; omega)
    (fun y => by show win0_3.index t (0 : Fin 2) * 2000 + 1 * (y 0).val = _; omega)
    (fun y => by show win0_3.index t (1 : Fin 2) * 128 + 1 * (y 1).val = _; omega) j

/-- An index of the array is in point t's block iff each coordinate is in the block's range on its axis. -/
theorem mem_blk0 (t : Fin cfg0.N) (i : (Mat 20000).Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v15).slice (win0_3.rect t)).set ↔ _
  rw [View.set_slice_whole, Rect.mem_set_unit]
  exact Iff.rfl

/-- Row r is in the block of point r / 2000. -/
theorem cover0 (i : (Mat 20000).Idx) :
    ∃ t : Fin cfg0.N, (cfg0.win 3).flush t = true ∧ i ∈ ((cfg0.win 3).blk t).view.set := by
  have hi0 : (i 0).val < 20000 := (i 0).isLt
  have hi1 : (i 1).val < 128 := (i 1).isLt
  have hN : cfg0.N = 10 := N_0
  let t : Fin cfg0.N := ⟨(i 0).val / 2000, by rw [hN]; omega⟩
  obtain ⟨e0, e1, e2, e3, e4, e5, e6, e7⟩ := idx_facts0 t
  have e6' : win0_3.index t (0 : Fin 2) = (i 0).val / 2000 := e6
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The array region 0 leaves: the row-block function of the three arrays it found. -/
theorem final0 (c : Dev nD) :
    (dat0 (F := Ideal) E c).arrAt 3 cfg0.N = scaleMatmul 20000 (E c main_arg0) (E c main_v12) (E c main_arg3) :=
  (dat0 (F := Ideal) E c).arrAt_eq_of_cover 3 _ (fun t _ => flushed0_eq E c t) (cover0)

end Region0

/-! ## Region 1: 20000 rows in 10 blocks, scale, shift and rectify -/

section Region1
variable (E : (c : Dev nD) → (b : Ref sig .tc) → Buf (Elt Ideal) ((c : Thread nD τ).loc b))

/-- The index maps over the grid: the matrix's, the column's and the output's blocks are the t-th on the row axis
    and the only one across; the bias row's block is the whole row. -/
theorem idx_facts1 : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the row-block function of the arrays as the region finds them. -/
theorem flushed1_eq (c : Dev nD) (t : Fin cfg1.N) :
    (dat1 (F := Ideal) E c).flushed 3 t
      = ((cfg1.win 3).blk t).view.read (Elt Ideal) (scaleShiftLeaky 20000 (E c main_v25) (E c main_v14) (E c main_v26)) := by
  show (cfg1.win 3).cut (grid1.coords t) ((dat1 (F := Ideal) E c).after 3 t) = _
  rw [after1_3]
  unfold out1_3
  rw [View.canon_unit_zero zeros2]
  simp only [View.ld_unit_zero (S := S2000x128) zeros2, View.ld_unit_zero (S := S2000x1) zeros2,
    View.ld_unit_zero (S := S1x128) zeros2]
  rw [k1_pay1_eq]
  obtain ⟨e0, e1, e2, e3, e4, e5, e6, e7⟩ := idx_facts1 t
  funext j
  show scaleShiftLeaky 2000 (fun y => E c main_v25 (((cfg1.win 0).blk t).view.emb y))
      (fun y => E c main_v14 (((cfg1.win 1).blk t).view.emb y))
      (fun y => E c main_v26 (((cfg1.win 2).blk t).view.emb y)) j
    = scaleShiftLeaky 20000 (E c main_v25) (E c main_v14) (E c main_v26) (((cfg1.win 3).blk t).view.emb j)
  exact scaleShiftLeaky_block (E c main_v25) (E c main_v14) (E c main_v26)
    ((cfg1.win 0).blk t).view.emb ((cfg1.win 1).blk t).view.emb ((cfg1.win 2).blk t).view.emb
    ((cfg1.win 3).blk t).view.emb (win1_3.index t (0 : Fin 2) * 2000)
    (fun y => by show win1_0.index t (0 : Fin 2) * 2000 + 1 * (y 0).val = _; omega)
    (fun y => by show win1_0.index t (1 : Fin 2) * 128 + 1 * (y 1).val = _; omega)
    (fun y => by show win1_1.index t (0 : Fin 2) * 2000 + 1 * (y 0).val = _; omega)
    (fun y => by show win1_2.index t (1 : Fin 2) * 128 + 1 * (y 1).val = _; omega)
    (fun y => by show win1_3.index t (0 : Fin 2) * 2000 + 1 * (y 0).val = _; omega)
    (fun y => by show win1_3.index t (1 : Fin 2) * 128 + 1 * (y 1).val = _; omega) j

/-- An index of the array is in point t's block iff each coordinate is in the block's range on its axis. -/
theorem mem_blk1 (t : Fin cfg1.N) (i : (Mat 20000).Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v27).slice (win1_3.rect t)).set ↔ _
  rw [View.set_slice_whole, Rect.mem_set_unit]
  exact Iff.rfl

/-- Row r is in the block of point r / 2000. -/
theorem cover1 (i : (Mat 20000).Idx) :
    ∃ t : Fin cfg1.N, (cfg1.win 3).flush t = true ∧ i ∈ ((cfg1.win 3).blk t).view.set := by
  have hi0 : (i 0).val < 20000 := (i 0).isLt
  have hi1 : (i 1).val < 128 := (i 1).isLt
  have hN : cfg1.N = 10 := N_1
  let t : Fin cfg1.N := ⟨(i 0).val / 2000, by rw [hN]; omega⟩
  obtain ⟨e0, e1, e2, e3, e4, e5, e6, e7⟩ := idx_facts1 t
  have e6' : win1_3.index t (0 : Fin 2) = (i 0).val / 2000 := e6
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- The array region 1 leaves: the row-block function of the three arrays it found. -/
theorem final1 (c : Dev nD) :
    (dat1 (F := Ideal) E c).arrAt 3 cfg1.N = scaleShiftLeaky 20000 (E c main_v25) (E c main_v14) (E c main_v26) :=
  (dat1 (F := Ideal) E c).arrAt_eq_of_cover 3 _ (fun t _ => flushed1_eq E c t) (cover1)

end Region1

/-! ## Region 2: 100000 rows in 50 blocks, scale and multiply -/

section Region2
variable (E : (c : Dev nD) → (b : Ref sig .tc) → Buf (Elt Ideal) ((c : Thread nD τ).loc b))

/-- The index maps over the grid: the matrix's, the column's and the output's blocks are the t-th on the row axis
    and the only one across; the weight's block is the whole weight. -/
theorem idx_facts2 : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the row-block function of the arrays as the region finds them. -/
theorem flushed2_eq (c : Dev nD) (t : Fin cfg2.N) :
    (dat2 (F := Ideal) E c).flushed 3 t
      = ((cfg2.win 3).blk t).view.read (Elt Ideal) (scaleMatmul 100000 (E c main_arg1) (E c main_v40) (E c main_arg5)) := by
  show (cfg2.win 3).cut (grid2.coords t) ((dat2 (F := Ideal) E c).after 3 t) = _
  rw [after2_3]
  unfold out2_3
  rw [View.canon_unit_zero zeros2]
  simp only [View.ld_unit_zero (S := S2000x128) zeros2, View.ld_unit_zero (S := S2000x1) zeros2,
    View.ld_unit_zero (S := S128x128) zeros2]
  rw [k2_pay1_eq]
  obtain ⟨e0, e1, e2, e3, e4, e5, e6, e7⟩ := idx_facts2 t
  funext j
  show scaleMatmul 2000 (fun y => E c main_arg1 (((cfg2.win 0).blk t).view.emb y))
      (fun y => E c main_v40 (((cfg2.win 1).blk t).view.emb y))
      (fun y => E c main_arg5 (((cfg2.win 2).blk t).view.emb y)) j
    = scaleMatmul 100000 (E c main_arg1) (E c main_v40) (E c main_arg5) (((cfg2.win 3).blk t).view.emb j)
  exact scaleMatmul_block (E c main_arg1) (E c main_v40) (E c main_arg5)
    ((cfg2.win 0).blk t).view.emb ((cfg2.win 1).blk t).view.emb ((cfg2.win 2).blk t).view.emb
    ((cfg2.win 3).blk t).view.emb (win2_3.index t (0 : Fin 2) * 2000)
    (fun y => by show win2_0.index t (0 : Fin 2) * 2000 + 1 * (y 0).val = _; omega)
    (fun y => by show win2_0.index t (1 : Fin 2) * 128 + 1 * (y 1).val = _; omega)
    (fun y => by show win2_1.index t (0 : Fin 2) * 2000 + 1 * (y 0).val = _; omega)
    (fun y => by show win2_2.index t (0 : Fin 2) * 128 + 1 * (y 0).val = _; omega)
    (fun y => by show win2_2.index t (1 : Fin 2) * 128 + 1 * (y 1).val = _; omega)
    (fun y => by show win2_3.index t (0 : Fin 2) * 2000 + 1 * (y 0).val = _; omega)
    (fun y => by show win2_3.index t (1 : Fin 2) * 128 + 1 * (y 1).val = _; omega) j

/-- An index of the array is in point t's block iff each coordinate is in the block's range on its axis. -/
theorem mem_blk2 (t : Fin cfg2.N) (i : (Mat 100000).Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v43).slice (win2_3.rect t)).set ↔ _
  rw [View.set_slice_whole, Rect.mem_set_unit]
  exact Iff.rfl

/-- Row r is in the block of point r / 2000. -/
theorem cover2 (i : (Mat 100000).Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 50 := N_2
  let t : Fin cfg2.N := ⟨(i 0).val / 2000, by rw [hN]; omega⟩
  obtain ⟨e0, e1, e2, e3, e4, e5, e6, e7⟩ := idx_facts2 t
  have e6' : win2_3.index t (0 : Fin 2) = (i 0).val / 2000 := e6
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- The array region 2 leaves: the row-block function of the three arrays it found. -/
theorem final2 (c : Dev nD) :
    (dat2 (F := Ideal) E c).arrAt 3 cfg2.N = scaleMatmul 100000 (E c main_arg1) (E c main_v40) (E c main_arg5) :=
  (dat2 (F := Ideal) E c).arrAt_eq_of_cover 3 _ (fun t _ => flushed2_eq E c t) (cover2)

end Region2

/-! ## Region 3: 10000 rows in 5 blocks, scale, shift and rectify -/

section Region3
variable (E : (c : Dev nD) → (b : Ref sig .tc) → Buf (Elt Ideal) ((c : Thread nD τ).loc b))

/-- The index maps over the grid: the matrix's, the column's and the output's blocks are the t-th on the row axis
    and the only one across; the bias row's block is the whole row. -/
theorem idx_facts3 : ∀ t : Fin cfg3.N,
    win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the row-block function of the arrays as the region finds them. -/
theorem flushed3_eq (c : Dev nD) (t : Fin cfg3.N) :
    (dat3 (F := Ideal) E c).flushed 3 t
      = ((cfg3.win 3).blk t).view.read (Elt Ideal) (scaleShiftLeaky 10000 (E c main_v53) (E c main_v42) (E c main_v54)) := by
  show (cfg3.win 3).cut (grid3.coords t) ((dat3 (F := Ideal) E c).after 3 t) = _
  rw [after3_3]
  unfold out3_3
  rw [View.canon_unit_zero zeros2]
  simp only [View.ld_unit_zero (S := S2000x128) zeros2, View.ld_unit_zero (S := S2000x1) zeros2,
    View.ld_unit_zero (S := S1x128) zeros2]
  rw [k3_pay1_eq]
  obtain ⟨e0, e1, e2, e3, e4, e5, e6, e7⟩ := idx_facts3 t
  funext j
  show scaleShiftLeaky 2000 (fun y => E c main_v53 (((cfg3.win 0).blk t).view.emb y))
      (fun y => E c main_v42 (((cfg3.win 1).blk t).view.emb y))
      (fun y => E c main_v54 (((cfg3.win 2).blk t).view.emb y)) j
    = scaleShiftLeaky 10000 (E c main_v53) (E c main_v42) (E c main_v54) (((cfg3.win 3).blk t).view.emb j)
  exact scaleShiftLeaky_block (E c main_v53) (E c main_v42) (E c main_v54)
    ((cfg3.win 0).blk t).view.emb ((cfg3.win 1).blk t).view.emb ((cfg3.win 2).blk t).view.emb
    ((cfg3.win 3).blk t).view.emb (win3_3.index t (0 : Fin 2) * 2000)
    (fun y => by show win3_0.index t (0 : Fin 2) * 2000 + 1 * (y 0).val = _; omega)
    (fun y => by show win3_0.index t (1 : Fin 2) * 128 + 1 * (y 1).val = _; omega)
    (fun y => by show win3_1.index t (0 : Fin 2) * 2000 + 1 * (y 0).val = _; omega)
    (fun y => by show win3_2.index t (1 : Fin 2) * 128 + 1 * (y 1).val = _; omega)
    (fun y => by show win3_3.index t (0 : Fin 2) * 2000 + 1 * (y 0).val = _; omega)
    (fun y => by show win3_3.index t (1 : Fin 2) * 128 + 1 * (y 1).val = _; omega) j

/-- An index of the array is in point t's block iff each coordinate is in the block's range on its axis. -/
theorem mem_blk3 (t : Fin cfg3.N) (i : (Mat 10000).Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v55).slice (win3_3.rect t)).set ↔ _
  rw [View.set_slice_whole, Rect.mem_set_unit]
  exact Iff.rfl

/-- Row r is in the block of point r / 2000. -/
theorem cover3 (i : (Mat 10000).Idx) :
    ∃ t : Fin cfg3.N, (cfg3.win 3).flush t = true ∧ i ∈ ((cfg3.win 3).blk t).view.set := by
  have hi0 : (i 0).val < 10000 := (i 0).isLt
  have hi1 : (i 1).val < 128 := (i 1).isLt
  have hN : cfg3.N = 5 := N_3
  let t : Fin cfg3.N := ⟨(i 0).val / 2000, by rw [hN]; omega⟩
  obtain ⟨e0, e1, e2, e3, e4, e5, e6, e7⟩ := idx_facts3 t
  have e6' : win3_3.index t (0 : Fin 2) = (i 0).val / 2000 := e6
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

/-- The array region 3 leaves: the row-block function of the three arrays it found. -/
theorem final3 (c : Dev nD) :
    (dat3 (F := Ideal) E c).arrAt 3 cfg3.N = scaleShiftLeaky 10000 (E c main_v53) (E c main_v42) (E c main_v54) :=
  (dat3 (F := Ideal) E c).arrAt_eq_of_cover 3 _ (fun t _ => flushed3_eq E c t) (cover3)

end Region3

/-! ## Region 4: 10000 rows in 5 blocks, scale and multiply -/

section Region4
variable (E : (c : Dev nD) → (b : Ref sig .tc) → Buf (Elt Ideal) ((c : Thread nD τ).loc b))

/-- The index maps over the grid: the matrix's, the column's and the output's blocks are the t-th on the row axis
    and the only one across; the weight's block is the whole weight. -/
theorem idx_facts4 : ∀ t : Fin cfg4.N,
    win4_0.index t (0 : Fin 2) = win4_3.index t (0 : Fin 2) ∧ win4_0.index t (1 : Fin 2) = 0
    ∧ win4_1.index t (0 : Fin 2) = win4_3.index t (0 : Fin 2) ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the row-block function of the arrays as the region finds them. -/
theorem flushed4_eq (c : Dev nD) (t : Fin cfg4.N) :
    (dat4 (F := Ideal) E c).flushed 3 t
      = ((cfg4.win 3).blk t).view.read (Elt Ideal) (scaleMatmul 10000 (E c main_arg2) (E c main_v68) (E c main_arg7)) := by
  show (cfg4.win 3).cut (grid4.coords t) ((dat4 (F := Ideal) E c).after 3 t) = _
  rw [after4_3]
  unfold out4_3
  rw [View.canon_unit_zero zeros2]
  simp only [View.ld_unit_zero (S := S2000x128) zeros2, View.ld_unit_zero (S := S2000x1) zeros2,
    View.ld_unit_zero (S := S128x128) zeros2]
  rw [k4_pay1_eq]
  obtain ⟨e0, e1, e2, e3, e4, e5, e6, e7⟩ := idx_facts4 t
  funext j
  show scaleMatmul 2000 (fun y => E c main_arg2 (((cfg4.win 0).blk t).view.emb y))
      (fun y => E c main_v68 (((cfg4.win 1).blk t).view.emb y))
      (fun y => E c main_arg7 (((cfg4.win 2).blk t).view.emb y)) j
    = scaleMatmul 10000 (E c main_arg2) (E c main_v68) (E c main_arg7) (((cfg4.win 3).blk t).view.emb j)
  exact scaleMatmul_block (E c main_arg2) (E c main_v68) (E c main_arg7)
    ((cfg4.win 0).blk t).view.emb ((cfg4.win 1).blk t).view.emb ((cfg4.win 2).blk t).view.emb
    ((cfg4.win 3).blk t).view.emb (win4_3.index t (0 : Fin 2) * 2000)
    (fun y => by show win4_0.index t (0 : Fin 2) * 2000 + 1 * (y 0).val = _; omega)
    (fun y => by show win4_0.index t (1 : Fin 2) * 128 + 1 * (y 1).val = _; omega)
    (fun y => by show win4_1.index t (0 : Fin 2) * 2000 + 1 * (y 0).val = _; omega)
    (fun y => by show win4_2.index t (0 : Fin 2) * 128 + 1 * (y 0).val = _; omega)
    (fun y => by show win4_2.index t (1 : Fin 2) * 128 + 1 * (y 1).val = _; omega)
    (fun y => by show win4_3.index t (0 : Fin 2) * 2000 + 1 * (y 0).val = _; omega)
    (fun y => by show win4_3.index t (1 : Fin 2) * 128 + 1 * (y 1).val = _; omega) j

/-- An index of the array is in point t's block iff each coordinate is in the block's range on its axis. -/
theorem mem_blk4 (t : Fin cfg4.N) (i : (Mat 10000).Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v71).slice (win4_3.rect t)).set ↔ _
  rw [View.set_slice_whole, Rect.mem_set_unit]
  exact Iff.rfl

/-- Row r is in the block of point r / 2000. -/
theorem cover4 (i : (Mat 10000).Idx) :
    ∃ t : Fin cfg4.N, (cfg4.win 3).flush t = true ∧ i ∈ ((cfg4.win 3).blk t).view.set := by
  have hi0 : (i 0).val < 10000 := (i 0).isLt
  have hi1 : (i 1).val < 128 := (i 1).isLt
  have hN : cfg4.N = 5 := N_4
  let t : Fin cfg4.N := ⟨(i 0).val / 2000, by rw [hN]; omega⟩
  obtain ⟨e0, e1, e2, e3, e4, e5, e6, e7⟩ := idx_facts4 t
  have e6' : win4_3.index t (0 : Fin 2) = (i 0).val / 2000 := e6
  refine ⟨t, flush4_3 t, ?_⟩
  rw [mem_blk4]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 128 ≤ (i 1).val ∧ (i 1).val < win4_3.index t (1 : Fin 2) * 128 + 128; omega

/-- The array region 4 leaves: the row-block function of the three arrays it found. -/
theorem final4 (c : Dev nD) :
    (dat4 (F := Ideal) E c).arrAt 3 cfg4.N = scaleMatmul 10000 (E c main_arg2) (E c main_v68) (E c main_arg7) :=
  (dat4 (F := Ideal) E c).arrAt_eq_of_cover 3 _ (fun t _ => flushed4_eq E c t) (cover4)

end Region4

/-! ## Region 5: 100000 rows in 50 blocks, scale, shift and rectify -/

section Region5
variable (E : (c : Dev nD) → (b : Ref sig .tc) → Buf (Elt Ideal) ((c : Thread nD τ).loc b))

/-- The index maps over the grid: the matrix's, the column's and the output's blocks are the t-th on the row axis
    and the only one across; the bias row's block is the whole row. -/
theorem idx_facts5 : ∀ t : Fin cfg5.N,
    win5_0.index t (0 : Fin 2) = win5_3.index t (0 : Fin 2) ∧ win5_0.index t (1 : Fin 2) = 0
    ∧ win5_1.index t (0 : Fin 2) = win5_3.index t (0 : Fin 2) ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point t writes back is block t of the row-block function of the arrays as the region finds them. -/
theorem flushed5_eq (c : Dev nD) (t : Fin cfg5.N) :
    (dat5 (F := Ideal) E c).flushed 3 t
      = ((cfg5.win 3).blk t).view.read (Elt Ideal) (scaleShiftLeaky 100000 (E c main_v81) (E c main_v70) (E c main_v82)) := by
  show (cfg5.win 3).cut (grid5.coords t) ((dat5 (F := Ideal) E c).after 3 t) = _
  rw [after5_3]
  unfold out5_3
  rw [View.canon_unit_zero zeros2]
  simp only [View.ld_unit_zero (S := S2000x128) zeros2, View.ld_unit_zero (S := S2000x1) zeros2,
    View.ld_unit_zero (S := S1x128) zeros2]
  rw [k5_pay1_eq]
  obtain ⟨e0, e1, e2, e3, e4, e5, e6, e7⟩ := idx_facts5 t
  funext j
  show scaleShiftLeaky 2000 (fun y => E c main_v81 (((cfg5.win 0).blk t).view.emb y))
      (fun y => E c main_v70 (((cfg5.win 1).blk t).view.emb y))
      (fun y => E c main_v82 (((cfg5.win 2).blk t).view.emb y)) j
    = scaleShiftLeaky 100000 (E c main_v81) (E c main_v70) (E c main_v82) (((cfg5.win 3).blk t).view.emb j)
  exact scaleShiftLeaky_block (E c main_v81) (E c main_v70) (E c main_v82)
    ((cfg5.win 0).blk t).view.emb ((cfg5.win 1).blk t).view.emb ((cfg5.win 2).blk t).view.emb
    ((cfg5.win 3).blk t).view.emb (win5_3.index t (0 : Fin 2) * 2000)
    (fun y => by show win5_0.index t (0 : Fin 2) * 2000 + 1 * (y 0).val = _; omega)
    (fun y => by show win5_0.index t (1 : Fin 2) * 128 + 1 * (y 1).val = _; omega)
    (fun y => by show win5_1.index t (0 : Fin 2) * 2000 + 1 * (y 0).val = _; omega)
    (fun y => by show win5_2.index t (1 : Fin 2) * 128 + 1 * (y 1).val = _; omega)
    (fun y => by show win5_3.index t (0 : Fin 2) * 2000 + 1 * (y 0).val = _; omega)
    (fun y => by show win5_3.index t (1 : Fin 2) * 128 + 1 * (y 1).val = _; omega) j

/-- An index of the array is in point t's block iff each coordinate is in the block's range on its axis. -/
theorem mem_blk5 (t : Fin cfg5.N) (i : (Mat 100000).Idx) :
    i ∈ ((cfg5.win 3).blk t).view.set ↔ ∀ a : Fin 2, win5_3.index t a * S2000x128.size a ≤ (i a).val
      ∧ (i a).val < win5_3.index t a * S2000x128.size a + S2000x128.size a := by
  show i ∈ ((View.whole main_v83).slice (win5_3.rect t)).set ↔ _
  rw [View.set_slice_whole, Rect.mem_set_unit]
  exact Iff.rfl

/-- Row r is in the block of point r / 2000. -/
theorem cover5 (i : (Mat 100000).Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 50 := N_5
  let t : Fin cfg5.N := ⟨(i 0).val / 2000, by rw [hN]; omega⟩
  obtain ⟨e0, e1, e2, e3, e4, e5, e6, e7⟩ := idx_facts5 t
  have e6' : win5_3.index t (0 : Fin 2) = (i 0).val / 2000 := e6
  refine ⟨t, flush5_3 t, ?_⟩
  rw [mem_blk5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 128 ≤ (i 1).val ∧ (i 1).val < win5_3.index t (1 : Fin 2) * 128 + 128; omega

/-- The array region 5 leaves: the row-block function of the three arrays it found. -/
theorem final5 (c : Dev nD) :
    (dat5 (F := Ideal) E c).arrAt 3 cfg5.N = scaleShiftLeaky 100000 (E c main_v81) (E c main_v70) (E c main_v82) :=
  (dat5 (F := Ideal) E c).arrAt_eq_of_cover 3 _ (fun t _ => flushed5_eq E c t) (cover5)

end Region5

end Cert.KernelIdeal.Conv

end
-- ==== Proof.Ideal.KTree.lean ====
/-
  The idealized kernel's result as the same tree the reference's result is.

  Each of the three graph convolutions runs as: a host stretch that counts degrees and takes reciprocal square roots,
  a grid region that scales the feature rows and multiplies them into the weight, a host stretch that gathers those rows
  along the edges and adds them up at their destinations, and a grid region that scales, shifts and rectifies. Reading
  each buffer off the run's valuations gives, for every convolution, exactly the reference's tree over the argument
  arrays: the only difference in spelling — the kernel reshapes a length-n vector to an n×1 column and the bias to a
  1×128 row where the reference broadcasts them — is no difference in value.
-/
import proofs.«111035_j79285096284406_1_alg».proof.Proof.Ideal.Run
import proofs.«111035_j79285096284406_1_alg».proof.Proof.Ideal.Blocks
import proofs.«111035_j79285096284406_1_alg».proof.Proof.Ideal.RefTree
import Idealize.ShloMosaic.Lib.StableHlo.Run
import Idealize.ShloMosaic.Lib.Pipeline.Value
import Idealize.ShloMosaic.Lib.ValueLayout
import Idealize.ShloMosaic.Lib.ValueIdx

set_option maxRecDepth 16384
set_option maxHeartbeats 2000000

noncomputable section

namespace Cert.KernelIdeal.Conv

open Cert.KernelIdeal Cert.KernelIdeal.Gen
open Idealize.ShloMosaic Idealize.ShloMosaic.TcCoe Idealize.SL.Sem Idealize.ShloMosaic.StableHlo Idealize.ShloMosaic.ValueIdx

/-! ## A vector as a column, a vector as a row -/

/-- A length-a vector cast to a×1 reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The length-20000 vector cast to a column is the vector broadcast to a column. -/
theorem col_eq_20000 (r : FVec Ideal Cert.ReferenceIdeal.S20000 .f32) (h : Cert.ReferenceIdeal.S20000.ShapeCasts Cert.ReferenceIdeal.S20000x1) :
    shapeCast Cert.ReferenceIdeal.S20000x1 r h = broadcastInDim Cert.ReferenceIdeal.S20000x1 ![0] Cert.ReferenceIdeal.Gen.bcast_S20000_S20000x1_0 r := by
  funext j
  obtain ⟨p, u, rfl⟩ : ∃ (p : Fin 20000) (u : Fin 1), j = ix2 p u := ⟨j 0, j 1, eq_ix2 j⟩
  obtain rfl : u = 0 := Subsingleton.elim _ _
  rw [Cert.ReferenceIdeal.Conv.col_apply_20000]
  exact shapeCast_a_a1_apply r h p 0

/-- The length-100000 vector cast to a column is the vector broadcast to a column. -/
theorem col_eq_100000 (r : FVec Ideal Cert.ReferenceIdeal.S100000 .f32) (h : Cert.ReferenceIdeal.S100000.ShapeCasts Cert.ReferenceIdeal.S100000x1) :
    shapeCast Cert.ReferenceIdeal.S100000x1 r h = broadcastInDim Cert.ReferenceIdeal.S100000x1 ![0] Cert.ReferenceIdeal.Gen.bcast_S100000_S100000x1_0 r := by
  funext j
  obtain ⟨p, u, rfl⟩ : ∃ (p : Fin 100000) (u : Fin 1), j = ix2 p u := ⟨j 0, j 1, eq_ix2 j⟩
  obtain rfl : u = 0 := Subsingleton.elim _ _
  rw [Cert.ReferenceIdeal.Conv.col_apply_100000]
  exact shapeCast_a_a1_apply r h p 0

/-- The length-10000 vector cast to a column is the vector broadcast to a column. -/
theorem col_eq_10000 (r : FVec Ideal Cert.ReferenceIdeal.S10000 .f32) (h : Cert.ReferenceIdeal.S10000.ShapeCasts Cert.ReferenceIdeal.S10000x1) :
    shapeCast Cert.ReferenceIdeal.S10000x1 r h = broadcastInDim Cert.ReferenceIdeal.S10000x1 ![0] Cert.ReferenceIdeal.Gen.bcast_S10000_S10000x1_0 r := by
  funext j
  obtain ⟨p, u, rfl⟩ : ∃ (p : Fin 10000) (u : Fin 1), j = ix2 p u := ⟨j 0, j 1, eq_ix2 j⟩
  obtain rfl : u = 0 := Subsingleton.elim _ _
  rw [Cert.ReferenceIdeal.Conv.col_apply_10000]
  exact shapeCast_a_a1_apply r h p 0

/-- The length-128 vector cast to a row is the vector broadcast to a row. -/
theorem row_eq (b : FVec Ideal Cert.ReferenceIdeal.S128 .f32) (h : Cert.ReferenceIdeal.S128.ShapeCasts Cert.ReferenceIdeal.S1x128) :
    shapeCast Cert.ReferenceIdeal.S1x128 b h = broadcastInDim Cert.ReferenceIdeal.S1x128 ![1] Cert.ReferenceIdeal.Gen.bcast_S128_S1x128_1 b := by
  funext j
  obtain ⟨u, q, rfl⟩ : ∃ (u : Fin 1) (q : Fin 128), j = ix2 u q := ⟨j 0, j 1, eq_ix2 j⟩
  obtain rfl : u = 0 := Subsingleton.elim _ _
  rw [Cert.ReferenceIdeal.Conv.row_apply]
  exact shapeCast_a_1a_apply b h 0 q

variable (m : (ℓ : Loc nD τ sig) → Buf (Elt Ideal) ℓ) (c : Dev nD)

/-! ## The convolution of the 20000-row features onto the same 20000 nodes -/

/-- The source-side scaling column the first region is handed: the reciprocal square roots of the clamped source degrees,
    as an n×1 array. -/
theorem svc_colSrc : E1 m c main_v12 = Cert.ReferenceIdeal.Read.val_main_v12 (F := Ideal) (m ((c.tc : Thread nD τ).loc main_arg9)) := by
  show StableHlo.after hostOps0 (B0 m c) (Proc.devRef .tc main_v12) = _
  after_results_simp
  show shapeCast Cert.ReferenceIdeal.S20000x1 _ _ = _
  rw [col_eq_20000]
  rfl

/-- The destination-side scaling column, computed before the first region and still there when the second is entered. -/
theorem svc_colDst : E3 m c main_v14 = Cert.ReferenceIdeal.Read.val_main_v27 (F := Ideal) (m ((c.tc : Thread nD τ).loc main_arg10)) := by
  show B3 m c (Proc.devRef .tc main_v14) = _
  rw [(B3_keep m c main_v14 (by decide)).trans <| (B2_keep m c main_v14 (by decide))]
  show StableHlo.after hostOps0 (B0 m c) (Proc.devRef .tc main_v14) = _
  after_results_simp
  show shapeCast Cert.ReferenceIdeal.S20000x1 _ _ = _
  rw [col_eq_20000]
  rfl

/-- The bias as a 1×128 row. -/
theorem svc_row : E3 m c main_v26 = Cert.ReferenceIdeal.Read.val_main_v30 (F := Ideal) (m ((c.tc : Thread nD τ).loc main_arg4)) := by
  show StableHlo.after hostOps1 (B2 m c) (Proc.devRef .tc main_v26) = _
  after_results_simp
  rw [(show B2 m c (Proc.devRef .tc main_arg4) = (m ((c.tc : Thread nD τ).loc main_arg4)) from ((B2_keep m c main_arg4 (by decide)).trans <| (B1_keep m c main_arg4 (by decide))).trans rfl)]
  show shapeCast Cert.ReferenceIdeal.S1x128 _ _ = _
  rw [row_eq]
  rfl

/-- What the first region leaves: every feature row scaled by its source factor and multiplied into the weight. -/
theorem svc_mat : B2 m c (Proc.devRef .tc main_v15)
    = Cert.GraphConv.scaleMatmul 20000 (m ((c.tc : Thread nD τ).loc main_arg0)) (Cert.ReferenceIdeal.Read.val_main_v12 (F := Ideal) (m ((c.tc : Thread nD τ).loc main_arg9))) (m ((c.tc : Thread nD τ).loc main_arg3)) := by
  show B2 m c (Proc.devRef .tc (Pipeline.arrRef spec0 3)) = _
  rw [B2_arr, final0, svc_colSrc m c]
  rw [(show E1 m c main_arg0 = (m ((c.tc : Thread nD τ).loc main_arg0)) from ((B1_keep m c main_arg0 (by decide))).trans rfl),
    (show E1 m c main_arg3 = (m ((c.tc : Thread nD τ).loc main_arg3)) from ((B1_keep m c main_arg3 (by decide))).trans rfl)]

/-- The aggregate the second region is handed: those rows gathered at the source indices and added up at the destination
    indices, into zeros. -/
theorem svc_scat : E3 m c main_v25
    = Host.scatterAdd (F := Ideal) (φ := .f32) Cert.ReferenceIdeal.scatter_S20000x128_S640000x1_S640000x128_1_0_0_1 (Cert.ReferenceIdeal.Read.val_main_v23 (F := Ideal)) (Cert.ReferenceIdeal.Read.val_main_v24 (F := Ideal) (m ((c.tc : Thread nD τ).loc main_arg10)))
        (Host.gather (α := Ideal .f32) Cert.ReferenceIdeal.gather_S20000x128_S640000x1_S640000x128_1_0_n_n_0_1_1128
          (Cert.GraphConv.scaleMatmul 20000 (m ((c.tc : Thread nD τ).loc main_arg0)) (Cert.ReferenceIdeal.Read.val_main_v12 (F := Ideal) (m ((c.tc : Thread nD τ).loc main_arg9))) (m ((c.tc : Thread nD τ).loc main_arg3)))
          (Cert.ReferenceIdeal.Read.val_main_v21 (F := Ideal) (m ((c.tc : Thread nD τ).loc main_arg9)))) := by
  show StableHlo.after hostOps1 (B2 m c) (Proc.devRef .tc main_v25) = _
  after_results_simp
  rw [(show B2 m c (Proc.devRef .tc main_arg9) = (m ((c.tc : Thread nD τ).loc main_arg9)) from ((B2_keep m c main_arg9 (by decide)).trans <| (B1_keep m c main_arg9 (by decide))).trans rfl),
    (show B2 m c (Proc.devRef .tc main_arg10) = (m ((c.tc : Thread nD τ).loc main_arg10)) from ((B2_keep m c main_arg10 (by decide)).trans <| (B1_keep m c main_arg10 (by decide))).trans rfl)]
  rw [svc_mat m c]
  rfl

/-- What the second region leaves is the reference's tree for this convolution. -/
theorem svc_out : B4 m c (Proc.devRef .tc main_v27)
    = Cert.ReferenceIdeal.Conv.svcR (m ((c.tc : Thread nD τ).loc main_arg0)) (m ((c.tc : Thread nD τ).loc main_arg3)) (m ((c.tc : Thread nD τ).loc main_arg4)) (m ((c.tc : Thread nD τ).loc main_arg9)) (m ((c.tc : Thread nD τ).loc main_arg10)) := by
  show B4 m c (Proc.devRef .tc (Pipeline.arrRef spec1 3)) = _
  rw [B4_arr, final1, svc_scat m c, svc_colDst m c, svc_row m c]
  rfl

/-! ## The convolution of the 100000-row features onto 10000 nodes -/

/-- The source-side scaling column the first region is handed: the reciprocal square roots of the clamped source degrees,
    as an n×1 array. -/
theorem node_colSrc : E5 m c main_v40 = Cert.ReferenceIdeal.Read.val_main_v45 (F := Ideal) (m ((c.tc : Thread nD τ).loc main_arg11)) := by
  show StableHlo.after hostOps2 (B4 m c) (Proc.devRef .tc main_v40) = _
  after_results_simp
  rw [(show B4 m c (Proc.devRef .tc main_arg11) = (m ((c.tc : Thread nD τ).loc main_arg11)) from ((B4_keep m c main_arg11 (by decide)).trans <| (B3_keep m c main_arg11 (by decide)).trans <| (B2_keep m c main_arg11 (by decide)).trans <| (B1_keep m c main_arg11 (by decide))).trans rfl)]
  show shapeCast Cert.ReferenceIdeal.S100000x1 _ _ = _
  rw [col_eq_100000]
  rfl

/-- The destination-side scaling column, computed before the first region and still there when the second is entered. -/
theorem node_colDst : E7 m c main_v42 = Cert.ReferenceIdeal.Read.val_main_v60 (F := Ideal) (m ((c.tc : Thread nD τ).loc main_arg12)) := by
  show B7 m c (Proc.devRef .tc main_v42) = _
  rw [(B7_keep m c main_v42 (by decide)).trans <| (B6_keep m c main_v42 (by decide))]
  show StableHlo.after hostOps2 (B4 m c) (Proc.devRef .tc main_v42) = _
  after_results_simp
  rw [(show B4 m c (Proc.devRef .tc main_arg12) = (m ((c.tc : Thread nD τ).loc main_arg12)) from ((B4_keep m c main_arg12 (by decide)).trans <| (B3_keep m c main_arg12 (by decide)).trans <| (B2_keep m c main_arg12 (by decide)).trans <| (B1_keep m c main_arg12 (by decide))).trans rfl)]
  show shapeCast Cert.ReferenceIdeal.S10000x1 _ _ = _
  rw [col_eq_10000]
  rfl

/-- The bias as a 1×128 row. -/
theorem node_row : E7 m c main_v54 = Cert.ReferenceIdeal.Read.val_main_v63 (F := Ideal) (m ((c.tc : Thread nD τ).loc main_arg6)) := by
  show StableHlo.after hostOps3 (B6 m c) (Proc.devRef .tc main_v54) = _
  after_results_simp
  rw [(show B6 m c (Proc.devRef .tc main_arg6) = (m ((c.tc : Thread nD τ).loc main_arg6)) from ((B6_keep m c main_arg6 (by decide)).trans <| (B5_keep m c main_arg6 (by decide)).trans <| (B4_keep m c main_arg6 (by decide)).trans <| (B3_keep m c main_arg6 (by decide)).trans <| (B2_keep m c main_arg6 (by decide)).trans <| (B1_keep m c main_arg6 (by decide))).trans rfl)]
  show shapeCast Cert.ReferenceIdeal.S1x128 _ _ = _
  rw [row_eq]
  rfl

/-- What the first region leaves: every feature row scaled by its source factor and multiplied into the weight. -/
theorem node_mat : B6 m c (Proc.devRef .tc main_v43)
    = Cert.GraphConv.scaleMatmul 100000 (m ((c.tc : Thread nD τ).loc main_arg1)) (Cert.ReferenceIdeal.Read.val_main_v45 (F := Ideal) (m ((c.tc : Thread nD τ).loc main_arg11))) (m ((c.tc : Thread nD τ).loc main_arg5)) := by
  show B6 m c (Proc.devRef .tc (Pipeline.arrRef spec2 3)) = _
  rw [B6_arr, final2, node_colSrc m c]
  rw [(show E5 m c main_arg1 = (m ((c.tc : Thread nD τ).loc main_arg1)) from ((B5_keep m c main_arg1 (by decide)).trans <| (B4_keep m c main_arg1 (by decide)).trans <| (B3_keep m c main_arg1 (by decide)).trans <| (B2_keep m c main_arg1 (by decide)).trans <| (B1_keep m c main_arg1 (by decide))).trans rfl),
    (show E5 m c main_arg5 = (m ((c.tc : Thread nD τ).loc main_arg5)) from ((B5_keep m c main_arg5 (by decide)).trans <| (B4_keep m c main_arg5 (by decide)).trans <| (B3_keep m c main_arg5 (by decide)).trans <| (B2_keep m c main_arg5 (by decide)).trans <| (B1_keep m c main_arg5 (by decide))).trans rfl)]

/-- The aggregate the second region is handed: those rows gathered at the source indices and added up at the destination
    indices, into zeros. -/
theorem node_scat : E7 m c main_v53
    = Host.scatterAdd (F := Ideal) (φ := .f32) Cert.ReferenceIdeal.scatter_S10000x128_S200000x1_S200000x128_1_0_0_1 (Cert.ReferenceIdeal.Read.val_main_v56 (F := Ideal)) (Cert.ReferenceIdeal.Read.val_main_v57 (F := Ideal) (m ((c.tc : Thread nD τ).loc main_arg12)))
        (Host.gather (α := Ideal .f32) Cert.ReferenceIdeal.gather_S100000x128_S200000x1_S200000x128_1_0_n_n_0_1_1128
          (Cert.GraphConv.scaleMatmul 100000 (m ((c.tc : Thread nD τ).loc main_arg1)) (Cert.ReferenceIdeal.Read.val_main_v45 (F := Ideal) (m ((c.tc : Thread nD τ).loc main_arg11))) (m ((c.tc : Thread nD τ).loc main_arg5)))
          (Cert.ReferenceIdeal.Read.val_main_v54 (F := Ideal) (m ((c.tc : Thread nD τ).loc main_arg11)))) := by
  show StableHlo.after hostOps3 (B6 m c) (Proc.devRef .tc main_v53) = _
  after_results_simp
  rw [(show B6 m c (Proc.devRef .tc main_arg11) = (m ((c.tc : Thread nD τ).loc main_arg11)) from ((B6_keep m c main_arg11 (by decide)).trans <| (B5_keep m c main_arg11 (by decide)).trans <| (B4_keep m c main_arg11 (by decide)).trans <| (B3_keep m c main_arg11 (by decide)).trans <| (B2_keep m c main_arg11 (by decide)).trans <| (B1_keep m c main_arg11 (by decide))).trans rfl),
    (show B6 m c (Proc.devRef .tc main_arg12) = (m ((c.tc : Thread nD τ).loc main_arg12)) from ((B6_keep m c main_arg12 (by decide)).trans <| (B5_keep m c main_arg12 (by decide)).trans <| (B4_keep m c main_arg12 (by decide)).trans <| (B3_keep m c main_arg12 (by decide)).trans <| (B2_keep m c main_arg12 (by decide)).trans <| (B1_keep m c main_arg12 (by decide))).trans rfl)]
  rw [node_mat m c]
  rfl

/-- What the second region leaves is the reference's tree for this convolution. -/
theorem node_out : B8 m c (Proc.devRef .tc main_v55)
    = Cert.ReferenceIdeal.Conv.nodeR (m ((c.tc : Thread nD τ).loc main_arg1)) (m ((c.tc : Thread nD τ).loc main_arg5)) (m ((c.tc : Thread nD τ).loc main_arg6)) (m ((c.tc : Thread nD τ).loc main_arg11)) (m ((c.tc : Thread nD τ).loc main_arg12)) := by
  show B8 m c (Proc.devRef .tc (Pipeline.arrRef spec3 3)) = _
  rw [B8_arr, final3, node_scat m c, node_colDst m c, node_row m c]
  rfl

/-! ## The convolution of the 10000-row features onto 100000 nodes -/

/-- The source-side scaling column the first region is handed: the reciprocal square roots of the clamped source degrees,
    as an n×1 array. -/
theorem inst_colSrc : E9 m c main_v68 = Cert.ReferenceIdeal.Read.val_main_v78 (F := Ideal) (m ((c.tc : Thread nD τ).loc main_arg13)) := by
  show StableHlo.after hostOps4 (B8 m c) (Proc.devRef .tc main_v68) = _
  after_results_simp
  rw [(show B8 m c (Proc.devRef .tc main_arg13) = (m ((c.tc : Thread nD τ).loc main_arg13)) from ((B8_keep m c main_arg13 (by decide)).trans <| (B7_keep m c main_arg13 (by decide)).trans <| (B6_keep m c main_arg13 (by decide)).trans <| (B5_keep m c main_arg13 (by decide)).trans <| (B4_keep m c main_arg13 (by decide)).trans <| (B3_keep m c main_arg13 (by decide)).trans <| (B2_keep m c main_arg13 (by decide)).trans <| (B1_keep m c main_arg13 (by decide))).trans rfl)]
  show shapeCast Cert.ReferenceIdeal.S10000x1 _ _ = _
  rw [col_eq_10000]
  rfl

/-- The destination-side scaling column, computed before the first region and still there when the second is entered. -/
theorem inst_colDst : E11 m c main_v70 = Cert.ReferenceIdeal.Read.val_main_v93 (F := Ideal) (m ((c.tc : Thread nD τ).loc main_arg14)) := by
  show B11 m c (Proc.devRef .tc main_v70) = _
  rw [(B11_keep m c main_v70 (by decide)).trans <| (B10_keep m c main_v70 (by decide))]
  show StableHlo.after hostOps4 (B8 m c) (Proc.devRef .tc main_v70) = _
  after_results_simp
  rw [(show B8 m c (Proc.devRef .tc main_arg14) = (m ((c.tc : Thread nD τ).loc main_arg14)) from ((B8_keep m c main_arg14 (by decide)).trans <| (B7_keep m c main_arg14 (by decide)).trans <| (B6_keep m c main_arg14 (by decide)).trans <| (B5_keep m c main_arg14 (by decide)).trans <| (B4_keep m c main_arg14 (by decide)).trans <| (B3_keep m c main_arg14 (by decide)).trans <| (B2_keep m c main_arg14 (by decide)).trans <| (B1_keep m c main_arg14 (by decide))).trans rfl)]
  show shapeCast Cert.ReferenceIdeal.S100000x1 _ _ = _
  rw [col_eq_100000]
  rfl

/-- The bias as a 1×128 row. -/
theorem inst_row : E11 m c main_v82 = Cert.ReferenceIdeal.Read.val_main_v96 (F := Ideal) (m ((c.tc : Thread nD τ).loc main_arg8)) := by
  show StableHlo.after hostOps5 (B10 m c) (Proc.devRef .tc main_v82) = _
  after_results_simp
  rw [(show B10 m c (Proc.devRef .tc main_arg8) = (m ((c.tc : Thread nD τ).loc main_arg8)) from ((B10_keep m c main_arg8 (by decide)).trans <| (B9_keep m c main_arg8 (by decide)).trans <| (B8_keep m c main_arg8 (by decide)).trans <| (B7_keep m c main_arg8 (by decide)).trans <| (B6_keep m c main_arg8 (by decide)).trans <| (B5_keep m c main_arg8 (by decide)).trans <| (B4_keep m c main_arg8 (by decide)).trans <| (B3_keep m c main_arg8 (by decide)).trans <| (B2_keep m c main_arg8 (by decide)).trans <| (B1_keep m c main_arg8 (by decide))).trans rfl)]
  show shapeCast Cert.ReferenceIdeal.S1x128 _ _ = _
  rw [row_eq]
  rfl

/-- What the first region leaves: every feature row scaled by its source factor and multiplied into the weight. -/
theorem inst_mat : B10 m c (Proc.devRef .tc main_v71)
    = Cert.GraphConv.scaleMatmul 10000 (m ((c.tc : Thread nD τ).loc main_arg2)) (Cert.ReferenceIdeal.Read.val_main_v78 (F := Ideal) (m ((c.tc : Thread nD τ).loc main_arg13))) (m ((c.tc : Thread nD τ).loc main_arg7)) := by
  show B10 m c (Proc.devRef .tc (Pipeline.arrRef spec4 3)) = _
  rw [B10_arr, final4, inst_colSrc m c]
  rw [(show E9 m c main_arg2 = (m ((c.tc : Thread nD τ).loc main_arg2)) from ((B9_keep m c main_arg2 (by decide)).trans <| (B8_keep m c main_arg2 (by decide)).trans <| (B7_keep m c main_arg2 (by decide)).trans <| (B6_keep m c main_arg2 (by decide)).trans <| (B5_keep m c main_arg2 (by decide)).trans <| (B4_keep m c main_arg2 (by decide)).trans <| (B3_keep m c main_arg2 (by decide)).trans <| (B2_keep m c main_arg2 (by decide)).trans <| (B1_keep m c main_arg2 (by decide))).trans rfl),
    (show E9 m c main_arg7 = (m ((c.tc : Thread nD τ).loc main_arg7)) from ((B9_keep m c main_arg7 (by decide)).trans <| (B8_keep m c main_arg7 (by decide)).trans <| (B7_keep m c main_arg7 (by decide)).trans <| (B6_keep m c main_arg7 (by decide)).trans <| (B5_keep m c main_arg7 (by decide)).trans <| (B4_keep m c main_arg7 (by decide)).trans <| (B3_keep m c main_arg7 (by decide)).trans <| (B2_keep m c main_arg7 (by decide)).trans <| (B1_keep m c main_arg7 (by decide))).trans rfl)]

/-- The aggregate the second region is handed: those rows gathered at the source indices and added up at the destination
    indices, into zeros. -/
theorem inst_scat : E11 m c main_v81
    = Host.scatterAdd (F := Ideal) (φ := .f32) Cert.ReferenceIdeal.scatter_S100000x128_S200000x1_S200000x128_1_0_0_1 (Cert.ReferenceIdeal.Read.val_main_v89 (F := Ideal)) (Cert.ReferenceIdeal.Read.val_main_v90 (F := Ideal) (m ((c.tc : Thread nD τ).loc main_arg14)))
        (Host.gather (α := Ideal .f32) Cert.ReferenceIdeal.gather_S10000x128_S200000x1_S200000x128_1_0_n_n_0_1_1128
          (Cert.GraphConv.scaleMatmul 10000 (m ((c.tc : Thread nD τ).loc main_arg2)) (Cert.ReferenceIdeal.Read.val_main_v78 (F := Ideal) (m ((c.tc : Thread nD τ).loc main_arg13))) (m ((c.tc : Thread nD τ).loc main_arg7)))
          (Cert.ReferenceIdeal.Read.val_main_v87 (F := Ideal) (m ((c.tc : Thread nD τ).loc main_arg13)))) := by
  show StableHlo.after hostOps5 (B10 m c) (Proc.devRef .tc main_v81) = _
  after_results_simp
  rw [(show B10 m c (Proc.devRef .tc main_arg13) = (m ((c.tc : Thread nD τ).loc main_arg13)) from ((B10_keep m c main_arg13 (by decide)).trans <| (B9_keep m c main_arg13 (by decide)).trans <| (B8_keep m c main_arg13 (by decide)).trans <| (B7_keep m c main_arg13 (by decide)).trans <| (B6_keep m c main_arg13 (by decide)).trans <| (B5_keep m c main_arg13 (by decide)).trans <| (B4_keep m c main_arg13 (by decide)).trans <| (B3_keep m c main_arg13 (by decide)).trans <| (B2_keep m c main_arg13 (by decide)).trans <| (B1_keep m c main_arg13 (by decide))).trans rfl),
    (show B10 m c (Proc.devRef .tc main_arg14) = (m ((c.tc : Thread nD τ).loc main_arg14)) from ((B10_keep m c main_arg14 (by decide)).trans <| (B9_keep m c main_arg14 (by decide)).trans <| (B8_keep m c main_arg14 (by decide)).trans <| (B7_keep m c main_arg14 (by decide)).trans <| (B6_keep m c main_arg14 (by decide)).trans <| (B5_keep m c main_arg14 (by decide)).trans <| (B4_keep m c main_arg14 (by decide)).trans <| (B3_keep m c main_arg14 (by decide)).trans <| (B2_keep m c main_arg14 (by decide)).trans <| (B1_keep m c main_arg14 (by decide))).trans rfl)]
  rw [inst_mat m c]
  rfl

/-- What the second region leaves is the reference's tree for this convolution. -/
theorem inst_out : B12 m c (Proc.devRef .tc main_v83)
    = Cert.ReferenceIdeal.Conv.instR (m ((c.tc : Thread nD τ).loc main_arg2)) (m ((c.tc : Thread nD τ).loc main_arg7)) (m ((c.tc : Thread nD τ).loc main_arg8)) (m ((c.tc : Thread nD τ).loc main_arg13)) (m ((c.tc : Thread nD τ).loc main_arg14)) := by
  show B12 m c (Proc.devRef .tc (Pipeline.arrRef spec5 3)) = _
  rw [B12_arr, final5, inst_scat m c, inst_colDst m c, inst_row m c]
  rfl

/-! ## The returned array -/

/-- At the return the result buffer holds the three convolutions' results joined along the rows, in the reference's order. -/
theorem ker_result : B13 m c (Proc.devRef .tc main_v84)
    = concatenate Cert.ReferenceIdeal.S130000x128 0
        [⟨Cert.ReferenceIdeal.S10000x128, Cert.ReferenceIdeal.Conv.nodeR (m ((c.tc : Thread nD τ).loc main_arg1)) (m ((c.tc : Thread nD τ).loc main_arg5)) (m ((c.tc : Thread nD τ).loc main_arg6)) (m ((c.tc : Thread nD τ).loc main_arg11)) (m ((c.tc : Thread nD τ).loc main_arg12))⟩,
         ⟨Cert.ReferenceIdeal.S100000x128, Cert.ReferenceIdeal.Conv.instR (m ((c.tc : Thread nD τ).loc main_arg2)) (m ((c.tc : Thread nD τ).loc main_arg7)) (m ((c.tc : Thread nD τ).loc main_arg8)) (m ((c.tc : Thread nD τ).loc main_arg13)) (m ((c.tc : Thread nD τ).loc main_arg14))⟩,
         ⟨Cert.ReferenceIdeal.S20000x128, Cert.ReferenceIdeal.Conv.svcR (m ((c.tc : Thread nD τ).loc main_arg0)) (m ((c.tc : Thread nD τ).loc main_arg3)) (m ((c.tc : Thread nD τ).loc main_arg4)) (m ((c.tc : Thread nD τ).loc main_arg9)) (m ((c.tc : Thread nD τ).loc main_arg10))⟩]
        Cert.ReferenceIdeal.Gen.concatenates_S10000x128_S100000x128_S20000x128_S130000x128_d0 := by
  show StableHlo.after hostOps6 (B12 m c) (Proc.devRef .tc main_v84) = _
  after_results
  show concatenate S130000x128 0 [⟨S10000x128, B12 m c (Proc.devRef .tc main_v55)⟩, ⟨S100000x128, B12 m c (Proc.devRef .tc main_v83)⟩,
      ⟨S20000x128, B12 m c (Proc.devRef .tc main_v27)⟩] concatenates_S10000x128_S100000x128_S20000x128_S130000x128_d0 = _
  rw [(show B12 m c (Proc.devRef .tc main_v55) = B8 m c (Proc.devRef .tc main_v55) from (B12_keep m c main_v55 (by decide)).trans <| (B11_keep m c main_v55 (by decide)).trans <| (B10_keep m c main_v55 (by decide)).trans <| (B9_keep m c main_v55 (by decide))),
    (show B12 m c (Proc.devRef .tc main_v27) = B4 m c (Proc.devRef .tc main_v27) from (B12_keep m c main_v27 (by decide)).trans <| (B11_keep m c main_v27 (by decide)).trans <| (B10_keep m c main_v27 (by decide)).trans <| (B9_keep m c main_v27 (by decide)).trans <| (B8_keep m c main_v27 (by decide)).trans <| (B7_keep m c main_v27 (by decide)).trans <| (B6_keep m c main_v27 (by decide)).trans <| (B5_keep m c main_v27 (by decide))),
    node_out m c, inst_out m c, svc_out m c]

end Cert.KernelIdeal.Conv

end
-- ==== Proof.lean ====
/-
  Three normalised graph convolutions with a leaky rectifier, joined along the rows: a tiled kernel against its plain
  reference, over the extended reals.

  For each edge type the layer computes  leaky( D_dst^{-1/2} · A · (D_src^{-1/2} · X · W) + b ),  where A sums, for every
  destination node, the rows of its source neighbours, and D_src, D_dst are the degree counts clamped below at 1. The kernel
  does the two dense stages — "scale the rows, multiply into W" and "scale the rows, add b, rectify" — in grid regions of
  2000 rows each, and leaves the degree counts, the gather along the edges and the scatter-add to host operations; the
  reference does everything with host operations. Over the extended reals a change of float format is the identity and a
  block-by-block product is the product, so the two programs apply the same operations to the same arrays in the same
  order, and no algebraic law — hence no finiteness of the inputs — is needed: the proof never opens the precondition.

  The frames: each program runs to its end, faults nowhere and leaves its argument arrays as launched. For the kernel (as
  printed and idealized) this is the run of its thirteen segments with known buffer contents between them; for the
  reference it is its run with the result dropped. The idealization rewrote nothing, so there is nothing to preserve.
  The value: at the return the kernel's result buffer and the reference's hold one and the same tree over the arguments.
-/
import proofs.«111035_j79285096284406_1_alg».proof.Defs
import proofs.«111035_j79285096284406_1_alg».proof.Proof.Gen.Kernel
import proofs.«111035_j79285096284406_1_alg».proof.Proof.Gen.KernelIdeal
import proofs.«111035_j79285096284406_1_alg».proof.Proof.Gen.ReferenceIdeal
import proofs.«111035_j79285096284406_1_alg».proof.Proof.Gen.ReferenceIdeal.Run
import proofs.«111035_j79285096284406_1_alg».proof.Proof.Gen.ReferenceIdeal.Read
import proofs.«111035_j79285096284406_1_alg».proof.Proof.Gen.Pre_finite_inputs
import proofs.«111035_j79285096284406_1_alg».proof.Proof.Bits.Run
import proofs.«111035_j79285096284406_1_alg».proof.Proof.Ideal.Run
import proofs.«111035_j79285096284406_1_alg».proof.Proof.Ideal.RefTree
import proofs.«111035_j79285096284406_1_alg».proof.Proof.Ideal.KTree
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs to its end and leaves its arguments as launched. -/
theorem frame_k [Cert.Kernel.Facts] [Cert.Pre_finite_inputs.Facts] : Cert.frame_Kernel :=
  fun m ρ _ => Cert.Kernel.Conv.frame_all (F := Bits) m ρ

/-- So does its idealization. -/
theorem frame_ki [Cert.KernelIdeal.Facts] [Cert.Pre_finite_inputs.Facts] : Cert.frame_KernelIdeal :=
  fun m ρ _ => Cert.KernelIdeal.Conv.frame_all (F := Ideal) m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both idealized programs end with the same array: the three convolutions' trees over the (agreeing) arguments, joined. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.KernelIdeal.Conv.B13 m c (Proc.devRef .tc Cert.KernelIdeal.main_v84), ?_, ?_⟩
  · exact (θ_run Cert.KernelIdeal.defs _ _).mono (fun r h c =>
      ⟨h c _ (Cert.KernelIdeal.Conv.mem_uc Cert.KernelIdeal.main_v84 (by decide)),
       (h c _ (Cert.KernelIdeal.Conv.mem_uc Cert.KernelIdeal.main_arg0 (by decide))).trans (Cert.KernelIdeal.Conv.B13_main_arg0 m c),
       (h c _ (Cert.KernelIdeal.Conv.mem_uc Cert.KernelIdeal.main_arg1 (by decide))).trans (Cert.KernelIdeal.Conv.B13_main_arg1 m c),
       (h c _ (Cert.KernelIdeal.Conv.mem_uc Cert.KernelIdeal.main_arg2 (by decide))).trans (Cert.KernelIdeal.Conv.B13_main_arg2 m c),
       (h c _ (Cert.KernelIdeal.Conv.mem_uc Cert.KernelIdeal.main_arg3 (by decide))).trans (Cert.KernelIdeal.Conv.B13_main_arg3 m c),
       (h c _ (Cert.KernelIdeal.Conv.mem_uc Cert.KernelIdeal.main_arg4 (by decide))).trans (Cert.KernelIdeal.Conv.B13_main_arg4 m c),
       (h c _ (Cert.KernelIdeal.Conv.mem_uc Cert.KernelIdeal.main_arg5 (by decide))).trans (Cert.KernelIdeal.Conv.B13_main_arg5 m c),
       (h c _ (Cert.KernelIdeal.Conv.mem_uc Cert.KernelIdeal.main_arg6 (by decide))).trans (Cert.KernelIdeal.Conv.B13_main_arg6 m c),
       (h c _ (Cert.KernelIdeal.Conv.mem_uc Cert.KernelIdeal.main_arg7 (by decide))).trans (Cert.KernelIdeal.Conv.B13_main_arg7 m c),
       (h c _ (Cert.KernelIdeal.Conv.mem_uc Cert.KernelIdeal.main_arg8 (by decide))).trans (Cert.KernelIdeal.Conv.B13_main_arg8 m c),
       (h c _ (Cert.KernelIdeal.Conv.mem_uc Cert.KernelIdeal.main_arg9 (by decide))).trans (Cert.KernelIdeal.Conv.B13_main_arg9 m c),
       (h c _ (Cert.KernelIdeal.Conv.mem_uc Cert.KernelIdeal.main_arg10 (by decide))).trans (Cert.KernelIdeal.Conv.B13_main_arg10 m c),
       (h c _ (Cert.KernelIdeal.Conv.mem_uc Cert.KernelIdeal.main_arg11 (by decide))).trans (Cert.KernelIdeal.Conv.B13_main_arg11 m c),
       (h c _ (Cert.KernelIdeal.Conv.mem_uc Cert.KernelIdeal.main_arg12 (by decide))).trans (Cert.KernelIdeal.Conv.B13_main_arg12 m c),
       (h c _ (Cert.KernelIdeal.Conv.mem_uc Cert.KernelIdeal.main_arg13 (by decide))).trans (Cert.KernelIdeal.Conv.B13_main_arg13 m c),
       (h c _ (Cert.KernelIdeal.Conv.mem_uc Cert.KernelIdeal.main_arg14 (by decide))).trans (Cert.KernelIdeal.Conv.B13_main_arg14 m c)⟩)
      (Cert.KernelIdeal.Conv.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    show Cert.ReferenceIdeal.Value.res_main_v114 (F := Ideal) m' c = Cert.KernelIdeal.Conv.B13 m c (Proc.devRef .tc Cert.KernelIdeal.main_v84)
    rw [Cert.KernelIdeal.Conv.ker_result m c, Cert.ReferenceIdeal.Conv.ref_result m' c,
      h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
